-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S4x2048x1024 .f32) (main_arg1 : FVec F S4x2048x1024 .f32) (main_arg2 : FVec F S4x2048x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S1x1024 : Shape := ⟨2, ![1, 1024]⟩
abbrev S1x512x1024 : Shape := ⟨3, ![1, 512, 1024]⟩
abbrev S2048x1024 : Shape := ⟨2, ![2048, 1024]⟩
abbrev S512x1024 : Shape := ⟨2, ![512, 1024]⟩
abbrev S512x1 : Shape := ⟨2, ![512, 1]⟩
abbrev S1024x512 : Shape := ⟨2, ![1024, 512]⟩
abbrev S512x512 : Shape := ⟨2, ![512, 512]⟩
abbrev S512 : Shape := ⟨1, ![512]⟩

abbrev nBuf : Space → Nat
  | .hbm => 19
  | .vmem => 16
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S4x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x512x1024, .f32⟩
  | .local _ .vmem, ⟨13, _⟩ => ⟨S1x512x1024, .f32⟩
  | .local _ .vmem, ⟨14, _⟩ => ⟨S2048x1024, .bf16⟩
  | .local _ .vmem, ⟨15, _⟩ => ⟨S2048x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c4_i32 : BitVec 32 := 4#32
  let v0 : BitVec 1 := Scalar.cmpi .slt arg1 c4_i32
  let v1 : BitVec 32 := Scalar.extui v0
  let c0_i32 : BitVec 32 := 0#32
  let v2 : BitVec 1 := Scalar.cmpi .ne v1 c0_i32
  v2

def k0_mult1 (i : grid0.Coords) : BitVec 32 :=
  let arg1 : BitVec 32 := BitVec.ofNat 32 (i 1).val
  let c512_i32 : BitVec 32 := 512#32
  let v26 : BitVec 32 := Scalar.muli arg1 c512_i32
  v26
def k0_off1 (i : grid0.Coords) : Fin 2 → Nat :=
  let arg1 : BitVec 32 := BitVec.ofNat 32 (i 1).val
  let c512_i32 : BitVec 32 := 512#32
  let v26 : BitVec 32 := Scalar.muli arg1 c512_i32
  let v27 : BitVec 32 := v26
  let v29 : Index := Scalar.indexCast v27
  let c0_16 : Index := 0#32
  ![v29.toNat, 0]
def k0_cond2 (i : grid0.Coords) : BitVec 1 :=
  let arg1 : BitVec 32 := BitVec.ofNat 32 (i 1).val
  let c4_i32_0 : BitVec 32 := 4#32
  let v3 : BitVec 1 := Scalar.cmpi .sge arg1 c4_i32_0
  let v4 : BitVec 32 := Scalar.extui v3
  let c0_i32_1 : BitVec 32 := 0#32
  let v5 : BitVec 1 := Scalar.cmpi .ne v4 c0_i32_1
  v5

def k0_mult2 : BitVec 32 :=
  let c0_i32_11 : BitVec 32 := 0#32
  let c512_i32 : BitVec 32 := 512#32
  let v20 : BitVec 32 := Scalar.muli c0_i32_11 c512_i32
  v20
def k0_off2 (c0_i32_11 : BitVec 32) : Fin 2 → Nat :=
  let c512_i32 : BitVec 32 := 512#32
  let v20 : BitVec 32 := Scalar.muli c0_i32_11 c512_i32
  let v21 : BitVec 32 := v20
  let v22 : Index := Scalar.indexCast v21
  let c0_12 : Index := 0#32
  ![v22.toNat, 0]
def k0_mult3 : BitVec 32 :=
  let c1_i32 : BitVec 32 := 1#32
  let c512_i32_19 : BitVec 32 := 512#32
  let v47 : BitVec 32 := Scalar.muli c1_i32 c512_i32_19
  v47
def k0_mult4 : BitVec 32 :=
  let c2_i32 : BitVec 32 := 2#32
  let c512_i32_27 : BitVec 32 := 512#32
  let v74 : BitVec 32 := Scalar.muli c2_i32 c512_i32_27
  v74
def k0_mult5 : BitVec 32 :=
  let c3_i32 : BitVec 32 := 3#32
  let c512_i32_35 : BitVec 32 := 512#32
  let v101 : BitVec 32 := Scalar.muli c3_i32 c512_i32_35
  v101
def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c4_i32_0 : BitVec 32 := 4#32
  let v1 : BitVec 32 := Scalar.subi arg1 c4_i32_0
  let c0_i32 : BitVec 32 := 0#32
  let v2 : BitVec 32 := Scalar.select v0 c0_i32 v1
  let c0_i32_1 : BitVec 32 := 0#32
  let c0_i32_2 : BitVec 32 := 0#32
  ![arg0.toNat, v2.toNat, c0_i32_1.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c3_i32 : BitVec 32 := 3#32
  let v1 : BitVec 32 := Scalar.select v0 arg1 c3_i32
  let c0_i32 : BitVec 32 := 0#32
  let c0_i32_0 : BitVec 32 := 0#32
  ![arg0.toNat, v1.toNat, c0_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c3_i32 : BitVec 32 := 3#32
  let v1 : BitVec 32 := Scalar.select v0 arg1 c3_i32
  let c0_i32 : BitVec 32 := 0#32
  let c0_i32_0 : BitVec 32 := 0#32
  ![arg0.toNat, v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c4_i32_0 : BitVec 32 := 4#32
  let v1 : BitVec 32 := Scalar.subi arg1 c4_i32_0
  let c0_i32 : BitVec 32 := 0#32
  let v2 : BitVec 32 := Scalar.select v0 c0_i32 v1
  let c0_i32_1 : BitVec 32 := 0#32
  let c0_i32_2 : BitVec 32 := 0#32
  ![arg0.toNat, v2.toNat, c0_i32_1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  h_S512x1024 : 0 < S512x1024.numel
  shapeCasts_S512x1024_S512x1024 : S512x1024.ShapeCasts S512x1024
  transposes_S512x1024_p1_0_S1024x512 : S512x1024.Transposes [1, 0] S1024x512
  reduces_S512x512_S512 : S512x512.Reduces [1] S512
  shapeCasts_S512_S512x1 : S512.ShapeCasts S512x1
  broadcasts_S512x1_S512x512 : S512x1.Broadcasts S512x512
  broadcasts_S512x1_S512x1024 : S512x1.Broadcasts S512x1024
  shapeCasts_S512x1024_S1x512x1024 : S512x1024.ShapeCasts S1x512x1024
  dot_S512x1024_S1024x1024_S512x1024_1_0_0_1_n_n_wf : DotDims.WF S512x1024 S1024x1024 S512x1024 [1] [0] [0] [1] [] []
  dot_S512x1024_S1024x512_S512x512_1_0_0_1_n_n_wf : DotDims.WF S512x1024 S1024x512 S512x512 [1] [0] [0] [1] [] []
  dot_S512x512_S512x1024_S512x1024_1_0_0_1_n_n_wf : DotDims.WF S512x512 S512x1024 S512x1024 [1] [0] [0] [1] [] []
  hrank0 : 0 < grid0.rank
  k0_mult1_dvd : ∀ i : grid0.Coords, ∀ (k0_h1 : k0_cond1 i = 1#1), 512 ∣ (k0_mult1 i).toNat
  k0_off1_inb : ∀ i : grid0.Coords, ∀ (k0_h1 : k0_cond1 i = 1#1), ∀ a, (k0_off1 i) a + S512x1024.size a ≤ S2048x1024.size a
  k0_off1_packedbf16 : ∀ i : grid0.Coords, ∀ (k0_h1 : k0_cond1 i = 1#1), (Rect.unit (s := S2048x1024) (k0_off1 i) S512x1024.size (k0_off1_inb i k0_h1)).PackedRows (EltTy.packing .bf16)
  k0_mult2_dvd : ∀ i : grid0.Coords, ∀ (k0_h2 : k0_cond2 i = 1#1), 512 ∣ k0_mult2.toNat
  k0_off2_inb : ∀ i : grid0.Coords, ∀ (k0_h2 : k0_cond2 i = 1#1), ∀ (r : Fin 4), ∀ a, (k0_off2 (BitVec.ofNat 32 r.val)) a + S512x1024.size a ≤ S2048x1024.size a
  k0_mult3_dvd : ∀ i : grid0.Coords, ∀ (k0_h2 : k0_cond2 i = 1#1), 512 ∣ k0_mult3.toNat
  k0_mult4_dvd : ∀ i : grid0.Coords, ∀ (k0_h2 : k0_cond2 i = 1#1), 512 ∣ k0_mult4.toNat
  k0_mult5_dvd : ∀ i : grid0.Coords, ∀ (k0_h2 : k0_cond2 i = 1#1), 512 ∣ k0_mult5.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x2048x1024.size a
  hwx0_0 : ∀ i : grid0.Coords, EltTy.bits .f32 = 32 ∨ (Rect.block (s := S4x2048x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S4x2048x1024.size a
  hwx0_1 : ∀ i : grid0.Coords, EltTy.bits .f32 = 32 ∨ (Rect.block (s := S4x2048x1024) S1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S4x2048x1024.size a
  hwx0_2 : ∀ i : grid0.Coords, EltTy.bits .f32 = 32 ∨ (Rect.block (s := S4x2048x1024) S1x512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x512x1024.size a ≤ S4x2048x1024.size a
  hwx0_9 : ∀ i : grid0.Coords, EltTy.bits .f32 = 32 ∨ (Rect.block (s := S4x2048x1024) S1x512x1024.size (cc0_transform_9 i) (hinb0_9 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S1x512x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | ⟨_ + 10, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S4x2048x1024, .f32⟩
  | .hbm, ⟨10, _⟩ => ⟨S1x1x1024, .f32⟩
  | .hbm, ⟨11, _⟩ => ⟨S4x2048x1024, .f32⟩
  | .hbm, ⟨12, _⟩ => ⟨S4x2048x1024, .f32⟩
  | .hbm, ⟨13, _⟩ => ⟨S4x2048x1024, .f32⟩
  | .hbm, ⟨14, _⟩ => ⟨S1x1x1024, .f32⟩
  | .hbm, ⟨15, _⟩ => ⟨S4x2048x1024, .f32⟩
  | .hbm, ⟨16, _⟩ => ⟨S4x2048x1024, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S4x2048x2048, .f32⟩
  | .hbm, ⟨22, _⟩ => ⟨S_, .f32⟩
  | .hbm, ⟨23, _⟩ => ⟨S_, .f32⟩
  | .hbm, ⟨24, _⟩ => ⟨S4x2048x2048, .f32⟩
  | .hbm, ⟨25, _⟩ => ⟨S4x2048x2048, .f32⟩
  | .hbm, ⟨26, _⟩ => ⟨S_, .f32⟩
  | .hbm, ⟨27, _⟩ => ⟨S4x2048, .f32⟩
  | .hbm, ⟨28, _⟩ => ⟨S_, .f32⟩
  | .hbm, ⟨29, _⟩ => ⟨S4x2048, .f32⟩
  | .hbm, ⟨30, _⟩ => ⟨S4x2048, .f32⟩
  | .hbm, ⟨31, _⟩ => ⟨S4x2048x1, .f32⟩
  | .hbm, ⟨32, _⟩ => ⟨S4x2048x2048, .f32⟩
  | .hbm, ⟨33, _⟩ => ⟨S4x2048x2048, .f32⟩
  | .hbm, ⟨34, _⟩ => ⟨S4x2048x2048, .f32⟩
  | .hbm, ⟨35, _⟩ => ⟨S_, .f32⟩
  | .hbm, ⟨36, _⟩ => ⟨S4x2048, .f32⟩
  | .hbm, ⟨37, _⟩ => ⟨S4x2048x1, .f32⟩
  | .hbm, ⟨38, _⟩ => ⟨S4x2048x2048, .f32⟩
  | .hbm, ⟨39, _⟩ => ⟨S4x2048x2048, .f32⟩
  | .hbm, ⟨40, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.KB.Common.lean ====
/-
  The schedule of the fused attention kernel on its 4 × 8 grid, in closed form.

  Point t = 8 b + j works on batch b. At j < 4 (the projection phase) the body projects key/value tile j of the
  batch and stores it into rows [512 j, 512 j + 512) of the two resident buffers; at j ≥ 4 (the attention
  phase) it projects query tile j - 4, reads the four resident tiles back and stores one output block. The
  output window is idle in the projection phase and is written back exactly at the attention-phase points.
-/
import proofs.«160587_j66159676228012_2_alg».proof.Proof.Gen.Kernel.Frame
import proofs.«160587_j66159676228012_2_alg».proof.Proof.Gen.Kernel.Skeleton
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The projection-phase branch is taken exactly at the points with j < 4. -/
theorem hcondA : ∀ t : Fin cfg0.N, k0_cond1 (grid0.coords t) = 1#1 ↔ t.val % 8 < 4 :=
  (by decide +kernel : ∀ t : Fin grid0.N, k0_cond1 (grid0.coords t) = 1#1 ↔ t.val % 8 < 4)

/-- The attention-phase branch is taken exactly at the points with j ≥ 4. -/
theorem hcondB : ∀ t : Fin cfg0.N, k0_cond2 (grid0.coords t) = 1#1 ↔ 4 ≤ t.val % 8 :=
  (by decide +kernel : ∀ t : Fin grid0.N, k0_cond2 (grid0.coords t) = 1#1 ↔ 4 ≤ t.val % 8)

/-- The rows a projection-phase point stores into start at 512 j. -/
theorem off1_eq : ∀ t : Fin cfg0.N, k0_off1 (grid0.coords t) = ![(t.val % 8) * 512, 0] :=
  (by decide +kernel : ∀ t : Fin grid0.N, k0_off1 (grid0.coords t) = ![(t.val % 8) * 512, 0])

/-- The rows of resident tile r start at 512 r. -/
theorem off2_0 : k0_off2 0#32 = ![0, 0] := by decide +kernel
theorem off2_1 : k0_off2 1#32 = ![512, 0] := by decide +kernel
theorem off2_2 : k0_off2 2#32 = ![1024, 0] := by decide +kernel
theorem off2_3 : k0_off2 3#32 = ![1536, 0] := by decide +kernel

/-- No input window is ever idle. -/
theorem live0 : ∀ (w : Fin 10), w.val < 9 → ∀ t : Fin cfg0.N, cfg0.idle w (grid0.coords t) = false := by decide +kernel
/-- The output window is idle throughout the projection phase, and not written back there; -/
theorem idle9_A : ∀ t : Fin cfg0.N, t.val % 8 < 4 → cfg0.idle 9 (grid0.coords t) = true := by decide +kernel
theorem noFlush9_A : ∀ t : Fin cfg0.N, t.val % 8 < 4 → (cfg0.win 9).flush t = false := by decide +kernel
/-- it is live, and written back, at every attention-phase point. -/
theorem live9_B : ∀ t : Fin cfg0.N, 4 ≤ t.val % 8 → cfg0.idle 9 (grid0.coords t) = false := by decide +kernel
theorem flush9_B : ∀ t : Fin cfg0.N, 4 ≤ t.val % 8 → (cfg0.win 9).flush t = true := by decide +kernel

/-- Each window's current staging memref at point t, as the pipeline passes it to the body, and its wholeness. -/
abbrev ms0 (t : Fin cfg0.N) : Memref sig .tc .vmem S1x512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1024 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1024 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x1024 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1024 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x1024 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x512x1024 .f32 := win0_9.stage (cfg0.slots t 9)
abbrev hs9 (t : Fin cfg0.N) : (ms9 t).IsWhole := hstage0_9 ((cfg0.slots t 9).cast nbuf0_9)

/-- The two resident buffers (keys, values): whole scoped buffers of the kernel's own. -/
abbrev scK : Memref sig .tc .vmem S2048x1024 .bf16 := Memref.whole cc0_scratch0
abbrev scV : Memref sig .tc .vmem S2048x1024 .bf16 := Memref.whole cc0_scratch1

/-- What the region hands the body besides the windows: the two resident buffers at some contents and the
    generator register at some state. -/
theorem PhiA0_eq (c : Dev nD) :
    (Pipeline.ΦA spec0 c : sProp 𝕄)
      = iprop(iprop((∃ d, owns (c : Thread nD τ) scK fullShare d) ∗ (∃ d, owns (c : Thread nD τ) scV fullShare d)) ∗ (∃ r, prngReg c r)) := by
  unfold Pipeline.ΦA; rw [scopedRest0_eq]; simp only [scK, scV, owns_whole]; try rfl

end Cert.Kernel.Hand

end
-- ==== Proof.KB.RunA.lean ====
/-
  The body at a projection-phase point (j < 4).

  It loads the key-side and value-side input blocks, the two weight matrices and the two bias rows, and stores
  the projected key tile and the projected value tile into rows [512 j, 512 j + 512) of the two resident
  buffers; the rest of those buffers, every input buffer, and the output buffer are left as they were.
-/
import proofs.«160587_j66159676228012_2_alg».proof.Proof.KB.Common
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The pieces the projection phase leaves in the two resident buffers (found by running the body), with the proof
    that from whole memrefs at the named contents the body runs to a continuation that gets the inputs back
    unchanged and the resident buffers with those pieces written over what they held. -/
noncomputable def kernelRunA (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x512x1024 .f32) (harg11 : arg11.IsWhole) (arg12 : Memref sig .tc .vmem S2048x1024 .bf16) (harg12 : arg12.IsWhole) (arg13 : Memref sig .tc .vmem S2048x1024 .bf16) (harg13 : arg13.IsWhole)
    (hc1 : k0_cond1 i = 1#1) (hc2 : ¬ k0_cond2 i = 1#1)
    (y z : Vec F S1x512x1024 .f32) (wk wv : Vec F S1024x1024 .bf16) (bk bv : Vec F S1x1024 .f32) (xk xv : Vec F S2048x1024 .bf16) :
    Σ' (LK : List (View.Piece (Elt F) S2048x1024 .bf16)), { LV : List (View.Piece (Elt F) S2048x1024 .bf16) //
      ∀ (E : Set ℕ) (K : PUnit → sProp 𝕄),
        iprop(owns (c : Thread nD τ) arg3 fullShare y ∗ owns (c : Thread nD τ) arg4 fullShare z ∗ owns (c : Thread nD τ) arg6 fullShare wk ∗ owns (c : Thread nD τ) arg7 fullShare wv ∗ owns (c : Thread nD τ) arg9 fullShare bk ∗ owns (c : Thread nD τ) arg10 fullShare bv ∗ owns (c : Thread nD τ) arg12 fullShare xk ∗ owns (c : Thread nD τ) arg13 fullShare xv
            ∗ (iprop(owns (c : Thread nD τ) arg3 fullShare y ∗ owns (c : Thread nD τ) arg4 fullShare z ∗ owns (c : Thread nD τ) arg6 fullShare wk ∗ owns (c : Thread nD τ) arg7 fullShare wv ∗ owns (c : Thread nD τ) arg9 fullShare bk ∗ owns (c : Thread nD τ) arg10 fullShare bv
                ∗ (arg12.view.loc (c : Thread nD τ) ↦[arg12.view.set]{fullShare} arg12.view.writes (Elt F) (harg12.unread xk) LK)
                ∗ (arg13.view.loc (c : Thread nD τ) ↦[arg13.view.set]{fullShare} arg13.view.writes (Elt F) (harg13.unread xv) LV)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0__fused_kernel_eq_skeleton]; unfold cc0__fused_kernel_skel
    unfold owns
    iintro ⟨⟨%f3, %hf3, H3⟩, ⟨%f4, %hf4, H4⟩, ⟨%f6, %hf6, H6⟩, ⟨%f7, %hf7, H7⟩, ⟨%f9, %hf9, H9⟩, ⟨%f10, %hf10, H10⟩, ⟨%f12, %hf12, H12⟩, ⟨%f13, %hf13, H13⟩, Hk⟩
    obtain rfl := harg3.eq_unread hf3; obtain rfl := harg4.eq_unread hf4; obtain rfl := harg6.eq_unread hf6
    obtain rfl := harg7.eq_unread hf7; obtain rfl := harg9.eq_unread hf9; obtain rfl := harg10.eq_unread hf10
    obtain rfl := harg12.eq_unread hf12; obtain rfl := harg13.eq_unread hf13
    sl_exec (disch := first | exact hc1 | exact hc2)
    sl_step
    iapply Hk
    isplitl [H3]
    · iexists _; isplitr; · ipureintro; exact harg3.read_unread _
      iexact H3
    isplitl [H4]
    · iexists _; isplitr; · ipureintro; exact harg4.read_unread _
      iexact H4
    isplitl [H6]
    · iexists _; isplitr; · ipureintro; exact harg6.read_unread _
      iexact H6
    isplitl [H7]
    · iexists _; isplitr; · ipureintro; exact harg7.read_unread _
      iexact H7
    isplitl [H9]
    · iexists _; isplitr; · ipureintro; exact harg9.read_unread _
      iexact H9
    isplitl [H10]
    · iexists _; isplitr; · ipureintro; exact harg10.read_unread _
      iexact H10
    isplitl [H12]
    · iexact H12
    iexact H13

end Cert.Kernel.Hand

end
-- ==== Proof.KB.RunB.lean ====
/-
  The body at an attention-phase point (j ≥ 4).

  It loads the query-side input block, the query weight matrix and bias row, and the four resident key tiles and
  four resident value tiles, computes the attention of the 512 projected query rows against the 2048 keys by an
  online softmax over the four tiles, and stores the quotient as the output block. Nothing else is written.
-/
import proofs.«160587_j66159676228012_2_alg».proof.Proof.KB.Common
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The piece the attention phase leaves in the output buffer (found by running the body), with the proof that
    from whole memrefs at the named contents the body runs to a continuation that gets every buffer it read
    back unchanged and the output buffer with that piece written. -/
noncomputable def kernelRunB (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x512x1024 .f32) (harg11 : arg11.IsWhole) (arg12 : Memref sig .tc .vmem S2048x1024 .bf16) (harg12 : arg12.IsWhole) (arg13 : Memref sig .tc .vmem S2048x1024 .bf16) (harg13 : arg13.IsWhole)
    (hc1 : ¬ k0_cond1 i = 1#1) (hc2 : k0_cond2 i = 1#1)
    (x : Vec F S1x512x1024 .f32) (wq : Vec F S1024x1024 .bf16) (bq : Vec F S1x1024 .f32) (xk xv : Vec F S2048x1024 .bf16) :
    { L9 : List (View.Piece (Elt F) S1x512x1024 .f32) //
      ∀ (E : Set ℕ) (K : PUnit → sProp 𝕄),
        iprop(owns (c : Thread nD τ) arg2 fullShare x ∗ owns (c : Thread nD τ) arg5 fullShare wq ∗ owns (c : Thread nD τ) arg8 fullShare bq ∗ (∃ d, owns (c : Thread nD τ) arg11 fullShare d) ∗ owns (c : Thread nD τ) arg12 fullShare xk ∗ owns (c : Thread nD τ) arg13 fullShare xv
            ∗ (iprop(owns (c : Thread nD τ) arg2 fullShare x ∗ owns (c : Thread nD τ) arg5 fullShare wq ∗ owns (c : Thread nD τ) arg8 fullShare bq
                ∗ (∃ f, arg11.view.loc (c : Thread nD τ) ↦[arg11.view.set]{fullShare} arg11.view.writes (Elt F) f L9)
                ∗ owns (c : Thread nD τ) arg12 fullShare xk ∗ owns (c : Thread nD τ) arg13 fullShare xv) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0__fused_kernel_eq_skeleton]; unfold cc0__fused_kernel_skel
    simp only [k0_part3_eq_skeleton, k0_part1_eq_skeleton, k0_part2_eq_skeleton]
    unfold owns
    iintro ⟨⟨%f2, %hf2, H2⟩, ⟨%f5, %hf5, H5⟩, ⟨%f8, %hf8, H8⟩, ⟨%d11, %f11, -, H11⟩, ⟨%f12, %hf12, H12⟩, ⟨%f13, %hf13, H13⟩, Hk⟩
    obtain rfl := harg2.eq_unread hf2; obtain rfl := harg5.eq_unread hf5; obtain rfl := harg8.eq_unread hf8
    obtain rfl := harg12.eq_unread hf12; obtain rfl := harg13.eq_unread hf13
    sl_exec (disch := first | exact hc1 | exact hc2)
    sl_step
    iapply Hk
    isplitl [H2]
    · iexists _; isplitr; · ipureintro; exact harg2.read_unread _
      iexact H2
    isplitl [H5]
    · iexists _; isplitr; · ipureintro; exact harg5.read_unread _
      iexact H5
    isplitl [H8]
    · iexists _; isplitr; · ipureintro; exact harg8.read_unread _
      iexact H8
    isplitl [H11]
    · iexists _; iexact H11
    isplitl [H12]
    · iexists _; isplitr; · ipureintro; exact harg12.read_unread _
      iexact H12
    iexists _; isplitr; · ipureintro; exact harg13.read_unread _
    iexact H13

end Cert.Kernel.Hand

end
-- ==== Proof.KB.Data.lean ====
/-
  The proof data of the fused attention kernel.

  At a projection-phase point t = 8 b + j (j < 4) the body writes the key tile KT t and the value tile VT t —
  the projections of the point's key-side and value-side input blocks — into rows [512 j, 512 j + 512) of the two
  resident buffers. So before point n the resident buffers hold, in every row block r < n mod 8, the tiles of
  points 8 (n / 8) + r of the current batch (ScrOK); the other rows hold anything. Throughout the attention phase
  (n mod 8 ≥ 4) all four row blocks are the current batch's tiles: the buffers are KFull, VFull of the batch. At an
  attention-phase point the output block is what the body computes from the point's query-side block and those.
-/
import proofs.«160587_j66159676228012_2_alg».proof.Proof.KB.RunA
import proofs.«160587_j66159676228012_2_alg».proof.Proof.KB.RunB
import Idealize.ShloMosaic.Lib.WritesUnit
import Idealize.ShloMosaic.Lib.WholeRead
import Idealize.ShloMosaic.Lib.ValueIdx
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Point 8 b + r of the grid (taken modulo the 32 points, so that it is total). -/
def ptOf (b r : ℕ) : Fin cfg0.N := ⟨(8 * b + r) % 32, lt_of_lt_of_eq (Nat.mod_lt _ (by decide)) N_0.symm⟩

theorem ptOf_self (t : Fin cfg0.N) (r : ℕ) (hr : r = t.val % 8) : ptOf (t.val / 8) r = t := by
  have hN : t.val < 32 := lt_of_lt_of_eq t.isLt N_0
  apply Fin.ext; show (8 * (t.val / 8) + r) % 32 = t.val; omega

/-- The key tile and the value tile a projection-phase point writes: the projections of its input blocks. -/
def KT (c : Dev nD) (t : Fin cfg0.N) : Vec F S512x1024 .bf16 := k0_pay1 (iblk m c 1 t) (iblk m c 4 t) (iblk m c 7 t)
def VT (c : Dev nD) (t : Fin cfg0.N) : Vec F S512x1024 .bf16 := k0_pay2 (iblk m c 2 t) (iblk m c 5 t) (iblk m c 8 t)

/-- Row y₀ of a resident buffer lies in row block y₀ / 512, at row y₀ mod 512 of it. -/
def loc512 (y : S2048x1024.Idx) : S512x1024.Idx :=
  ValueIdx.ix2 (n0 := 512) (n1 := 1024) ⟨(y 0).val % 512, Nat.mod_lt _ (by decide)⟩ ⟨(y 1).val, (y 1).isLt⟩

/-- The resident keys and values of batch b once its four tiles are written. -/
def KFull (c : Dev nD) (b : ℕ) : Vec F S2048x1024 .bf16 := fun y => KT m c (ptOf b ((y 0).val / 512)) (loc512 y)
def VFull (c : Dev nD) (b : ℕ) : Vec F S2048x1024 .bf16 := fun y => VT m c (ptOf b ((y 0).val / 512)) (loc512 y)

/-- Before point n the row blocks below n mod 8 hold the current batch's tiles. -/
def ScrOK (c : Dev nD) (n : ℕ) (Xk Xv : Vec F S2048x1024 .bf16) : Prop :=
  ∀ y : S2048x1024.Idx, (y 0).val / 512 < n % 8 → Xk y = KFull m c (n / 8) y ∧ Xv y = VFull m c (n / 8) y

theorem scrOK_zero (c : Dev nD) (n : ℕ) (hn : n % 8 = 0) (Xk Xv : Vec F S2048x1024 .bf16) : ScrOK m c n Xk Xv :=
  fun y hy => by rw [hn] at hy; exact absurd hy (Nat.not_lt_zero _)

/-- In the attention phase the resident buffers ARE the batch's keys and values. -/
theorem scrOK_full (c : Dev nD) (n : ℕ) (hn : 4 ≤ n % 8) (Xk Xv : Vec F S2048x1024 .bf16) (h : ScrOK m c n Xk Xv) :
    Xk = KFull m c (n / 8) ∧ Xv = VFull m c (n / 8) := by
  refine ⟨funext fun y => ?_, funext fun y => ?_⟩
  · have h0 : (y 0).val < 2048 := (y 0).isLt
    exact (h y (by omega)).1
  · have h0 : (y 0).val < 2048 := (y 0).isLt
    exact (h y (by omega)).2

/-- An attention-phase point changes nothing in the resident buffers. -/
theorem scrOK_stepB (c : Dev nD) (n : ℕ) (hn : 4 ≤ n % 8) (Xk Xv : Vec F S2048x1024 .bf16) (h : ScrOK m c n Xk Xv) :
    ScrOK m c (n + 1) Xk Xv := fun y hy => by
  have h0 : (y 0).val < 2048 := (y 0).isLt
  have hb : (n + 1) / 8 = n / 8 := by omega
  rw [hb]; exact h y (by omega)

/-- A load of a whole buffer held at contents that read X reads X. -/
theorem readAt_full_unread {S : Shape} {e : EltTy} {mr : Memref sig .tc .vmem S e} (h : mr.IsWhole) (X : S.Idx → Elt F e)
    {off : Fin S.rank → ℕ} (hz : off = fun _ => 0) (inb : ∀ a, off a + S.size a ≤ S.size a) :
    View.readAt (Elt F) mr.view (Rect.unit (s := S) off S.size inb).toLoadRect (h.unread X) = X := by
  subst hz
  funext x
  rw [Memref.IsWhole.readAt_unread]
  exact congrFun (View.ld_unit_zero (Val := Elt F) rfl inb X) x

/-- What the projection phase stores, over any memrefs and contents: one piece per resident buffer, the projected
    tile through the rows the point's offsets name. -/
theorem piecesA_K (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x512x1024 .f32) (harg11 : arg11.IsWhole) (arg12 : Memref sig .tc .vmem S2048x1024 .bf16) (harg12 : arg12.IsWhole) (arg13 : Memref sig .tc .vmem S2048x1024 .bf16) (harg13 : arg13.IsWhole)
    (hc1 : k0_cond1 i = 1#1) (hc2 : ¬ k0_cond2 i = 1#1)
    (y z : Vec F S1x512x1024 .f32) (wk wv : Vec F S1024x1024 .bf16) (bk bv : Vec F S1x1024 .f32) (xk xv : Vec F S2048x1024 .bf16) :
    (kernelRunA c i arg2 harg2 arg3 harg3 arg4 harg4 arg5 harg5 arg6 harg6 arg7 harg7 arg8 harg8 arg9 harg9 arg10 harg10 arg11 harg11 arg12 harg12 arg13 harg13 hc1 hc2 y z wk wv bk bv xk xv).1 = [⟨Rect.unit (s := S2048x1024) (k0_off1 i) S512x1024.size (k0_off1_inb i hc1), k0_pay1 y wk bk⟩] := by
  have hp : (kernelRunA c i arg2 harg2 arg3 harg3 arg4 harg4 arg5 harg5 arg6 harg6 arg7 harg7 arg8 harg8 arg9 harg9 arg10 harg10 arg11 harg11 arg12 harg12 arg13 harg13 hc1 hc2 y z wk wv bk bv xk xv).1
      = [⟨Rect.unit (s := S2048x1024) (k0_off1 i) S512x1024.size (k0_off1_inb i hc1),
          k0_pay1 (View.readAt (Elt F) arg3.view (Rect.unit (s := S1x512x1024) ![0, 0, 0] S1x512x1024.size inb_S1x512x1024_S1x512x1024_0_0_0).toLoadRect (harg3.unread y))
            (View.readAt (Elt F) arg6.view (Rect.unit (s := S1024x1024) ![0, 0] S1024x1024.size inb_S1024x1024_S1024x1024_0_0).toLoadRect (harg6.unread wk))
            (View.readAt (Elt F) arg9.view (Rect.unit (s := S1x1024) ![0, 0] S1x1024.size inb_S1x1024_S1x1024_0_0).toLoadRect (harg9.unread bk))⟩] := rfl
  rw [hp, readAt_full_unread harg3 y (by funext a; match a with | ⟨0, _⟩ => rfl | ⟨1, _⟩ => rfl | ⟨2, _⟩ => rfl), readAt_full_unread harg6 wk (by funext a; match a with | ⟨0, _⟩ => rfl | ⟨1, _⟩ => rfl), readAt_full_unread harg9 bk (by funext a; match a with | ⟨0, _⟩ => rfl | ⟨1, _⟩ => rfl)]

theorem piecesA_V (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x512x1024 .f32) (harg11 : arg11.IsWhole) (arg12 : Memref sig .tc .vmem S2048x1024 .bf16) (harg12 : arg12.IsWhole) (arg13 : Memref sig .tc .vmem S2048x1024 .bf16) (harg13 : arg13.IsWhole)
    (hc1 : k0_cond1 i = 1#1) (hc2 : ¬ k0_cond2 i = 1#1)
    (y z : Vec F S1x512x1024 .f32) (wk wv : Vec F S1024x1024 .bf16) (bk bv : Vec F S1x1024 .f32) (xk xv : Vec F S2048x1024 .bf16) :
    (kernelRunA c i arg2 harg2 arg3 harg3 arg4 harg4 arg5 harg5 arg6 harg6 arg7 harg7 arg8 harg8 arg9 harg9 arg10 harg10 arg11 harg11 arg12 harg12 arg13 harg13 hc1 hc2 y z wk wv bk bv xk xv).2.1 = [⟨Rect.unit (s := S2048x1024) (k0_off1 i) S512x1024.size (k0_off1_inb i hc1), k0_pay2 z wv bv⟩] := by
  have hp : (kernelRunA c i arg2 harg2 arg3 harg3 arg4 harg4 arg5 harg5 arg6 harg6 arg7 harg7 arg8 harg8 arg9 harg9 arg10 harg10 arg11 harg11 arg12 harg12 arg13 harg13 hc1 hc2 y z wk wv bk bv xk xv).2.1
      = [⟨Rect.unit (s := S2048x1024) (k0_off1 i) S512x1024.size (k0_off1_inb i hc1),
          k0_pay2 (View.readAt (Elt F) arg4.view (Rect.unit (s := S1x512x1024) ![0, 0, 0] S1x512x1024.size inb_S1x512x1024_S1x512x1024_0_0_0).toLoadRect (harg4.unread z))
            (View.readAt (Elt F) arg7.view (Rect.unit (s := S1024x1024) ![0, 0] S1024x1024.size inb_S1024x1024_S1024x1024_0_0).toLoadRect (harg7.unread wv))
            (View.readAt (Elt F) arg10.view (Rect.unit (s := S1x1024) ![0, 0] S1x1024.size inb_S1x1024_S1x1024_0_0).toLoadRect (harg10.unread bv))⟩] := rfl
  rw [hp, readAt_full_unread harg4 z (by funext a; match a with | ⟨0, _⟩ => rfl | ⟨1, _⟩ => rfl | ⟨2, _⟩ => rfl), readAt_full_unread harg7 wv (by funext a; match a with | ⟨0, _⟩ => rfl | ⟨1, _⟩ => rfl), readAt_full_unread harg10 bv (by funext a; match a with | ⟨0, _⟩ => rfl | ⟨1, _⟩ => rfl)]

/-- A resident buffer read back after the projection phase: the new tile in the point's 512 rows, the old contents
    elsewhere. -/
theorem readA_K (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x512x1024 .f32) (harg11 : arg11.IsWhole) (arg12 : Memref sig .tc .vmem S2048x1024 .bf16) (harg12 : arg12.IsWhole) (arg13 : Memref sig .tc .vmem S2048x1024 .bf16) (harg13 : arg13.IsWhole)
    (hc1 : k0_cond1 i = 1#1) (hc2 : ¬ k0_cond2 i = 1#1)
    (y z : Vec F S1x512x1024 .f32) (wk wv : Vec F S1024x1024 .bf16) (bk bv : Vec F S1x1024 .f32) (xk xv : Vec F S2048x1024 .bf16) (o : ℕ) (hoff : k0_off1 i = ![o, 0]) (yy : S2048x1024.Idx) :
    arg12.view.read (Elt F) (arg12.view.writes (Elt F) (harg12.unread xk) (kernelRunA c i arg2 harg2 arg3 harg3 arg4 harg4 arg5 harg5 arg6 harg6 arg7 harg7 arg8 harg8 arg9 harg9 arg10 harg10 arg11 harg11 arg12 harg12 arg13 harg13 hc1 hc2 y z wk wv bk bv xk xv).1) yy
      = if h : o ≤ (yy 0).val ∧ (yy 0).val < o + 512 then
          k0_pay1 y wk bk (Rect.unitLocal (s := S2048x1024) (off := ![o, 0]) (size := S512x1024.size) yy (Rect.unit_rows_mem yy rfl rfl h))
        else xk yy := by
  rw [piecesA_K, View.read_writes_cons_rows (d := ![2048, 1024]) (off := k0_off1 i) (size := S512x1024.size) (o := o) (W := 512) arg12.view (harg12.unread xk) (k0_off1_inb i hc1) (k0_pay1 y wk bk) [] yy hoff rfl rfl]
  by_cases h : o ≤ (yy 0).val ∧ (yy 0).val < o + 512
  · rw [dif_pos h, dif_pos h]
  · rw [dif_neg h, dif_neg h, View.writes_nil, Memref.IsWhole.read_unread]

theorem readA_V (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x512x1024 .f32) (harg11 : arg11.IsWhole) (arg12 : Memref sig .tc .vmem S2048x1024 .bf16) (harg12 : arg12.IsWhole) (arg13 : Memref sig .tc .vmem S2048x1024 .bf16) (harg13 : arg13.IsWhole)
    (hc1 : k0_cond1 i = 1#1) (hc2 : ¬ k0_cond2 i = 1#1)
    (y z : Vec F S1x512x1024 .f32) (wk wv : Vec F S1024x1024 .bf16) (bk bv : Vec F S1x1024 .f32) (xk xv : Vec F S2048x1024 .bf16) (o : ℕ) (hoff : k0_off1 i = ![o, 0]) (yy : S2048x1024.Idx) :
    arg13.view.read (Elt F) (arg13.view.writes (Elt F) (harg13.unread xv) (kernelRunA c i arg2 harg2 arg3 harg3 arg4 harg4 arg5 harg5 arg6 harg6 arg7 harg7 arg8 harg8 arg9 harg9 arg10 harg10 arg11 harg11 arg12 harg12 arg13 harg13 hc1 hc2 y z wk wv bk bv xk xv).2.1) yy
      = if h : o ≤ (yy 0).val ∧ (yy 0).val < o + 512 then
          k0_pay2 z wv bv (Rect.unitLocal (s := S2048x1024) (off := ![o, 0]) (size := S512x1024.size) yy (Rect.unit_rows_mem yy rfl rfl h))
        else xv yy := by
  rw [piecesA_V, View.read_writes_cons_rows (d := ![2048, 1024]) (off := k0_off1 i) (size := S512x1024.size) (o := o) (W := 512) arg13.view (harg13.unread xv) (k0_off1_inb i hc1) (k0_pay2 z wv bv) [] yy hoff rfl rfl]
  by_cases h : o ≤ (yy 0).val ∧ (yy 0).val < o + 512
  · rw [dif_pos h, dif_pos h]
  · rw [dif_neg h, dif_neg h, View.writes_nil, Memref.IsWhole.read_unread]

/-- Row y₀ lies in the point's 512 rows exactly when its row block is j = t mod 8. -/
theorem in_rows_iff (t : Fin cfg0.N) (y : S2048x1024.Idx) :
    ((t.val % 8) * 512 ≤ (y 0).val ∧ (y 0).val < (t.val % 8) * 512 + 512) ↔ (y 0).val / 512 = t.val % 8 := by
  constructor <;> intro h <;> omega

/-- The position of row y₀ inside its row block. -/
theorem unitLocal_eq (t : Fin cfg0.N) (y : S2048x1024.Idx)
    (hin : (t.val % 8) * 512 ≤ (y 0).val ∧ (y 0).val < (t.val % 8) * 512 + 512) :
    Rect.unitLocal (s := S2048x1024) (off := ![(t.val % 8) * 512, 0]) (size := S512x1024.size) y
        (Rect.unit_rows_mem y rfl rfl hin) = loc512 y := by
  funext a
  match a with
  | ⟨0, _⟩ => exact Fin.ext (by show (y 0).val - (t.val % 8) * 512 = (y 0).val % 512; omega)
  | ⟨1, _⟩ => exact Fin.ext (by show (y 1).val - 0 = (y 1).val; omega)

/-- A projection-phase point adds its own row block to the tiles the resident buffers hold. -/
theorem scrOK_stepA (c : Dev nD) (t : Fin cfg0.N) (hA : t.val % 8 < 4)
    (hc1 : k0_cond1 (grid0.coords t) = 1#1) (hc2 : ¬ k0_cond2 (grid0.coords t) = 1#1)
    (Xk Xv : Vec F S2048x1024 .bf16) (h : ScrOK m c t.val Xk Xv) :
    ScrOK m c (t.val + 1)
      (scK.view.read (Elt F) (scK.view.writes (Elt F) ((Memref.isWhole_whole cc0_scratch0).unread Xk) (kernelRunA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scK (Memref.isWhole_whole _) scV (Memref.isWhole_whole _) hc1 hc2
          (iblk m c 1 t) (iblk m c 2 t) (iblk m c 4 t) (iblk m c 5 t) (iblk m c 7 t) (iblk m c 8 t) Xk Xv).1))
      (scV.view.read (Elt F) (scV.view.writes (Elt F) ((Memref.isWhole_whole cc0_scratch1).unread Xv) (kernelRunA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scK (Memref.isWhole_whole _) scV (Memref.isWhole_whole _) hc1 hc2
          (iblk m c 1 t) (iblk m c 2 t) (iblk m c 4 t) (iblk m c 5 t) (iblk m c 7 t) (iblk m c 8 t) Xk Xv).2.1)) := by
  intro y hy
  have h0 : (y 0).val < 2048 := (y 0).isLt
  have hN : t.val < 32 := lt_of_lt_of_eq t.isLt N_0
  have hb : (t.val + 1) / 8 = t.val / 8 := by omega
  rw [readA_K c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scK (Memref.isWhole_whole _) scV (Memref.isWhole_whole _) hc1 hc2
      (iblk m c 1 t) (iblk m c 2 t) (iblk m c 4 t) (iblk m c 5 t) (iblk m c 7 t) (iblk m c 8 t) Xk Xv ((t.val % 8) * 512) (off1_eq t) y, readA_V c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scK (Memref.isWhole_whole _) scV (Memref.isWhole_whole _) hc1 hc2
      (iblk m c 1 t) (iblk m c 2 t) (iblk m c 4 t) (iblk m c 5 t) (iblk m c 7 t) (iblk m c 8 t) Xk Xv ((t.val % 8) * 512) (off1_eq t) y]
  by_cases hin : (t.val % 8) * 512 ≤ (y 0).val ∧ (y 0).val < (t.val % 8) * 512 + 512
  · rw [dif_pos hin, dif_pos hin]
    have hq : (y 0).val / 512 = t.val % 8 := (in_rows_iff t y).mp hin
    have e1 : ptOf ((t.val + 1) / 8) ((y 0).val / 512) = t := by rw [hb]; exact ptOf_self t _ hq
    unfold KFull VFull
    rw [e1, unitLocal_eq t y hin]
    exact ⟨rfl, rfl⟩
  · rw [dif_neg hin, dif_neg hin]
    have hq : (y 0).val / 512 ≠ t.val % 8 := fun e => hin ((in_rows_iff t y).mpr e)
    have := h y (by omega)
    rw [hb]; exact this

/-! ## The proof data -/

/-- One staging buffer of the output window, through which its contents are stated. -/
abbrev VO9 : View sig .tc .vmem S1x512x1024 .f32 := (Memref.whole cc0_stg9_0 : Memref sig .tc .vmem S1x512x1024 .f32).view

/-- What an attention-phase point leaves in the output window: the piece the body's run finds, from the point's
    query-side block and the batch's resident keys and values, read back. -/
def outB (c : Dev nD) (t : Fin cfg0.N) (hB : 4 ≤ t.val % 8) : Vec F S1x512x1024 .f32 :=
  VO9.read (Elt F) (VO9.writes (Elt F) VO9.junk
    (kernelRunB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scK (Memref.isWhole_whole _) scV (Memref.isWhole_whole _)
      (fun h => absurd ((hcondA t).mp h) (by omega)) ((hcondB t).mpr hB)
      (iblk m c 0 t) (iblk m c 3 t) (iblk m c 6 t) (KFull m c (t.val / 8)) (VFull m c (t.val / 8))).1)

/-- The region invariant before point n: the two resident buffers at contents holding the tiles written so far
    in the current batch, and the generator register at some state. -/
def PhiS (c : Dev nD) (n : ℕ) : sProp 𝕄 :=
  iprop((∃ Xk Xv, ⌜ScrOK m c n Xk Xv⌝ ∗ owns (c : Thread nD τ) scK fullShare Xk ∗ owns (c : Thread nD τ) scV fullShare Xv)
    ∗ (∃ r, prngReg c r))

/-- The proof data of the one pipeline on core c: the arrays as the region finds them; after the body each input's
    buffer at its block, the output's at what the attention phase leaves (nothing is claimed of it at
    projection-phase points, where the window is idle); the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => if hB : 4 ≤ t.val % 8 then outB m c t hB else VO9.read (Elt F) VO9.junk
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) (hB : 4 ≤ t.val % 8) : (dats m 0 c).after 9 t = outB m c t hB := by
  dsimp only [dats]; rw [dif_pos hB]

/-- Each input's current staging buffer holds its block at every point, fetched there or not. -/
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d
theorem before0_8 (c : Dev nD) (t : Fin cfg0.N) (d) : (dats m 0 c).before 8 t d = iblk m c 8 t := before0_8_of m (dats m 0 c) (A_eq m c 8) (after0_8 m c) t d

end Cert.Kernel.Hand

end
-- ==== Proof.KB.Body.lean ====
/-
  The body obligation of the fused attention kernel, the frame run and the frame.

  At every point the body is handed the invariant, each input's buffer at its block, and the output's buffer at
  whatever it holds. In the projection phase it stores one tile into each resident buffer — the invariant's tiles
  grow by the point's row block — and hands every window back as it found it. In the attention phase the resident
  buffers are the batch's keys and values; the body reads them and stores the output block, which covers the
  output window's buffer. The region hands the resident buffers over at any contents (no tile is claimed at
  the first point of a batch) and takes them back at any.
-/
import proofs.«160587_j66159676228012_2_alg».proof.Proof.KB.Data
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The attention phase's one store covers the output buffer. -/
theorem coverB (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x512x1024 .f32) (harg11 : arg11.IsWhole) (arg12 : Memref sig .tc .vmem S2048x1024 .bf16) (harg12 : arg12.IsWhole) (arg13 : Memref sig .tc .vmem S2048x1024 .bf16) (harg13 : arg13.IsWhole)
    (hc1 : ¬ k0_cond1 i = 1#1) (hc2 : k0_cond2 i = 1#1)
    (x : Vec F S1x512x1024 .f32) (wq : Vec F S1024x1024 .bf16) (bq : Vec F S1x1024 .f32) (xk xv : Vec F S2048x1024 .bf16) (y : S1x512x1024.Idx) :
    ∃ pc ∈ (kernelRunB c i arg2 harg2 arg3 harg3 arg4 harg4 arg5 harg5 arg6 harg6 arg7 harg7 arg8 harg8 arg9 harg9 arg10 harg10 arg11 harg11 arg12 harg12 arg13 harg13 hc1 hc2 x wq bq xk xv).1, y ∈ pc.1.set :=
  View.cover_of_tiledL (kernelRunB c i arg2 harg2 arg3 harg3 arg4 harg4 arg5 harg5 arg6 harg6 arg7 harg7 arg8 harg8 arg9 harg9 arg10 harg10 arg11 harg11 arg12 harg12 arg13 harg13 hc1 hc2 x wq bq xk xv).1 S1x512x1024.size (by sl_kernel_rfl) y

theorem Phi_castSucc (c : Dev nD) (t : Fin cfg0.N) : (dats m 0 c).Φ t.castSucc = PhiS m c t.val := by
  dsimp only [dats]; simp only [Fin.coe_castSucc]

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) from rfl, Phi_castSucc]
  rw [show (dats m 0 c).leavesExact 0 t = owns (c : Thread nD τ) (ms0 t) fullShare ((dats m 0 c).after 0 t) from by
    unfold Dat.leavesExact; rw [live0 0 (by decide) t], after0_0]
  rw [show (dats m 0 c).leavesExact 1 t = owns (c : Thread nD τ) (ms1 t) fullShare ((dats m 0 c).after 1 t) from by
    unfold Dat.leavesExact; rw [live0 1 (by decide) t], after0_1]
  rw [show (dats m 0 c).leavesExact 2 t = owns (c : Thread nD τ) (ms2 t) fullShare ((dats m 0 c).after 2 t) from by
    unfold Dat.leavesExact; rw [live0 2 (by decide) t], after0_2]
  rw [show (dats m 0 c).leavesExact 3 t = owns (c : Thread nD τ) (ms3 t) fullShare ((dats m 0 c).after 3 t) from by
    unfold Dat.leavesExact; rw [live0 3 (by decide) t], after0_3]
  rw [show (dats m 0 c).leavesExact 4 t = owns (c : Thread nD τ) (ms4 t) fullShare ((dats m 0 c).after 4 t) from by
    unfold Dat.leavesExact; rw [live0 4 (by decide) t], after0_4]
  rw [show (dats m 0 c).leavesExact 5 t = owns (c : Thread nD τ) (ms5 t) fullShare ((dats m 0 c).after 5 t) from by
    unfold Dat.leavesExact; rw [live0 5 (by decide) t], after0_5]
  rw [show (dats m 0 c).leavesExact 6 t = owns (c : Thread nD τ) (ms6 t) fullShare ((dats m 0 c).after 6 t) from by
    unfold Dat.leavesExact; rw [live0 6 (by decide) t], after0_6]
  rw [show (dats m 0 c).leavesExact 7 t = owns (c : Thread nD τ) (ms7 t) fullShare ((dats m 0 c).after 7 t) from by
    unfold Dat.leavesExact; rw [live0 7 (by decide) t], after0_7]
  rw [show (dats m 0 c).leavesExact 8 t = owns (c : Thread nD τ) (ms8 t) fullShare ((dats m 0 c).after 8 t) from by
    unfold Dat.leavesExact; rw [live0 8 (by decide) t], after0_8]
  have hN : t.val < 32 := lt_of_lt_of_eq t.isLt N_0
  by_cases hA : t.val % 8 < 4
  · have hc1 : k0_cond1 (grid0.coords t) = 1#1 := (hcondA t).mpr hA
    have hc2 : ¬ k0_cond2 (grid0.coords t) = 1#1 := fun h => absurd ((hcondB t).mp h) (by omega)
    rw [Dat.leavesExact_idle (dats m 0 c) 9 t (idle9_A t hA) (noFlush9_A t hA)]
    unfold PhiS
    iintro ⟨⟨⟨%Xk, %Xv, %hok, HK, HV⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRunA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scK (Memref.isWhole_whole _) scV (Memref.isWhole_whole _) hc1 hc2
      (iblk m c 1 t) (iblk m c 2 t) (iblk m c 4 t) (iblk m c 5 t) (iblk m c 7 t) (iblk m c 8 t) Xk Xv).2.2 Set.univ _)
    isplitl [H1]; · iexact H1
    isplitl [H2]; · iexact H2
    isplitl [H4]; · iexact H4
    isplitl [H5]; · iexact H5
    isplitl [H7]; · iexact H7
    isplitl [H8]; · iexact H8
    isplitl [HK]; · iexact HK
    isplitl [HV]; · iexact HV
    iintro ⟨H1, H2, H4, H5, H7, H8, HK, HV⟩
    isplitl [HK HV Hg]
    · isplitl [HK HV]
      · iexists _; iexists _
        isplitr
        · ipureintro; exact scrOK_stepA m c t hA hc1 hc2 Xk Xv hok
        isplitl [HK]
        · unfold owns; iexists _; isplitr
          · ipureintro; rfl
          iexact HK
        unfold owns; iexists _; isplitr
        · ipureintro; rfl
        iexact HV
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact H9
  · have hB : 4 ≤ t.val % 8 := by omega
    have hc1 : ¬ k0_cond1 (grid0.coords t) = 1#1 := fun h => absurd ((hcondA t).mp h) (by omega)
    have hc2 : k0_cond2 (grid0.coords t) = 1#1 := (hcondB t).mpr hB
    rw [show (dats m 0 c).leavesExact 9 t = owns (c : Thread nD τ) (ms9 t) fullShare ((dats m 0 c).after 9 t) from by
      unfold Dat.leavesExact; rw [live9_B t hB], after0_9 m c t hB]
    unfold PhiS outB
    iintro ⟨⟨⟨%Xk, %Xv, %hok, HK, HV⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    obtain ⟨rfl, rfl⟩ := scrOK_full m c t.val hB Xk Xv hok
    iapply ((kernelRunB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scK (Memref.isWhole_whole _) scV (Memref.isWhole_whole _) hc1 hc2
      (iblk m c 0 t) (iblk m c 3 t) (iblk m c 6 t) (KFull m c (t.val / 8)) (VFull m c (t.val / 8))).2 Set.univ _)
    isplitl [H0]; · iexact H0
    isplitl [H3]; · iexact H3
    isplitl [H6]; · iexact H6
    isplitl [H9]; · iexists _; iexact H9
    isplitl [HK]; · iexact HK
    isplitl [HV]; · iexact HV
    iintro ⟨H0, H3, H6, ⟨%f9, H9⟩, HK, HV⟩
    isplitl [HK HV Hg]
    · isplitl [HK HV]
      · iexists _; iexists _
        isplitr
        · ipureintro; exact scrOK_stepB m c t.val hB _ _ hok
        isplitl [HK]; · iexact HK
        iexact HV
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    unfold owns; iexists _; isplitr
    swap; · iexact H9
    ipureintro; exact View.read_writes_of_cover _ _ _ _ _ (coverB c _ (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scK (Memref.isWhole_whole _) scV (Memref.isWhole_whole _) _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: no tile is claimed there. -/
theorem hin (c : Dev nD) : Pipeline.ΦA spec0 c ⊢ (dats m 0 c).Φ 0 := by
  rw [show (dats m 0 c).Φ 0 = PhiS m c 0 from rfl, PhiA0_eq]
  unfold PhiS
  iintro ⟨⟨⟨%dk, HK⟩, ⟨%dv, HV⟩⟩, Hg⟩
  isplitl [HK HV]
  · iexists dk; iexists dv
    isplitr
    · ipureintro; exact scrOK_zero m c 0 rfl dk dv
    isplitl [HK]; · iexact HK
    iexact HV
  iexact Hg

/-- After the last point the invariant gives the resident buffers back at whatever they hold. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨⟨%Xk, %Xv, -, HK, HV⟩, Hg⟩
  isplitl [HK HV]
  · isplitl [HK]
    · iexists _; iexact HK
    iexists _; iexact HV
  iexact Hg

set_option backward.isDefEq.respectTransparency.types false in
/-- The frame run: every weakly fair execution of @main terminates, and every final state has every array of the
    pipeline at what the library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame, at any float instance: the program runs to the end, faults nowhere, and leaves its nine arguments
    unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.Kernel.Hand

end
-- ==== Proof.KI.Common.lean ====
/-
  The schedule of the fused attention kernel on its 4 × 8 grid, in closed form.

  Point t = 8 b + j works on batch b. At j < 4 (the projection phase) the body projects key/value tile j of the
  batch and stores it into rows [512 j, 512 j + 512) of the two resident buffers; at j ≥ 4 (the attention
  phase) it projects query tile j - 4, reads the four resident tiles back and stores one output block. The
  output window is idle in the projection phase and is written back exactly at the attention-phase points.
-/
import proofs.«160587_j66159676228012_2_alg».proof.Proof.Gen.KernelIdeal.Frame
import proofs.«160587_j66159676228012_2_alg».proof.Proof.Gen.KernelIdeal.Skeleton
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The projection-phase branch is taken exactly at the points with j < 4. -/
theorem hcondA : ∀ t : Fin cfg0.N, k0_cond1 (grid0.coords t) = 1#1 ↔ t.val % 8 < 4 :=
  (by decide +kernel : ∀ t : Fin grid0.N, k0_cond1 (grid0.coords t) = 1#1 ↔ t.val % 8 < 4)

/-- The attention-phase branch is taken exactly at the points with j ≥ 4. -/
theorem hcondB : ∀ t : Fin cfg0.N, k0_cond2 (grid0.coords t) = 1#1 ↔ 4 ≤ t.val % 8 :=
  (by decide +kernel : ∀ t : Fin grid0.N, k0_cond2 (grid0.coords t) = 1#1 ↔ 4 ≤ t.val % 8)

/-- The rows a projection-phase point stores into start at 512 j. -/
theorem off1_eq : ∀ t : Fin cfg0.N, k0_off1 (grid0.coords t) = ![(t.val % 8) * 512, 0] :=
  (by decide +kernel : ∀ t : Fin grid0.N, k0_off1 (grid0.coords t) = ![(t.val % 8) * 512, 0])

/-- The rows of resident tile r start at 512 r. -/
theorem off2_0 : k0_off2 0#32 = ![0, 0] := by decide +kernel
theorem off2_1 : k0_off2 1#32 = ![512, 0] := by decide +kernel
theorem off2_2 : k0_off2 2#32 = ![1024, 0] := by decide +kernel
theorem off2_3 : k0_off2 3#32 = ![1536, 0] := by decide +kernel

/-- No input window is ever idle. -/
theorem live0 : ∀ (w : Fin 10), w.val < 9 → ∀ t : Fin cfg0.N, cfg0.idle w (grid0.coords t) = false := by decide +kernel
/-- The output window is idle throughout the projection phase, and not written back there; -/
theorem idle9_A : ∀ t : Fin cfg0.N, t.val % 8 < 4 → cfg0.idle 9 (grid0.coords t) = true := by decide +kernel
theorem noFlush9_A : ∀ t : Fin cfg0.N, t.val % 8 < 4 → (cfg0.win 9).flush t = false := by decide +kernel
/-- it is live, and written back, at every attention-phase point. -/
theorem live9_B : ∀ t : Fin cfg0.N, 4 ≤ t.val % 8 → cfg0.idle 9 (grid0.coords t) = false := by decide +kernel
theorem flush9_B : ∀ t : Fin cfg0.N, 4 ≤ t.val % 8 → (cfg0.win 9).flush t = true := by decide +kernel

/-- Each window's current staging memref at point t, as the pipeline passes it to the body, and its wholeness. -/
abbrev ms0 (t : Fin cfg0.N) : Memref sig .tc .vmem S1x512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1024 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1024 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x1024 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1024 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x1024 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x512x1024 .f32 := win0_9.stage (cfg0.slots t 9)
abbrev hs9 (t : Fin cfg0.N) : (ms9 t).IsWhole := hstage0_9 ((cfg0.slots t 9).cast nbuf0_9)

/-- The two resident buffers (keys, values): whole scoped buffers of the kernel's own. -/
abbrev scK : Memref sig .tc .vmem S2048x1024 .bf16 := Memref.whole cc0_scratch0
abbrev scV : Memref sig .tc .vmem S2048x1024 .bf16 := Memref.whole cc0_scratch1

/-- What the region hands the body besides the windows: the two resident buffers at some contents and the
    generator register at some state. -/
theorem PhiA0_eq (c : Dev nD) :
    (Pipeline.ΦA spec0 c : sProp 𝕄)
      = iprop(iprop((∃ d, owns (c : Thread nD τ) scK fullShare d) ∗ (∃ d, owns (c : Thread nD τ) scV fullShare d)) ∗ (∃ r, prngReg c r)) := by
  unfold Pipeline.ΦA; rw [scopedRest0_eq]; simp only [scK, scV, owns_whole]; try rfl

end Cert.KernelIdeal.Hand

end
-- ==== Proof.KI.RunA.lean ====
/-
  The body at a projection-phase point (j < 4).

  It loads the key-side and value-side input blocks, the two weight matrices and the two bias rows, and stores
  the projected key tile and the projected value tile into rows [512 j, 512 j + 512) of the two resident
  buffers; the rest of those buffers, every input buffer, and the output buffer are left as they were.
-/
import proofs.«160587_j66159676228012_2_alg».proof.Proof.KI.Common
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The pieces the projection phase leaves in the two resident buffers (found by running the body), with the proof
    that from whole memrefs at the named contents the body runs to a continuation that gets the inputs back
    unchanged and the resident buffers with those pieces written over what they held. -/
noncomputable def kernelRunA (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x512x1024 .f32) (harg11 : arg11.IsWhole) (arg12 : Memref sig .tc .vmem S2048x1024 .bf16) (harg12 : arg12.IsWhole) (arg13 : Memref sig .tc .vmem S2048x1024 .bf16) (harg13 : arg13.IsWhole)
    (hc1 : k0_cond1 i = 1#1) (hc2 : ¬ k0_cond2 i = 1#1)
    (y z : Vec F S1x512x1024 .f32) (wk wv : Vec F S1024x1024 .bf16) (bk bv : Vec F S1x1024 .f32) (xk xv : Vec F S2048x1024 .bf16) :
    Σ' (LK : List (View.Piece (Elt F) S2048x1024 .bf16)), { LV : List (View.Piece (Elt F) S2048x1024 .bf16) //
      ∀ (E : Set ℕ) (K : PUnit → sProp 𝕄),
        iprop(owns (c : Thread nD τ) arg3 fullShare y ∗ owns (c : Thread nD τ) arg4 fullShare z ∗ owns (c : Thread nD τ) arg6 fullShare wk ∗ owns (c : Thread nD τ) arg7 fullShare wv ∗ owns (c : Thread nD τ) arg9 fullShare bk ∗ owns (c : Thread nD τ) arg10 fullShare bv ∗ owns (c : Thread nD τ) arg12 fullShare xk ∗ owns (c : Thread nD τ) arg13 fullShare xv
            ∗ (iprop(owns (c : Thread nD τ) arg3 fullShare y ∗ owns (c : Thread nD τ) arg4 fullShare z ∗ owns (c : Thread nD τ) arg6 fullShare wk ∗ owns (c : Thread nD τ) arg7 fullShare wv ∗ owns (c : Thread nD τ) arg9 fullShare bk ∗ owns (c : Thread nD τ) arg10 fullShare bv
                ∗ (arg12.view.loc (c : Thread nD τ) ↦[arg12.view.set]{fullShare} arg12.view.writes (Elt F) (harg12.unread xk) LK)
                ∗ (arg13.view.loc (c : Thread nD τ) ↦[arg13.view.set]{fullShare} arg13.view.writes (Elt F) (harg13.unread xv) LV)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0__fused_kernel_eq_skeleton]; unfold cc0__fused_kernel_skel
    unfold owns
    iintro ⟨⟨%f3, %hf3, H3⟩, ⟨%f4, %hf4, H4⟩, ⟨%f6, %hf6, H6⟩, ⟨%f7, %hf7, H7⟩, ⟨%f9, %hf9, H9⟩, ⟨%f10, %hf10, H10⟩, ⟨%f12, %hf12, H12⟩, ⟨%f13, %hf13, H13⟩, Hk⟩
    obtain rfl := harg3.eq_unread hf3; obtain rfl := harg4.eq_unread hf4; obtain rfl := harg6.eq_unread hf6
    obtain rfl := harg7.eq_unread hf7; obtain rfl := harg9.eq_unread hf9; obtain rfl := harg10.eq_unread hf10
    obtain rfl := harg12.eq_unread hf12; obtain rfl := harg13.eq_unread hf13
    sl_exec (disch := first | exact hc1 | exact hc2)
    sl_step
    iapply Hk
    isplitl [H3]
    · iexists _; isplitr; · ipureintro; exact harg3.read_unread _
      iexact H3
    isplitl [H4]
    · iexists _; isplitr; · ipureintro; exact harg4.read_unread _
      iexact H4
    isplitl [H6]
    · iexists _; isplitr; · ipureintro; exact harg6.read_unread _
      iexact H6
    isplitl [H7]
    · iexists _; isplitr; · ipureintro; exact harg7.read_unread _
      iexact H7
    isplitl [H9]
    · iexists _; isplitr; · ipureintro; exact harg9.read_unread _
      iexact H9
    isplitl [H10]
    · iexists _; isplitr; · ipureintro; exact harg10.read_unread _
      iexact H10
    isplitl [H12]
    · iexact H12
    iexact H13

end Cert.KernelIdeal.Hand

end
-- ==== Proof.KI.RunB.lean ====
/-
  The body at an attention-phase point (j ≥ 4).

  It loads the query-side input block, the query weight matrix and bias row, and the four resident key tiles and
  four resident value tiles, computes the attention of the 512 projected query rows against the 2048 keys by an
  online softmax over the four tiles, and stores the quotient as the output block. Nothing else is written.
-/
import proofs.«160587_j66159676228012_2_alg».proof.Proof.KI.Common
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The piece the attention phase leaves in the output buffer (found by running the body), with the proof that
    from whole memrefs at the named contents the body runs to a continuation that gets every buffer it read
    back unchanged and the output buffer with that piece written. -/
noncomputable def kernelRunB (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x512x1024 .f32) (harg11 : arg11.IsWhole) (arg12 : Memref sig .tc .vmem S2048x1024 .bf16) (harg12 : arg12.IsWhole) (arg13 : Memref sig .tc .vmem S2048x1024 .bf16) (harg13 : arg13.IsWhole)
    (hc1 : ¬ k0_cond1 i = 1#1) (hc2 : k0_cond2 i = 1#1)
    (x : Vec F S1x512x1024 .f32) (wq : Vec F S1024x1024 .bf16) (bq : Vec F S1x1024 .f32) (xk xv : Vec F S2048x1024 .bf16) :
    { L9 : List (View.Piece (Elt F) S1x512x1024 .f32) //
      ∀ (E : Set ℕ) (K : PUnit → sProp 𝕄),
        iprop(owns (c : Thread nD τ) arg2 fullShare x ∗ owns (c : Thread nD τ) arg5 fullShare wq ∗ owns (c : Thread nD τ) arg8 fullShare bq ∗ (∃ d, owns (c : Thread nD τ) arg11 fullShare d) ∗ owns (c : Thread nD τ) arg12 fullShare xk ∗ owns (c : Thread nD τ) arg13 fullShare xv
            ∗ (iprop(owns (c : Thread nD τ) arg2 fullShare x ∗ owns (c : Thread nD τ) arg5 fullShare wq ∗ owns (c : Thread nD τ) arg8 fullShare bq
                ∗ (∃ f, arg11.view.loc (c : Thread nD τ) ↦[arg11.view.set]{fullShare} arg11.view.writes (Elt F) f L9)
                ∗ owns (c : Thread nD τ) arg12 fullShare xk ∗ owns (c : Thread nD τ) arg13 fullShare xv) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0__fused_kernel_eq_skeleton]; unfold cc0__fused_kernel_skel
    simp only [k0_part3_eq_skeleton, k0_part1_eq_skeleton, k0_part2_eq_skeleton]
    unfold owns
    iintro ⟨⟨%f2, %hf2, H2⟩, ⟨%f5, %hf5, H5⟩, ⟨%f8, %hf8, H8⟩, ⟨%d11, %f11, -, H11⟩, ⟨%f12, %hf12, H12⟩, ⟨%f13, %hf13, H13⟩, Hk⟩
    obtain rfl := harg2.eq_unread hf2; obtain rfl := harg5.eq_unread hf5; obtain rfl := harg8.eq_unread hf8
    obtain rfl := harg12.eq_unread hf12; obtain rfl := harg13.eq_unread hf13
    sl_exec (disch := first | exact hc1 | exact hc2)
    sl_step
    iapply Hk
    isplitl [H2]
    · iexists _; isplitr; · ipureintro; exact harg2.read_unread _
      iexact H2
    isplitl [H5]
    · iexists _; isplitr; · ipureintro; exact harg5.read_unread _
      iexact H5
    isplitl [H8]
    · iexists _; isplitr; · ipureintro; exact harg8.read_unread _
      iexact H8
    isplitl [H11]
    · iexists _; iexact H11
    isplitl [H12]
    · iexists _; isplitr; · ipureintro; exact harg12.read_unread _
      iexact H12
    iexists _; isplitr; · ipureintro; exact harg13.read_unread _
    iexact H13

end Cert.KernelIdeal.Hand

end
-- ==== Proof.KI.Data.lean ====
/-
  The proof data of the fused attention kernel.

  At a projection-phase point t = 8 b + j (j < 4) the body writes the key tile KT t and the value tile VT t —
  the projections of the point's key-side and value-side input blocks — into rows [512 j, 512 j + 512) of the two
  resident buffers. So before point n the resident buffers hold, in every row block r < n mod 8, the tiles of
  points 8 (n / 8) + r of the current batch (ScrOK); the other rows hold anything. Throughout the attention phase
  (n mod 8 ≥ 4) all four row blocks are the current batch's tiles: the buffers are KFull, VFull of the batch. At an
  attention-phase point the output block is what the body computes from the point's query-side block and those.
-/
import proofs.«160587_j66159676228012_2_alg».proof.Proof.KI.RunA
import proofs.«160587_j66159676228012_2_alg».proof.Proof.KI.RunB
import Idealize.ShloMosaic.Lib.WritesUnit
import Idealize.ShloMosaic.Lib.WholeRead
import Idealize.ShloMosaic.Lib.ValueIdx
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Point 8 b + r of the grid (taken modulo the 32 points, so that it is total). -/
def ptOf (b r : ℕ) : Fin cfg0.N := ⟨(8 * b + r) % 32, lt_of_lt_of_eq (Nat.mod_lt _ (by decide)) N_0.symm⟩

theorem ptOf_self (t : Fin cfg0.N) (r : ℕ) (hr : r = t.val % 8) : ptOf (t.val / 8) r = t := by
  have hN : t.val < 32 := lt_of_lt_of_eq t.isLt N_0
  apply Fin.ext; show (8 * (t.val / 8) + r) % 32 = t.val; omega

/-- The key tile and the value tile a projection-phase point writes: the projections of its input blocks. -/
def KT (c : Dev nD) (t : Fin cfg0.N) : Vec F S512x1024 .bf16 := k0_pay1 (iblk m c 1 t) (iblk m c 4 t) (iblk m c 7 t)
def VT (c : Dev nD) (t : Fin cfg0.N) : Vec F S512x1024 .bf16 := k0_pay2 (iblk m c 2 t) (iblk m c 5 t) (iblk m c 8 t)

/-- Row y₀ of a resident buffer lies in row block y₀ / 512, at row y₀ mod 512 of it. -/
def loc512 (y : S2048x1024.Idx) : S512x1024.Idx :=
  ValueIdx.ix2 (n0 := 512) (n1 := 1024) ⟨(y 0).val % 512, Nat.mod_lt _ (by decide)⟩ ⟨(y 1).val, (y 1).isLt⟩

/-- The resident keys and values of batch b once its four tiles are written. -/
def KFull (c : Dev nD) (b : ℕ) : Vec F S2048x1024 .bf16 := fun y => KT m c (ptOf b ((y 0).val / 512)) (loc512 y)
def VFull (c : Dev nD) (b : ℕ) : Vec F S2048x1024 .bf16 := fun y => VT m c (ptOf b ((y 0).val / 512)) (loc512 y)

/-- Before point n the row blocks below n mod 8 hold the current batch's tiles. -/
def ScrOK (c : Dev nD) (n : ℕ) (Xk Xv : Vec F S2048x1024 .bf16) : Prop :=
  ∀ y : S2048x1024.Idx, (y 0).val / 512 < n % 8 → Xk y = KFull m c (n / 8) y ∧ Xv y = VFull m c (n / 8) y

theorem scrOK_zero (c : Dev nD) (n : ℕ) (hn : n % 8 = 0) (Xk Xv : Vec F S2048x1024 .bf16) : ScrOK m c n Xk Xv :=
  fun y hy => by rw [hn] at hy; exact absurd hy (Nat.not_lt_zero _)

/-- In the attention phase the resident buffers ARE the batch's keys and values. -/
theorem scrOK_full (c : Dev nD) (n : ℕ) (hn : 4 ≤ n % 8) (Xk Xv : Vec F S2048x1024 .bf16) (h : ScrOK m c n Xk Xv) :
    Xk = KFull m c (n / 8) ∧ Xv = VFull m c (n / 8) := by
  refine ⟨funext fun y => ?_, funext fun y => ?_⟩
  · have h0 : (y 0).val < 2048 := (y 0).isLt
    exact (h y (by omega)).1
  · have h0 : (y 0).val < 2048 := (y 0).isLt
    exact (h y (by omega)).2

/-- An attention-phase point changes nothing in the resident buffers. -/
theorem scrOK_stepB (c : Dev nD) (n : ℕ) (hn : 4 ≤ n % 8) (Xk Xv : Vec F S2048x1024 .bf16) (h : ScrOK m c n Xk Xv) :
    ScrOK m c (n + 1) Xk Xv := fun y hy => by
  have h0 : (y 0).val < 2048 := (y 0).isLt
  have hb : (n + 1) / 8 = n / 8 := by omega
  rw [hb]; exact h y (by omega)

/-- A load of a whole buffer held at contents that read X reads X. -/
theorem readAt_full_unread {S : Shape} {e : EltTy} {mr : Memref sig .tc .vmem S e} (h : mr.IsWhole) (X : S.Idx → Elt F e)
    {off : Fin S.rank → ℕ} (hz : off = fun _ => 0) (inb : ∀ a, off a + S.size a ≤ S.size a) :
    View.readAt (Elt F) mr.view (Rect.unit (s := S) off S.size inb).toLoadRect (h.unread X) = X := by
  subst hz
  funext x
  rw [Memref.IsWhole.readAt_unread]
  exact congrFun (View.ld_unit_zero (Val := Elt F) rfl inb X) x

/-- What the projection phase stores, over any memrefs and contents: one piece per resident buffer, the projected
    tile through the rows the point's offsets name. -/
theorem piecesA_K (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x512x1024 .f32) (harg11 : arg11.IsWhole) (arg12 : Memref sig .tc .vmem S2048x1024 .bf16) (harg12 : arg12.IsWhole) (arg13 : Memref sig .tc .vmem S2048x1024 .bf16) (harg13 : arg13.IsWhole)
    (hc1 : k0_cond1 i = 1#1) (hc2 : ¬ k0_cond2 i = 1#1)
    (y z : Vec F S1x512x1024 .f32) (wk wv : Vec F S1024x1024 .bf16) (bk bv : Vec F S1x1024 .f32) (xk xv : Vec F S2048x1024 .bf16) :
    (kernelRunA c i arg2 harg2 arg3 harg3 arg4 harg4 arg5 harg5 arg6 harg6 arg7 harg7 arg8 harg8 arg9 harg9 arg10 harg10 arg11 harg11 arg12 harg12 arg13 harg13 hc1 hc2 y z wk wv bk bv xk xv).1 = [⟨Rect.unit (s := S2048x1024) (k0_off1 i) S512x1024.size (k0_off1_inb i hc1), k0_pay1 y wk bk⟩] := by
  have hp : (kernelRunA c i arg2 harg2 arg3 harg3 arg4 harg4 arg5 harg5 arg6 harg6 arg7 harg7 arg8 harg8 arg9 harg9 arg10 harg10 arg11 harg11 arg12 harg12 arg13 harg13 hc1 hc2 y z wk wv bk bv xk xv).1
      = [⟨Rect.unit (s := S2048x1024) (k0_off1 i) S512x1024.size (k0_off1_inb i hc1),
          k0_pay1 (View.readAt (Elt F) arg3.view (Rect.unit (s := S1x512x1024) ![0, 0, 0] S1x512x1024.size inb_S1x512x1024_S1x512x1024_0_0_0).toLoadRect (harg3.unread y))
            (View.readAt (Elt F) arg6.view (Rect.unit (s := S1024x1024) ![0, 0] S1024x1024.size inb_S1024x1024_S1024x1024_0_0).toLoadRect (harg6.unread wk))
            (View.readAt (Elt F) arg9.view (Rect.unit (s := S1x1024) ![0, 0] S1x1024.size inb_S1x1024_S1x1024_0_0).toLoadRect (harg9.unread bk))⟩] := rfl
  rw [hp, readAt_full_unread harg3 y (by funext a; match a with | ⟨0, _⟩ => rfl | ⟨1, _⟩ => rfl | ⟨2, _⟩ => rfl), readAt_full_unread harg6 wk (by funext a; match a with | ⟨0, _⟩ => rfl | ⟨1, _⟩ => rfl), readAt_full_unread harg9 bk (by funext a; match a with | ⟨0, _⟩ => rfl | ⟨1, _⟩ => rfl)]

theorem piecesA_V (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x512x1024 .f32) (harg11 : arg11.IsWhole) (arg12 : Memref sig .tc .vmem S2048x1024 .bf16) (harg12 : arg12.IsWhole) (arg13 : Memref sig .tc .vmem S2048x1024 .bf16) (harg13 : arg13.IsWhole)
    (hc1 : k0_cond1 i = 1#1) (hc2 : ¬ k0_cond2 i = 1#1)
    (y z : Vec F S1x512x1024 .f32) (wk wv : Vec F S1024x1024 .bf16) (bk bv : Vec F S1x1024 .f32) (xk xv : Vec F S2048x1024 .bf16) :
    (kernelRunA c i arg2 harg2 arg3 harg3 arg4 harg4 arg5 harg5 arg6 harg6 arg7 harg7 arg8 harg8 arg9 harg9 arg10 harg10 arg11 harg11 arg12 harg12 arg13 harg13 hc1 hc2 y z wk wv bk bv xk xv).2.1 = [⟨Rect.unit (s := S2048x1024) (k0_off1 i) S512x1024.size (k0_off1_inb i hc1), k0_pay2 z wv bv⟩] := by
  have hp : (kernelRunA c i arg2 harg2 arg3 harg3 arg4 harg4 arg5 harg5 arg6 harg6 arg7 harg7 arg8 harg8 arg9 harg9 arg10 harg10 arg11 harg11 arg12 harg12 arg13 harg13 hc1 hc2 y z wk wv bk bv xk xv).2.1
      = [⟨Rect.unit (s := S2048x1024) (k0_off1 i) S512x1024.size (k0_off1_inb i hc1),
          k0_pay2 (View.readAt (Elt F) arg4.view (Rect.unit (s := S1x512x1024) ![0, 0, 0] S1x512x1024.size inb_S1x512x1024_S1x512x1024_0_0_0).toLoadRect (harg4.unread z))
            (View.readAt (Elt F) arg7.view (Rect.unit (s := S1024x1024) ![0, 0] S1024x1024.size inb_S1024x1024_S1024x1024_0_0).toLoadRect (harg7.unread wv))
            (View.readAt (Elt F) arg10.view (Rect.unit (s := S1x1024) ![0, 0] S1x1024.size inb_S1x1024_S1x1024_0_0).toLoadRect (harg10.unread bv))⟩] := rfl
  rw [hp, readAt_full_unread harg4 z (by funext a; match a with | ⟨0, _⟩ => rfl | ⟨1, _⟩ => rfl | ⟨2, _⟩ => rfl), readAt_full_unread harg7 wv (by funext a; match a with | ⟨0, _⟩ => rfl | ⟨1, _⟩ => rfl), readAt_full_unread harg10 bv (by funext a; match a with | ⟨0, _⟩ => rfl | ⟨1, _⟩ => rfl)]

/-- A resident buffer read back after the projection phase: the new tile in the point's 512 rows, the old contents
    elsewhere. -/
theorem readA_K (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x512x1024 .f32) (harg11 : arg11.IsWhole) (arg12 : Memref sig .tc .vmem S2048x1024 .bf16) (harg12 : arg12.IsWhole) (arg13 : Memref sig .tc .vmem S2048x1024 .bf16) (harg13 : arg13.IsWhole)
    (hc1 : k0_cond1 i = 1#1) (hc2 : ¬ k0_cond2 i = 1#1)
    (y z : Vec F S1x512x1024 .f32) (wk wv : Vec F S1024x1024 .bf16) (bk bv : Vec F S1x1024 .f32) (xk xv : Vec F S2048x1024 .bf16) (o : ℕ) (hoff : k0_off1 i = ![o, 0]) (yy : S2048x1024.Idx) :
    arg12.view.read (Elt F) (arg12.view.writes (Elt F) (harg12.unread xk) (kernelRunA c i arg2 harg2 arg3 harg3 arg4 harg4 arg5 harg5 arg6 harg6 arg7 harg7 arg8 harg8 arg9 harg9 arg10 harg10 arg11 harg11 arg12 harg12 arg13 harg13 hc1 hc2 y z wk wv bk bv xk xv).1) yy
      = if h : o ≤ (yy 0).val ∧ (yy 0).val < o + 512 then
          k0_pay1 y wk bk (Rect.unitLocal (s := S2048x1024) (off := ![o, 0]) (size := S512x1024.size) yy (Rect.unit_rows_mem yy rfl rfl h))
        else xk yy := by
  rw [piecesA_K, View.read_writes_cons_rows (d := ![2048, 1024]) (off := k0_off1 i) (size := S512x1024.size) (o := o) (W := 512) arg12.view (harg12.unread xk) (k0_off1_inb i hc1) (k0_pay1 y wk bk) [] yy hoff rfl rfl]
  by_cases h : o ≤ (yy 0).val ∧ (yy 0).val < o + 512
  · rw [dif_pos h, dif_pos h]
  · rw [dif_neg h, dif_neg h, View.writes_nil, Memref.IsWhole.read_unread]

theorem readA_V (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x512x1024 .f32) (harg11 : arg11.IsWhole) (arg12 : Memref sig .tc .vmem S2048x1024 .bf16) (harg12 : arg12.IsWhole) (arg13 : Memref sig .tc .vmem S2048x1024 .bf16) (harg13 : arg13.IsWhole)
    (hc1 : k0_cond1 i = 1#1) (hc2 : ¬ k0_cond2 i = 1#1)
    (y z : Vec F S1x512x1024 .f32) (wk wv : Vec F S1024x1024 .bf16) (bk bv : Vec F S1x1024 .f32) (xk xv : Vec F S2048x1024 .bf16) (o : ℕ) (hoff : k0_off1 i = ![o, 0]) (yy : S2048x1024.Idx) :
    arg13.view.read (Elt F) (arg13.view.writes (Elt F) (harg13.unread xv) (kernelRunA c i arg2 harg2 arg3 harg3 arg4 harg4 arg5 harg5 arg6 harg6 arg7 harg7 arg8 harg8 arg9 harg9 arg10 harg10 arg11 harg11 arg12 harg12 arg13 harg13 hc1 hc2 y z wk wv bk bv xk xv).2.1) yy
      = if h : o ≤ (yy 0).val ∧ (yy 0).val < o + 512 then
          k0_pay2 z wv bv (Rect.unitLocal (s := S2048x1024) (off := ![o, 0]) (size := S512x1024.size) yy (Rect.unit_rows_mem yy rfl rfl h))
        else xv yy := by
  rw [piecesA_V, View.read_writes_cons_rows (d := ![2048, 1024]) (off := k0_off1 i) (size := S512x1024.size) (o := o) (W := 512) arg13.view (harg13.unread xv) (k0_off1_inb i hc1) (k0_pay2 z wv bv) [] yy hoff rfl rfl]
  by_cases h : o ≤ (yy 0).val ∧ (yy 0).val < o + 512
  · rw [dif_pos h, dif_pos h]
  · rw [dif_neg h, dif_neg h, View.writes_nil, Memref.IsWhole.read_unread]

/-- Row y₀ lies in the point's 512 rows exactly when its row block is j = t mod 8. -/
theorem in_rows_iff (t : Fin cfg0.N) (y : S2048x1024.Idx) :
    ((t.val % 8) * 512 ≤ (y 0).val ∧ (y 0).val < (t.val % 8) * 512 + 512) ↔ (y 0).val / 512 = t.val % 8 := by
  constructor <;> intro h <;> omega

/-- The position of row y₀ inside its row block. -/
theorem unitLocal_eq (t : Fin cfg0.N) (y : S2048x1024.Idx)
    (hin : (t.val % 8) * 512 ≤ (y 0).val ∧ (y 0).val < (t.val % 8) * 512 + 512) :
    Rect.unitLocal (s := S2048x1024) (off := ![(t.val % 8) * 512, 0]) (size := S512x1024.size) y
        (Rect.unit_rows_mem y rfl rfl hin) = loc512 y := by
  funext a
  match a with
  | ⟨0, _⟩ => exact Fin.ext (by show (y 0).val - (t.val % 8) * 512 = (y 0).val % 512; omega)
  | ⟨1, _⟩ => exact Fin.ext (by show (y 1).val - 0 = (y 1).val; omega)

/-- A projection-phase point adds its own row block to the tiles the resident buffers hold. -/
theorem scrOK_stepA (c : Dev nD) (t : Fin cfg0.N) (hA : t.val % 8 < 4)
    (hc1 : k0_cond1 (grid0.coords t) = 1#1) (hc2 : ¬ k0_cond2 (grid0.coords t) = 1#1)
    (Xk Xv : Vec F S2048x1024 .bf16) (h : ScrOK m c t.val Xk Xv) :
    ScrOK m c (t.val + 1)
      (scK.view.read (Elt F) (scK.view.writes (Elt F) ((Memref.isWhole_whole cc0_scratch0).unread Xk) (kernelRunA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scK (Memref.isWhole_whole _) scV (Memref.isWhole_whole _) hc1 hc2
          (iblk m c 1 t) (iblk m c 2 t) (iblk m c 4 t) (iblk m c 5 t) (iblk m c 7 t) (iblk m c 8 t) Xk Xv).1))
      (scV.view.read (Elt F) (scV.view.writes (Elt F) ((Memref.isWhole_whole cc0_scratch1).unread Xv) (kernelRunA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scK (Memref.isWhole_whole _) scV (Memref.isWhole_whole _) hc1 hc2
          (iblk m c 1 t) (iblk m c 2 t) (iblk m c 4 t) (iblk m c 5 t) (iblk m c 7 t) (iblk m c 8 t) Xk Xv).2.1)) := by
  intro y hy
  have h0 : (y 0).val < 2048 := (y 0).isLt
  have hN : t.val < 32 := lt_of_lt_of_eq t.isLt N_0
  have hb : (t.val + 1) / 8 = t.val / 8 := by omega
  rw [readA_K c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scK (Memref.isWhole_whole _) scV (Memref.isWhole_whole _) hc1 hc2
      (iblk m c 1 t) (iblk m c 2 t) (iblk m c 4 t) (iblk m c 5 t) (iblk m c 7 t) (iblk m c 8 t) Xk Xv ((t.val % 8) * 512) (off1_eq t) y, readA_V c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scK (Memref.isWhole_whole _) scV (Memref.isWhole_whole _) hc1 hc2
      (iblk m c 1 t) (iblk m c 2 t) (iblk m c 4 t) (iblk m c 5 t) (iblk m c 7 t) (iblk m c 8 t) Xk Xv ((t.val % 8) * 512) (off1_eq t) y]
  by_cases hin : (t.val % 8) * 512 ≤ (y 0).val ∧ (y 0).val < (t.val % 8) * 512 + 512
  · rw [dif_pos hin, dif_pos hin]
    have hq : (y 0).val / 512 = t.val % 8 := (in_rows_iff t y).mp hin
    have e1 : ptOf ((t.val + 1) / 8) ((y 0).val / 512) = t := by rw [hb]; exact ptOf_self t _ hq
    unfold KFull VFull
    rw [e1, unitLocal_eq t y hin]
    exact ⟨rfl, rfl⟩
  · rw [dif_neg hin, dif_neg hin]
    have hq : (y 0).val / 512 ≠ t.val % 8 := fun e => hin ((in_rows_iff t y).mpr e)
    have := h y (by omega)
    rw [hb]; exact this

/-! ## The proof data -/

/-- One staging buffer of the output window, through which its contents are stated. -/
abbrev VO9 : View sig .tc .vmem S1x512x1024 .f32 := (Memref.whole cc0_stg9_0 : Memref sig .tc .vmem S1x512x1024 .f32).view

/-- What an attention-phase point leaves in the output window: the piece the body's run finds, from the point's
    query-side block and the batch's resident keys and values, read back. -/
def outB (c : Dev nD) (t : Fin cfg0.N) (hB : 4 ≤ t.val % 8) : Vec F S1x512x1024 .f32 :=
  VO9.read (Elt F) (VO9.writes (Elt F) VO9.junk
    (kernelRunB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scK (Memref.isWhole_whole _) scV (Memref.isWhole_whole _)
      (fun h => absurd ((hcondA t).mp h) (by omega)) ((hcondB t).mpr hB)
      (iblk m c 0 t) (iblk m c 3 t) (iblk m c 6 t) (KFull m c (t.val / 8)) (VFull m c (t.val / 8))).1)

/-- The region invariant before point n: the two resident buffers at contents holding the tiles written so far
    in the current batch, and the generator register at some state. -/
def PhiS (c : Dev nD) (n : ℕ) : sProp 𝕄 :=
  iprop((∃ Xk Xv, ⌜ScrOK m c n Xk Xv⌝ ∗ owns (c : Thread nD τ) scK fullShare Xk ∗ owns (c : Thread nD τ) scV fullShare Xv)
    ∗ (∃ r, prngReg c r))

/-- The proof data of the one pipeline on core c: the arrays as the region finds them; after the body each input's
    buffer at its block, the output's at what the attention phase leaves (nothing is claimed of it at
    projection-phase points, where the window is idle); the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => if hB : 4 ≤ t.val % 8 then outB m c t hB else VO9.read (Elt F) VO9.junk
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) (hB : 4 ≤ t.val % 8) : (dats m 0 c).after 9 t = outB m c t hB := by
  dsimp only [dats]; rw [dif_pos hB]

/-- Each input's current staging buffer holds its block at every point, fetched there or not. -/
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d
theorem before0_8 (c : Dev nD) (t : Fin cfg0.N) (d) : (dats m 0 c).before 8 t d = iblk m c 8 t := before0_8_of m (dats m 0 c) (A_eq m c 8) (after0_8 m c) t d

end Cert.KernelIdeal.Hand

end
-- ==== Proof.KI.Body.lean ====
/-
  The body obligation of the fused attention kernel, the frame run and the frame.

  At every point the body is handed the invariant, each input's buffer at its block, and the output's buffer at
  whatever it holds. In the projection phase it stores one tile into each resident buffer — the invariant's tiles
  grow by the point's row block — and hands every window back as it found it. In the attention phase the resident
  buffers are the batch's keys and values; the body reads them and stores the output block, which covers the
  output window's buffer. The region hands the resident buffers over at any contents (no tile is claimed at
  the first point of a batch) and takes them back at any.
-/
import proofs.«160587_j66159676228012_2_alg».proof.Proof.KI.Data
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The attention phase's one store covers the output buffer. -/
theorem coverB (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x512x1024 .f32) (harg11 : arg11.IsWhole) (arg12 : Memref sig .tc .vmem S2048x1024 .bf16) (harg12 : arg12.IsWhole) (arg13 : Memref sig .tc .vmem S2048x1024 .bf16) (harg13 : arg13.IsWhole)
    (hc1 : ¬ k0_cond1 i = 1#1) (hc2 : k0_cond2 i = 1#1)
    (x : Vec F S1x512x1024 .f32) (wq : Vec F S1024x1024 .bf16) (bq : Vec F S1x1024 .f32) (xk xv : Vec F S2048x1024 .bf16) (y : S1x512x1024.Idx) :
    ∃ pc ∈ (kernelRunB c i arg2 harg2 arg3 harg3 arg4 harg4 arg5 harg5 arg6 harg6 arg7 harg7 arg8 harg8 arg9 harg9 arg10 harg10 arg11 harg11 arg12 harg12 arg13 harg13 hc1 hc2 x wq bq xk xv).1, y ∈ pc.1.set :=
  View.cover_of_tiledL (kernelRunB c i arg2 harg2 arg3 harg3 arg4 harg4 arg5 harg5 arg6 harg6 arg7 harg7 arg8 harg8 arg9 harg9 arg10 harg10 arg11 harg11 arg12 harg12 arg13 harg13 hc1 hc2 x wq bq xk xv).1 S1x512x1024.size (by sl_kernel_rfl) y

theorem Phi_castSucc (c : Dev nD) (t : Fin cfg0.N) : (dats m 0 c).Φ t.castSucc = PhiS m c t.val := by
  dsimp only [dats]; simp only [Fin.coe_castSucc]

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) from rfl, Phi_castSucc]
  rw [show (dats m 0 c).leavesExact 0 t = owns (c : Thread nD τ) (ms0 t) fullShare ((dats m 0 c).after 0 t) from by
    unfold Dat.leavesExact; rw [live0 0 (by decide) t], after0_0]
  rw [show (dats m 0 c).leavesExact 1 t = owns (c : Thread nD τ) (ms1 t) fullShare ((dats m 0 c).after 1 t) from by
    unfold Dat.leavesExact; rw [live0 1 (by decide) t], after0_1]
  rw [show (dats m 0 c).leavesExact 2 t = owns (c : Thread nD τ) (ms2 t) fullShare ((dats m 0 c).after 2 t) from by
    unfold Dat.leavesExact; rw [live0 2 (by decide) t], after0_2]
  rw [show (dats m 0 c).leavesExact 3 t = owns (c : Thread nD τ) (ms3 t) fullShare ((dats m 0 c).after 3 t) from by
    unfold Dat.leavesExact; rw [live0 3 (by decide) t], after0_3]
  rw [show (dats m 0 c).leavesExact 4 t = owns (c : Thread nD τ) (ms4 t) fullShare ((dats m 0 c).after 4 t) from by
    unfold Dat.leavesExact; rw [live0 4 (by decide) t], after0_4]
  rw [show (dats m 0 c).leavesExact 5 t = owns (c : Thread nD τ) (ms5 t) fullShare ((dats m 0 c).after 5 t) from by
    unfold Dat.leavesExact; rw [live0 5 (by decide) t], after0_5]
  rw [show (dats m 0 c).leavesExact 6 t = owns (c : Thread nD τ) (ms6 t) fullShare ((dats m 0 c).after 6 t) from by
    unfold Dat.leavesExact; rw [live0 6 (by decide) t], after0_6]
  rw [show (dats m 0 c).leavesExact 7 t = owns (c : Thread nD τ) (ms7 t) fullShare ((dats m 0 c).after 7 t) from by
    unfold Dat.leavesExact; rw [live0 7 (by decide) t], after0_7]
  rw [show (dats m 0 c).leavesExact 8 t = owns (c : Thread nD τ) (ms8 t) fullShare ((dats m 0 c).after 8 t) from by
    unfold Dat.leavesExact; rw [live0 8 (by decide) t], after0_8]
  have hN : t.val < 32 := lt_of_lt_of_eq t.isLt N_0
  by_cases hA : t.val % 8 < 4
  · have hc1 : k0_cond1 (grid0.coords t) = 1#1 := (hcondA t).mpr hA
    have hc2 : ¬ k0_cond2 (grid0.coords t) = 1#1 := fun h => absurd ((hcondB t).mp h) (by omega)
    rw [Dat.leavesExact_idle (dats m 0 c) 9 t (idle9_A t hA) (noFlush9_A t hA)]
    unfold PhiS
    iintro ⟨⟨⟨%Xk, %Xv, %hok, HK, HV⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRunA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scK (Memref.isWhole_whole _) scV (Memref.isWhole_whole _) hc1 hc2
      (iblk m c 1 t) (iblk m c 2 t) (iblk m c 4 t) (iblk m c 5 t) (iblk m c 7 t) (iblk m c 8 t) Xk Xv).2.2 Set.univ _)
    isplitl [H1]; · iexact H1
    isplitl [H2]; · iexact H2
    isplitl [H4]; · iexact H4
    isplitl [H5]; · iexact H5
    isplitl [H7]; · iexact H7
    isplitl [H8]; · iexact H8
    isplitl [HK]; · iexact HK
    isplitl [HV]; · iexact HV
    iintro ⟨H1, H2, H4, H5, H7, H8, HK, HV⟩
    isplitl [HK HV Hg]
    · isplitl [HK HV]
      · iexists _; iexists _
        isplitr
        · ipureintro; exact scrOK_stepA m c t hA hc1 hc2 Xk Xv hok
        isplitl [HK]
        · unfold owns; iexists _; isplitr
          · ipureintro; rfl
          iexact HK
        unfold owns; iexists _; isplitr
        · ipureintro; rfl
        iexact HV
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact H9
  · have hB : 4 ≤ t.val % 8 := by omega
    have hc1 : ¬ k0_cond1 (grid0.coords t) = 1#1 := fun h => absurd ((hcondA t).mp h) (by omega)
    have hc2 : k0_cond2 (grid0.coords t) = 1#1 := (hcondB t).mpr hB
    rw [show (dats m 0 c).leavesExact 9 t = owns (c : Thread nD τ) (ms9 t) fullShare ((dats m 0 c).after 9 t) from by
      unfold Dat.leavesExact; rw [live9_B t hB], after0_9 m c t hB]
    unfold PhiS outB
    iintro ⟨⟨⟨%Xk, %Xv, %hok, HK, HV⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    obtain ⟨rfl, rfl⟩ := scrOK_full m c t.val hB Xk Xv hok
    iapply ((kernelRunB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scK (Memref.isWhole_whole _) scV (Memref.isWhole_whole _) hc1 hc2
      (iblk m c 0 t) (iblk m c 3 t) (iblk m c 6 t) (KFull m c (t.val / 8)) (VFull m c (t.val / 8))).2 Set.univ _)
    isplitl [H0]; · iexact H0
    isplitl [H3]; · iexact H3
    isplitl [H6]; · iexact H6
    isplitl [H9]; · iexists _; iexact H9
    isplitl [HK]; · iexact HK
    isplitl [HV]; · iexact HV
    iintro ⟨H0, H3, H6, ⟨%f9, H9⟩, HK, HV⟩
    isplitl [HK HV Hg]
    · isplitl [HK HV]
      · iexists _; iexists _
        isplitr
        · ipureintro; exact scrOK_stepB m c t.val hB _ _ hok
        isplitl [HK]; · iexact HK
        iexact HV
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    unfold owns; iexists _; isplitr
    swap; · iexact H9
    ipureintro; exact View.read_writes_of_cover _ _ _ _ _ (coverB c _ (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scK (Memref.isWhole_whole _) scV (Memref.isWhole_whole _) _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: no tile is claimed there. -/
theorem hin (c : Dev nD) : Pipeline.ΦA spec0 c ⊢ (dats m 0 c).Φ 0 := by
  rw [show (dats m 0 c).Φ 0 = PhiS m c 0 from rfl, PhiA0_eq]
  unfold PhiS
  iintro ⟨⟨⟨%dk, HK⟩, ⟨%dv, HV⟩⟩, Hg⟩
  isplitl [HK HV]
  · iexists dk; iexists dv
    isplitr
    · ipureintro; exact scrOK_zero m c 0 rfl dk dv
    isplitl [HK]; · iexact HK
    iexact HV
  iexact Hg

/-- After the last point the invariant gives the resident buffers back at whatever they hold. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨⟨%Xk, %Xv, -, HK, HV⟩, Hg⟩
  isplitl [HK HV]
  · isplitl [HK]
    · iexists _; iexact HK
    iexists _; iexact HV
  iexact Hg

set_option backward.isDefEq.respectTransparency.types false in
/-- The frame run: every weakly fair execution of @main terminates, and every final state has every array of the
    pipeline at what the library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame, at any float instance: the program runs to the end, faults nowhere, and leaves its nine arguments
    unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.KernelIdeal.Hand

end
-- ==== Proof.KI.Pay.lean ====
/-
  The attention phase's arithmetic as one term.

  From the query-side block, the query weights and bias, and the four resident key tiles and value tiles, the
  body computes: the projected queries; for tile 0 the scaled scores, the row maxima, the exponentials, the
  denominators and numerators from the reset state; for tiles 1, 2, 3 the same with the running state
  rescaled; and at the end the quotient of numerator by denominator, as a block of one batch row.
-/
import proofs.«160587_j66159676228012_2_alg».proof.Proof.Gen.KernelIdeal.Skeleton

noncomputable section

namespace Cert.KernelIdeal.Hand

open Cert.KernelIdeal Cert.KernelIdeal.Gen Idealize.ShloMosaic

variable {F : FTy → Type} [FloatOps F]

/-- The output block of an attention-phase point from its query-side block `x`, query weights `wq` and bias `bq`,
    and the resident tiles `k0 … k3`, `v0 … v3`. -/
def outPay (x : Vec F S1x512x1024 .f32) (wq : Vec F S1024x1024 .bf16) (bq : Vec F S1x1024 .f32)
    (k0 v0 k1 v1 k2 v2 k3 v3 : Vec F S512x1024 .bf16) : FVec F S1x512x1024 .f32 :=
  k0_pay22 (k0_pay3 x wq bq)
    (k0_pay16 (k0_pay3 x wq bq) (k0_pay6 x wq bq k0) (k0_pay9 x wq bq k0) k1)
    (k0_pay17 (k0_pay3 x wq bq) (k0_pay6 x wq bq k0) (k0_pay10 x wq bq k0 v0) (k0_pay11 x wq bq k0) k1 v1)
    v2
    (k0_pay18 (k0_pay3 x wq bq) k2)
    (k0_pay19 (k0_pay3 x wq bq) (k0_pay6 x wq bq k0) k1 k2)
    (k0_pay20 (k0_pay3 x wq bq) (k0_pay6 x wq bq k0) k1 k2)
    (k0_pay21 (k0_pay3 x wq bq) (k0_pay6 x wq bq k0) k1 k2)
    k3 v3

end Cert.KernelIdeal.Hand

end
-- ==== Proof.KI.Value.lean ====
/-
  What an attention-phase point leaves in the output window.

  The body's one store holds the attention payload of the point's query-side block, the query weights and bias, and
  the four 512-row tiles of the two resident buffers. In the attention phase those buffers are the batch's keys and
  values, whose row block r is the tile projection point 8 b + r wrote. So the output block is the attention payload
  of the point's blocks and the batch's four key tiles and four value tiles.
-/
import proofs.«160587_j66159676228012_2_alg».proof.Proof.KI.Body
import proofs.«160587_j66159676228012_2_alg».proof.Proof.KI.Pay
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Rows [o, o + 512) lie inside a resident buffer. -/
theorem inbT (o : ℕ) (h : o + 512 ≤ 2048) : ∀ a, (![o, 0] : Fin 2 → ℕ) a + S512x1024.size a ≤ S2048x1024.size a := by
  intro a; match a with
  | ⟨0, _⟩ => exact h
  | ⟨1, _⟩ => exact Nat.le_refl _

/-- Rows [o, o + 512) of a resident buffer, as a tile. -/
def tile (X : Vec F S2048x1024 .bf16) (o : ℕ) (h : o + 512 ≤ 2048) : Vec F S512x1024 .bf16 :=
  View.ld X (Rect.unit (s := S2048x1024) ![o, 0] S512x1024.size (inbT o h))

/-- A load of those rows from a whole buffer held at contents that read X reads the tile. -/
theorem readAt_tile {mr : Memref sig .tc .vmem S2048x1024 .bf16} (hm : mr.IsWhole) (X : Vec F S2048x1024 .bf16) (o : ℕ) (h : o + 512 ≤ 2048) :
    View.readAt (Elt F) mr.view (Rect.unit (s := S2048x1024) ![o, 0] S512x1024.size (inbT o h)).toLoadRect (hm.unread X) = tile X o h := by
  funext x; rw [Memref.IsWhole.readAt_unread]; rfl

/-- One store through the whole buffer leaves its payload. -/
theorem read_full_piece {S : Shape} {e : EltTy} (v : View sig .tc .vmem S e) (f : v.ty.Contents (Elt F)) (W : S.Idx → Elt F e)
    {off : Fin S.rank → ℕ} (hz : off = fun _ => 0) (inb : ∀ a, off a + S.size a ≤ S.size a) :
    v.read (Elt F) (v.writes (Elt F) f [(⟨Rect.unit (s := S) off S.size inb, W⟩ : View.Piece (Elt F) S e)]) = W := by
  rw [View.read_writes_eq_canon v f _ (fun y => ⟨_, List.mem_singleton_self _, View.mem_set_unit_zero hz inb y⟩),
    View.canon_unit_zero hz]

/-- The attention payload of equal arguments. -/
theorem outPay_congr {x x' : Vec F S1x512x1024 .f32} {wq wq' : Vec F S1024x1024 .bf16} {bq bq' : Vec F S1x1024 .f32}
    {k0 k0' v0 v0' k1 k1' v1 v1' k2 k2' v2 v2' k3 k3' v3 v3' : Vec F S512x1024 .bf16}
    (hx : x = x') (hwq : wq = wq') (hbq : bq = bq') (hk0 : k0 = k0') (hv0 : v0 = v0') (hk1 : k1 = k1') (hv1 : v1 = v1')
    (hk2 : k2 = k2') (hv2 : v2 = v2') (hk3 : k3 = k3') (hv3 : v3 = v3') :
    outPay x wq bq k0 v0 k1 v1 k2 v2 k3 v3 = outPay x' wq' bq' k0' v0' k1' v1' k2' v2' k3' v3' := by
  subst hx hwq hbq hk0 hv0 hk1 hv1 hk2 hv2 hk3 hv3; rfl

/-- The attention phase's one piece, over any memrefs and contents. -/
theorem piecesB (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x512x1024 .f32) (harg11 : arg11.IsWhole) (arg12 : Memref sig .tc .vmem S2048x1024 .bf16) (harg12 : arg12.IsWhole) (arg13 : Memref sig .tc .vmem S2048x1024 .bf16) (harg13 : arg13.IsWhole)
    (hc1 : ¬ k0_cond1 i = 1#1) (hc2 : k0_cond2 i = 1#1)
    (x : Vec F S1x512x1024 .f32) (wq : Vec F S1024x1024 .bf16) (bq : Vec F S1x1024 .f32) (xk xv : Vec F S2048x1024 .bf16) :
    (kernelRunB c i arg2 harg2 arg3 harg3 arg4 harg4 arg5 harg5 arg6 harg6 arg7 harg7 arg8 harg8 arg9 harg9 arg10 harg10 arg11 harg11 arg12 harg12 arg13 harg13 hc1 hc2 x wq bq xk xv).1 =
      [⟨Rect.unit (s := S1x512x1024) ![0, 0, 0] S1x512x1024.size inb_S1x512x1024_S1x512x1024_0_0_0,
        outPay x wq bq (tile xk 0 (by omega)) (tile xv 0 (by omega)) (tile xk 512 (by omega)) (tile xv 512 (by omega))
          (tile xk 1024 (by omega)) (tile xv 1024 (by omega)) (tile xk 1536 (by omega)) (tile xv 1536 (by omega))⟩] := by
  have hp : (kernelRunB c i arg2 harg2 arg3 harg3 arg4 harg4 arg5 harg5 arg6 harg6 arg7 harg7 arg8 harg8 arg9 harg9 arg10 harg10 arg11 harg11 arg12 harg12 arg13 harg13 hc1 hc2 x wq bq xk xv).1 =
      [⟨Rect.unit (s := S1x512x1024) ![0, 0, 0] S1x512x1024.size inb_S1x512x1024_S1x512x1024_0_0_0,
        outPay
          (View.readAt (Elt F) arg2.view (Rect.unit (s := S1x512x1024) ![0, 0, 0] S1x512x1024.size inb_S1x512x1024_S1x512x1024_0_0_0).toLoadRect (harg2.unread x) : Vec F S1x512x1024 .f32)
          (View.readAt (Elt F) arg5.view (Rect.unit (s := S1024x1024) ![0, 0] S1024x1024.size inb_S1024x1024_S1024x1024_0_0).toLoadRect (harg5.unread wq) : Vec F S1024x1024 .bf16)
          (View.readAt (Elt F) arg8.view (Rect.unit (s := S1x1024) ![0, 0] S1x1024.size inb_S1x1024_S1x1024_0_0).toLoadRect (harg8.unread bq) : Vec F S1x1024 .f32)
          (View.readAt (Elt F) arg12.view (Rect.unit (s := S2048x1024) ![0, 0] S512x1024.size (inbT 0 (by omega))).toLoadRect (harg12.unread xk)) (View.readAt (Elt F) arg13.view (Rect.unit (s := S2048x1024) ![0, 0] S512x1024.size (inbT 0 (by omega))).toLoadRect (harg13.unread xv))
          (View.readAt (Elt F) arg12.view (Rect.unit (s := S2048x1024) ![512, 0] S512x1024.size (inbT 512 (by omega))).toLoadRect (harg12.unread xk)) (View.readAt (Elt F) arg13.view (Rect.unit (s := S2048x1024) ![512, 0] S512x1024.size (inbT 512 (by omega))).toLoadRect (harg13.unread xv))
          (View.readAt (Elt F) arg12.view (Rect.unit (s := S2048x1024) ![1024, 0] S512x1024.size (inbT 1024 (by omega))).toLoadRect (harg12.unread xk)) (View.readAt (Elt F) arg13.view (Rect.unit (s := S2048x1024) ![1024, 0] S512x1024.size (inbT 1024 (by omega))).toLoadRect (harg13.unread xv))
          (View.readAt (Elt F) arg12.view (Rect.unit (s := S2048x1024) ![1536, 0] S512x1024.size (inbT 1536 (by omega))).toLoadRect (harg12.unread xk)) (View.readAt (Elt F) arg13.view (Rect.unit (s := S2048x1024) ![1536, 0] S512x1024.size (inbT 1536 (by omega))).toLoadRect (harg13.unread xv))⟩] := rfl
  exact hp.trans (congrArg (fun W => [(⟨Rect.unit (s := S1x512x1024) ![0, 0, 0] S1x512x1024.size inb_S1x512x1024_S1x512x1024_0_0_0, W⟩ : View.Piece (Elt F) S1x512x1024 .f32)])
    (outPay_congr (readAt_full_unread (off := ![0, 0, 0]) harg2 x (by funext a; match a with | ⟨0, _⟩ => rfl | ⟨1, _⟩ => rfl | ⟨2, _⟩ => rfl) inb_S1x512x1024_S1x512x1024_0_0_0)
      (readAt_full_unread (off := ![0, 0]) harg5 wq (by funext a; match a with | ⟨0, _⟩ => rfl | ⟨1, _⟩ => rfl) inb_S1024x1024_S1024x1024_0_0)
      (readAt_full_unread (off := ![0, 0]) harg8 bq (by funext a; match a with | ⟨0, _⟩ => rfl | ⟨1, _⟩ => rfl) inb_S1x1024_S1x1024_0_0)
      (readAt_tile harg12 xk 0 _) (readAt_tile harg13 xv 0 _) (readAt_tile harg12 xk 512 _) (readAt_tile harg13 xv 512 _)
      (readAt_tile harg12 xk 1024 _) (readAt_tile harg13 xv 1024 _) (readAt_tile harg12 xk 1536 _) (readAt_tile harg13 xv 1536 _)))

variable (m : (ℓ : Loc nD τ sig) → Buf (Elt F) ℓ)

/-- Row block r of the batch's resident keys is the tile projection point 8 b + r wrote; the same for the values. -/
theorem tile_KFull (c : Dev nD) (b r o : ℕ) (ho : o = r * 512) (h : o + 512 ≤ 2048) : tile (KFull m c b) o h = KT m c (ptOf b r) := by
  subst ho
  have hr : r * 512 + 512 ≤ 2048 := h
  funext x
  have hx0 : (x 0).val < 512 := (x 0).isLt
  show KFull m c b ((Rect.unit (s := S2048x1024) ![r * 512, 0] S512x1024.size (inbT (r * 512) hr)).idx x) = _
  unfold KFull
  have e0 : (((Rect.unit (s := S2048x1024) ![r * 512, 0] S512x1024.size (inbT (r * 512) hr)).idx x) 0).val = r * 512 + (x 0).val := by
    show r * 512 + 1 * (x 0).val = _; omega
  have e1 : (((Rect.unit (s := S2048x1024) ![r * 512, 0] S512x1024.size (inbT (r * 512) hr)).idx x) 1).val = (x 1).val := by
    show 0 + 1 * (x 1).val = _; omega
  have eq : ((((Rect.unit (s := S2048x1024) ![r * 512, 0] S512x1024.size (inbT (r * 512) hr)).idx x) 0).val / 512) = r := by rw [e0]; omega
  have el : loc512 ((Rect.unit (s := S2048x1024) ![r * 512, 0] S512x1024.size (inbT (r * 512) hr)).idx x) = x := by
    funext a
    match a with
    | ⟨0, _⟩ => exact Fin.ext (by show _ % 512 = (x 0).val; rw [e0]; omega)
    | ⟨1, _⟩ => exact Fin.ext e1
  rw [eq, el]

theorem tile_VFull (c : Dev nD) (b r o : ℕ) (ho : o = r * 512) (h : o + 512 ≤ 2048) : tile (VFull m c b) o h = VT m c (ptOf b r) := by
  subst ho
  have hr : r * 512 + 512 ≤ 2048 := h
  funext x
  have hx0 : (x 0).val < 512 := (x 0).isLt
  show VFull m c b ((Rect.unit (s := S2048x1024) ![r * 512, 0] S512x1024.size (inbT (r * 512) hr)).idx x) = _
  unfold VFull
  have e0 : (((Rect.unit (s := S2048x1024) ![r * 512, 0] S512x1024.size (inbT (r * 512) hr)).idx x) 0).val = r * 512 + (x 0).val := by
    show r * 512 + 1 * (x 0).val = _; omega
  have e1 : (((Rect.unit (s := S2048x1024) ![r * 512, 0] S512x1024.size (inbT (r * 512) hr)).idx x) 1).val = (x 1).val := by
    show 0 + 1 * (x 1).val = _; omega
  have eq : ((((Rect.unit (s := S2048x1024) ![r * 512, 0] S512x1024.size (inbT (r * 512) hr)).idx x) 0).val / 512) = r := by rw [e0]; omega
  have el : loc512 ((Rect.unit (s := S2048x1024) ![r * 512, 0] S512x1024.size (inbT (r * 512) hr)).idx x) = x := by
    funext a
    match a with
    | ⟨0, _⟩ => exact Fin.ext (by show _ % 512 = (x 0).val; rw [e0]; omega)
    | ⟨1, _⟩ => exact Fin.ext e1
  rw [eq, el]

/-- The output block of an attention-phase point: the attention payload of its blocks and the batch's tiles. -/
theorem outB_eq (c : Dev nD) (t : Fin cfg0.N) (hB : 4 ≤ t.val % 8) :
    outB m c t hB = outPay (iblk m c 0 t) (iblk m c 3 t) (iblk m c 6 t)
      (KT m c (ptOf (t.val / 8) 0)) (VT m c (ptOf (t.val / 8) 0)) (KT m c (ptOf (t.val / 8) 1)) (VT m c (ptOf (t.val / 8) 1))
      (KT m c (ptOf (t.val / 8) 2)) (VT m c (ptOf (t.val / 8) 2)) (KT m c (ptOf (t.val / 8) 3)) (VT m c (ptOf (t.val / 8) 3)) := by
  unfold outB
  rw [piecesB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scK (Memref.isWhole_whole _) scV (Memref.isWhole_whole _) (fun h => absurd ((hcondA t).mp h) (by omega)) ((hcondB t).mpr hB)
    (iblk m c 0 t) (iblk m c 3 t) (iblk m c 6 t) (KFull m c (t.val / 8)) (VFull m c (t.val / 8))]
  rw [read_full_piece (off := ![0, 0, 0]) VO9 VO9.junk _ (by funext a; match a with | ⟨0, _⟩ => rfl | ⟨1, _⟩ => rfl | ⟨2, _⟩ => rfl) inb_S1x512x1024_S1x512x1024_0_0_0]
  exact outPay_congr rfl rfl rfl (tile_KFull m c _ 0 0 rfl _) (tile_VFull m c _ 0 0 rfl _) (tile_KFull m c _ 1 512 rfl _) (tile_VFull m c _ 1 512 rfl _)
    (tile_KFull m c _ 2 1024 rfl _) (tile_VFull m c _ 2 1024 rfl _) (tile_KFull m c _ 3 1536 rfl _) (tile_VFull m c _ 3 1536 rfl _)

end Cert.KernelIdeal.Hand

end
-- ==== Proof.Spec.lean ====
/-
  The mathematics of the certificate, with no program in sight.

  Three linear projections of x, y, z (each entry a sum over the model dimension plus a bias), scores
  Q·Kᵀ scaled by 1/32 (the model dimension is 1024 = 32²), a softmax over the 2048 keys of a batch,
  and the weighted sum of the value rows:
      attn n q e = Σ_k softmax_k(score n q ·) · V n k e.
  Beside it the same row computed ONLINE over four tiles of 512 keys: a running maximum m, a running
  denominator l and a running numerator a, rescaled by exp(m - m') whenever the maximum grows, and the
  quotient a / l at the end. That the two agree on real inputs is the law of the online softmax.
  Arrays are curried functions of their coordinates.
-/
import Idealize.ShloMosaic.PureOps.Ideal
import Idealize.ShloMosaic.PureOps.Ideal.Laws

noncomputable section

namespace Cert.Attn

open Idealize.ShloMosaic

/-- A batch of sequences of rows. -/
abbrev Arr3 := Fin 4 → Fin 2048 → Fin 1024 → EReal
/-- A weight matrix, output feature first (y = x Wᵀ + b). -/
abbrev Mat := Fin 1024 → Fin 1024 → EReal
abbrev Bias := Fin 1024 → EReal

/-- A linear layer: entry (n, s, e) is Σ_d x n s d · W e d + b e. -/
def lin (x : Arr3) (W : Mat) (b : Bias) : Arr3 := fun n s e => (∑ d : Fin 1024, x n s d * W e d) + b e

/-- The scale 1/√1024 = 1/32. -/
def scale : EReal := ((1 / 32 : ℝ) : EReal)

/-- The scaled score of query row q against key row k in batch n. -/
def score (Q K : Arr3) (n : Fin 4) (q k : Fin 2048) : EReal := (∑ d : Fin 1024, Q n q d * K n k d) * scale

/-- Softmax attention of one query row against all 2048 keys, in the order a host softmax spells it: subtract the
    row maximum (taken against -∞), exponentiate, divide by the sum (taken from 0), then weigh the values. -/
def attn (Q K V : Arr3) (n : Fin 4) (q : Fin 2048) (e : Fin 1024) : EReal :=
  ∑ k : Fin 2048,
    Ideal.div (Ideal.exp (score Q K n q k - max ⊥ (Finset.univ.sup (score Q K n q))))
      (0 + ∑ j : Fin 2048, Ideal.exp (score Q K n q j - max ⊥ (Finset.univ.sup (score Q K n q)))) * V n k e

/-- The whole computation from the nine arguments. -/
def G (x y z : Arr3) (Wq : Mat) (bq : Bias) (Wk : Mat) (bk : Bias) (Wv : Mat) (bv : Bias) : Arr3 :=
  attn (lin x Wq bq) (lin y Wk bk) (lin z Wv bv)

/-- Key t·512 + k' of a batch: the k'-th key of tile t. -/
def key (t : Fin 4) (k' : Fin 512) : Fin 2048 := ⟨t.val * 512 + k'.val, by have := t.isLt; have := k'.isLt; omega⟩

/-- The running state of one query row: maximum, denominator, numerator (one entry per output feature). -/
structure St where
  m : EReal
  l : EReal
  a : Fin 1024 → EReal

/-- The reset state. -/
def st0 : St := ⟨⊥, 0, fun _ => 0⟩

/-- One tile of keys seen. -/
def step (Q K V : Arr3) (n : Fin 4) (q : Fin 2048) (t : Fin 4) (st : St) : St :=
  let m' : EReal := max st.m (Finset.univ.sup fun k' : Fin 512 => score Q K n q (key t k'))
  { m := m'
    l := Ideal.exp (st.m - m') * st.l + ∑ k' : Fin 512, Ideal.exp (score Q K n q (key t k') - m')
    a := fun e => Ideal.exp (st.m - m') * st.a e
                    + ∑ k' : Fin 512, Ideal.exp (score Q K n q (key t k') - m') * V n (key t k') e }

/-- The four tiles in order, then the quotient. -/
def online (Q K V : Arr3) (n : Fin 4) (q : Fin 2048) (e : Fin 1024) : EReal :=
  let s := step Q K V n q 3 (step Q K V n q 2 (step Q K V n q 1 (step Q K V n q 0 st0)))
  Ideal.div (s.a e) s.l

/-- Every entry is a real number. -/
def Real3 (A : Arr3) : Prop := ∀ n s d, ∃ r : ℝ, A n s d = (r : EReal)
def RealM (W : Mat) : Prop := ∀ e d, ∃ r : ℝ, W e d = (r : EReal)
def RealB (b : Bias) : Prop := ∀ e, ∃ r : ℝ, b e = (r : EReal)

end Cert.Attn

end
-- ==== Proof.Spec2.lean ====
/-
  The online softmax of one query row, stated over tiles: the row of projected queries, and per tile its 512 key
  rows and 512 value rows. It is the row-level recursion of the specification with the batch's keys cut into
  tiles of 512.
-/
import proofs.«160587_j66159676228012_2_alg».proof.Proof.Spec

noncomputable section

namespace Cert.Attn

open Idealize.ShloMosaic

/-- One tile of keys seen, from the query row, the tile's key rows and its value rows. -/
def stepT (qrow : Fin 1024 → EReal) (kt vt : Fin 512 → Fin 1024 → EReal) (st : St) : St :=
  let m' : EReal := max st.m (Finset.univ.sup fun k' : Fin 512 => (∑ d : Fin 1024, qrow d * kt k' d) * scale)
  { m := m'
    l := Ideal.exp (st.m - m') * st.l + ∑ k' : Fin 512, Ideal.exp ((∑ d : Fin 1024, qrow d * kt k' d) * scale - m')
    a := fun e => Ideal.exp (st.m - m') * st.a e
                    + ∑ k' : Fin 512, Ideal.exp ((∑ d : Fin 1024, qrow d * kt k' d) * scale - m') * vt k' e }

/-- The four tiles in order, then the quotient. -/
def onlineTiles (qrow : Fin 1024 → EReal) (kt vt : Fin 4 → Fin 512 → Fin 1024 → EReal) (e : Fin 1024) : EReal :=
  let s := stepT qrow (kt 3) (vt 3) (stepT qrow (kt 2) (vt 2) (stepT qrow (kt 1) (vt 1) (stepT qrow (kt 0) (vt 0) st0)))
  Ideal.div (s.a e) s.l

/-- The row-level recursion is the tile-level one at the batch's tiles. -/
theorem online_eq_tiles (Q K V : Arr3) (n : Fin 4) (q : Fin 2048) (e : Fin 1024) :
    online Q K V n q e = onlineTiles (Q n q) (fun t k' => K n (key t k')) (fun t k' => V n (key t k')) e := rfl

end Cert.Attn

end
-- ==== Proof.LibCols.lean ====
/-
  A column of per-row numbers against a matrix, read entry by entry. A vector of `a` entries made a column `[a, 1]`
  reads its entry `p` at `(p, 0)`; a column repeated across `b` columns reads its entry `p` at `(p, c)`. Both in the
  vector unit's spelling (a shape cast, a broadcast) and in the host's (two `broadcast_in_dim`s). These are the forms
  a keep-dimensions row reduction takes on its way back to the matrix it was reduced from.
-/
import Idealize.ShloMosaic.Lib.Pipeline.Value
import Idealize.ShloMosaic.Lib.ValueIdx
import Idealize.ShloMosaic.Lib.ValueLayout

namespace Cert.LibCols

open Idealize.ShloMosaic Idealize.ShloMosaic.ValueIdx

variable {α : Type}

/-- An `[a]` array cast to `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's column: an `[a]` vector broadcast along axis 0 into `[a, 1]` reads, at `(p, u)`, the vector's entry `p`. -/
theorem inDim_a_a1_apply {a : ℕ} (v : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- The host's repeated column: an `[a, 1]` array broadcast along both axes into `[a, b]` reads, at `(p, c)`, entry `p`. -/
theorem inDim_a1_ab_apply {a b : ℕ} (v : (⟨2, ![a, 1]⟩ : Shape).Idx → α) (h : (⟨2, ![a, 1]⟩ : Shape).BroadcastsInDim ⟨2, ![a, b]⟩ ![0, 1])
    (p : Fin a) (c : Fin b) : broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

end Cert.LibCols
-- ==== Proof.LibDot.lean ====
/-
  A plain matrix product read at an entry. For the dimension numbers "rows × contraction by contraction × columns"
  (`DotDims.plain M K N`) the sum over the contraction index, of the left operand at the dot's left index times the
  right operand at its right index, is the textbook sum `∑ i, l (p, i) · r (i, q)` at output entry `(p, q)`: the
  contraction shape has one axis of extent `K`, and the two operand indices at contraction position `i` are
  `(p, i)` and `(i, q)`. Both a `tpu.matmul` into a zero accumulator and a host `dot_general` are this sum at the
  exact values, so each reads at an entry as the textbook sum.
-/
import Idealize.ShloMosaic.PureOps.Ideal.Laws
import Idealize.ShloMosaic.Lib.ValueIdx

noncomputable section

namespace Cert.LibDot

open Idealize.ShloMosaic Idealize.ShloMosaic.ValueIdx

/-- The left index of a plain product at output `(p, q)` and contraction position `i` is `(p, i)`. -/
theorem plain_lhsIdx (M K N : Nat) (p : Fin M) (q : Fin N) (i : Fin K) :
    (DotDims.plain M K N).lhsIdx (ix2 p q) ((contrEquiv1 (DotDims.plain M K N) K rfl rfl).symm i) = ix2 p i := by
  funext a
  apply Fin.ext
  match a with
  | ⟨0, _⟩ => rfl
  | ⟨1, _⟩ =>
    refine ((DotDims.plain M K N).lhsIdx_val_of_single (cl := (1 : Fin 2)) rfl (ix2 p q) _).trans ?_
    exact contrEquiv1_symm_val (DotDims.plain M K N) K rfl rfl i

/-- The right index of a plain product at output `(p, q)` and contraction position `i` is `(i, q)`. -/
theorem plain_rhsIdx (M K N : Nat) (p : Fin M) (q : Fin N) (i : Fin K) :
    (DotDims.plain M K N).rhsIdx (ix2 p q) ((contrEquiv1 (DotDims.plain M K N) K rfl rfl).symm i) = ix2 i q := by
  funext a
  apply Fin.ext
  match a with
  | ⟨0, _⟩ =>
    refine ((DotDims.plain M K N).rhsIdx_val_of_single (cr := (0 : Fin 2)) rfl (ix2 p q) _).trans ?_
    exact contrEquiv1_symm_val (DotDims.plain M K N) K rfl rfl i
  | ⟨1, _⟩ => rfl

/-- The contraction sum of a plain product at output `(p, q)` is `∑ i, l (p, i) · r (i, q)`. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ i : Fin K, l (ix2 p i) * r (ix2 i q) := by
  rw [← Equiv.sum_comp (contrEquiv1 (DotDims.plain M K N) K rfl rfl).symm]
  refine Finset.sum_congr rfl fun i _ => ?_
  rw [plain_lhsIdx, plain_rhsIdx]

end Cert.LibDot

end
-- ==== Proof.LibRows.lean ====
/-
  Rows of dense layers, read entry by entry on the extended reals. A matrix product with the plain dimension
  numbers (rows × contraction by contraction × columns), taken by the matrix unit into a zero accumulator or by the
  host, is the textbook sum `∑ i, l (p, i) · r (i, q)` at entry `(p, q)`; a bias vector made a row and repeated down
  the rows reads its entry `q` at `(p, q)`, in the kernel's spelling and in the host's; a scalar broadcast reads the
  scalar everywhere; two 64-column arrays side by side read the first below column 64 and the second from there on.
  With these one entry of a two-layer perceptron's output depends on one row of its input (`mlpRow`).
-/
import proofs.«160587_j66159676228012_2_alg».proof.Proof.LibDot
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

namespace Cert.LibRows

open Idealize.ShloMosaic Idealize.ShloMosaic.ValueIdx

/-- A product into a zero accumulator, for dimension numbers that are the plain ones, read at an entry. -/
theorem matmul_plain_apply {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (p : Fin M) (q : Fin N) :
    matmul D prec l r (constant ⟨2, ![M, N]⟩ .f32 0x00000000#32) (ix2 p q) = ∑ i : Fin K, l (ix2 p i) * r (ix2 i q) := by
  subst hD
  refine (Ideal.matmul_constant_zero_apply (DotDims.plain M K N) prec l r (ix2 p q)).trans ?_
  exact Cert.LibDot.plain_sum M K N l r p q

/-- The host's product with the plain dimension numbers, read at an entry: the same sum. -/
theorem dotGeneral_plain_apply {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (p : Fin M) (q : Fin N) :
    Host.dotGeneral D prec l r (ix2 p q) = ∑ i : Fin K, l (ix2 p i) * r (ix2 i q) := by
  subst hD
  refine (Ideal.dotGeneral_apply (DotDims.plain M K N) prec .single l r (ix2 p q)).trans ?_
  exact Cert.LibDot.plain_sum M K N l r p q

/-- A vector of `b` entries made a row and repeated down `a` rows reads, at `(p, c)`, the vector's entry `c`. -/
theorem rowBias_apply {α : Type} {a b : Nat} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) := by
  rw [broadcastTo_1b_ab_apply, shapeCast_a_1a_apply]

/-- The host's spelling of the same: a `[b]` vector broadcast along axis 1 to `[1, b]`, then along both to `[a, b]`. -/
theorem rowBiasInDim_apply {α : Type} {a b : Nat} (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (c : Fin b) :
    broadcastInDim ⟨2, ![a, b]⟩ ![0, 1] h2 (broadcastInDim ⟨2, ![1, b]⟩ ![1] h1 v) (ix2 p c) = v (ix1 c) := by
  rw [broadcastInDim_apply ![0, 1] h2 _ (ix2 p c) (ix2 (0 : Fin 1) c) (fun ax => by
    match ax with
    | ⟨0, _⟩ => rfl
    | ⟨1, _⟩ =>
      show c.val = if b = 1 then 0 else c.val
      split
      · have := c.isLt; omega
      · rfl)]
  rw [broadcastInDim_apply ![1] h1 v (ix2 (0 : Fin 1) c) (ix1 c) (fun ax => by
    match ax with
    | ⟨0, _⟩ =>
      show c.val = if b = 1 then 0 else c.val
      split
      · have := c.isLt; omega
      · rfl)]

/-- A scalar broadcast to any shape reads the scalar at every index. -/
theorem scalarInDim_apply {α : Type} {s : Shape} (x : (⟨0, ![]⟩ : Shape).Idx → α) (h : (⟨0, ![]⟩ : Shape).BroadcastsInDim s ![]) (j : s.Idx) :
    broadcastInDim s ![] h x j = x ix0 := by
  rw [broadcastInDim_apply ![] h x j ix0 (fun ax => ax.elim0)]

/-- The leaky rectifier on one extended real. -/
def lk (x : Ideal .f32) : Ideal .f32 :=
  Scalar.select (FloatOps.cmpf .oge x (Ideal.ofBits .f32 0x00000000#32)) x (Ideal.ofBits .f32 0x3C23D70A#32 * x)

/-- One entry of a two-layer perceptron's row: from the row `A` of the input. -/
def mlpRow {K H N : Nat} (A : Fin K → EReal) (w1 : (⟨2, ![K, H]⟩ : Shape).Idx → EReal) (b1 : (⟨1, ![H]⟩ : Shape).Idx → EReal)
    (w2 : (⟨2, ![H, N]⟩ : Shape).Idx → EReal) (b2 : (⟨1, ![N]⟩ : Shape).Idx → EReal) (q : Fin N) : EReal :=
  (∑ k : Fin H, lk ((∑ i : Fin K, A i * w1 (ix2 i k)) + b1 (ix1 k)) * w2 (ix2 k q)) + b2 (ix1 q)

/-- Two arrays of 64 columns side by side: column `i` is the first array's below 64 and the second's column `i - 64` from there on. -/
theorem cat_apply {α : Type} {M : Nat} (a b : (⟨2, ![M, 64]⟩ : Shape).Idx → α)
    (h : Shape.Concatenates [⟨2, ![M, 64]⟩, ⟨2, ![M, 64]⟩] ⟨2, ![M, 128]⟩ 1) (p : Fin M) (i : Fin 128) :
    concatenate ⟨2, ![M, 128]⟩ 1 [⟨⟨2, ![M, 64]⟩, a⟩, ⟨⟨2, ![M, 64]⟩, b⟩] h (ix2 p i)
      = if hi : i.val < 64 then a (ix2 p ⟨i.val, hi⟩) else b (ix2 p ⟨i.val - 64, by have := i.isLt; omega⟩) := by
  split
  · next hi =>
    refine concatenate_pair_apply_left 1 a b h (ix2 p i) rfl (ix2 p ⟨i.val, hi⟩) fun bb => ?_
    match bb with
    | ⟨0, _⟩ => rfl
    | ⟨1, _⟩ => rfl
  · next hi =>
    refine concatenate_pair_apply_right 1 a b h (ix2 p i) rfl rfl (ix2 p ⟨i.val - 64, by have := i.isLt; omega⟩) (fun bb hb => ?_) ?_
    · match bb with
      | ⟨0, _⟩ => rfl
      | ⟨1, _⟩ => exact absurd rfl hb
    · show i.val - 64 + 64 = i.val
      omega

end Cert.LibRows

end
-- ==== Proof.KI.PayIdeal.lean ====
/-
  The attention phase's arithmetic, read at one entry of the output block, is the online softmax of that query row
  over the four resident tiles.

  Per tile the block computation is: the scores of all 512 query rows against the tile's 512 key rows (a matrix
  product with the transposed tile, times 1/32), the row maxima joined with the running maxima, the factor
  exp(m - m') that rescales the running denominator and numerator, the exponentials exp(s - m'), their row sums
  and their product with the tile's value rows. Read at row r (and feature e) each of these is the corresponding
  expression of the row-level recursion: a matrix product at an entry is the sum over the contraction index, a row
  maximum folded from -∞ is the supremum of the row, a column repeated across a block reads its own entry.
  The four steps from the reset state (-∞, 0, 0) and the final quotient give the tile-level online softmax.
-/
import proofs.«160587_j66159676228012_2_alg».proof.Proof.KI.Pay
import proofs.«160587_j66159676228012_2_alg».proof.Proof.Spec2
import proofs.«160587_j66159676228012_2_alg».proof.Proof.LibCols
import proofs.«160587_j66159676228012_2_alg».proof.Proof.LibRows

noncomputable section

namespace Cert.KernelIdeal.Hand

open Cert.KernelIdeal Cert.KernelIdeal.Gen Idealize.ShloMosaic Idealize.ShloMosaic.ValueIdx Cert.Attn

/-! ### The literals -/

/-- The word 0x3D000000 denotes 1/32. -/
theorem ofBits_scale : Ideal.ofBits .f32 0x3D000000#32 = scale := by
  unfold scale
  simp [Ideal.ofBits, Ideal.ieee, -EReal.coe_mul]; norm_num

/-- The word 0xFF800000 denotes -∞. -/
theorem ofBits_neg_inf : Ideal.ofBits .f32 0xFF800000#32 = (⊥ : EReal) := by simp [Ideal.ofBits, Ideal.ieee]

/-! ### Row reductions of a 512 × 512 block, kept as a column -/

/-- The entry a row reduction reads at row r and position k. -/
theorem lift_row (h : S512x512.Reduces [1] S512) (r k : Fin 512) : h.lift (ix1 r) k = ix2 r k :=
  funext fun a => Fin.ext (by match a with | ⟨0, _⟩ => rfl | ⟨1, _⟩ => rfl)

/-- The row maximum from -∞, as a column: the supremum of the row. -/
theorem rowmax_apply (src : FVec Ideal S512x512 .f32) (h : S512x512.Reduces [1] S512) (hφ : FKind.Formats .f32)
    (hacc : (0xFF800000#32 : BitVec 32) = FKind.maximumf.neutral .f32 hφ) (hc : S512.ShapeCasts S512x1)
    (r : Fin 512) (u : Fin 1) :
    shapeCast S512x1 (multiReduction .maximumf [1] S512 src 0xFF800000#32 h hφ hacc) hc (ix2 r u)
      = Finset.univ.sup fun k' : Fin 512 => src (ix2 r k') := by
  rw [Cert.LibCols.shapeCast_a_a1_apply]
  refine (Ideal.multiReduction_maximumf_single src _ h hφ hacc (ix1 r)).trans ?_
  show Finset.univ.fold max (Ideal.ofBits .f32 0xFF800000#32) (fun k : Fin 512 => src (h.lift (ix1 r) k)) = _
  rw [ofBits_neg_inf]
  simp only [lift_row]
  rfl

/-- The row sum from 0, as a column: the sum of the row. -/
theorem rowsum_apply (src : FVec Ideal S512x512 .f32) (h : S512x512.Reduces [1] S512) (hφ : FKind.Formats .f32)
    (hacc : (0x00000000#32 : BitVec 32) = FKind.add.neutral .f32 hφ) (hc : S512.ShapeCasts S512x1)
    (r : Fin 512) (u : Fin 1) :
    shapeCast S512x1 (multiReduction .add [1] S512 src 0x00000000#32 h hφ hacc) hc (ix2 r u)
      = ∑ k' : Fin 512, src (ix2 r k') := by
  rw [Cert.LibCols.shapeCast_a_a1_apply]
  refine (Ideal.multiReduction_add_single src _ h hφ hacc (ix1 r)).trans ?_
  show ∑ k : Fin 512, src (h.lift (ix1 r) k) = _
  simp only [lift_row]

/-! ### One tile, block by block, read at a row -/

section Tile

variable (q16 kt vt : FVec Ideal S512x1024 .bf16) (mcol lcol : FVec Ideal S512x1 .f32)
  (acc : FVec Ideal S512x1024 .f32) (r : Fin 512)

/-- The scaled scores of row r against the tile's key rows. -/
theorem pay12_apply (k' : Fin 512) :
    k0_pay12 (F := Ideal) q16 kt (ix2 r k') = (∑ d : Fin 1024, q16 (ix2 r d) * kt (ix2 k' d)) * scale := by
  show matmul dot_S512x1024_S1024x512_S512x512_1_0_0_1_n_n none q16
        (transpose S1024x512 [1, 0] kt transposes_S512x1024_p1_0_S1024x512)
        (constant (F := Ideal) S512x512 .f32 0x00000000#32) (ix2 r k')
      * Ideal.ofBits .f32 0x3D000000#32 = _
  rw [ofBits_scale]
  refine congrArg (· * scale) ?_
  refine (Cert.LibRows.matmul_plain_apply dot_S512x1024_S1024x512_S512x512_1_0_0_1_n_n rfl none q16 _ r k').trans ?_
  exact Finset.sum_congr rfl fun d _ => by rw [transpose_ix2_apply]

/-- The running maximum joined with the row's maximum over the tile. -/
theorem pay13_apply (u : Fin 1) :
    k0_pay13 (F := Ideal) q16 mcol kt (ix2 r u)
      = max (mcol (ix2 r u))
          (Finset.univ.sup fun k' : Fin 512 => (∑ d : Fin 1024, q16 (ix2 r d) * kt (ix2 k' d)) * scale) := by
  have h1 : k0_pay13 (F := Ideal) q16 mcol kt
      = maximumf mcol (shapeCast S512x1 (multiReduction .maximumf [1] S512 (k0_pay12 (F := Ideal) q16 kt) 0xFF800000#32
          reduces_S512x512_S512 (.inl rfl) rfl) shapeCasts_S512_S512x1) := rfl
  refine (congrFun h1 (ix2 r u)).trans ((maximumf_apply _ _ _).trans ?_)
  refine (congrArg (max (mcol (ix2 r u))) (rowmax_apply (k0_pay12 (F := Ideal) q16 kt) _ _ _ _ r u)).trans ?_
  simp only [pay12_apply]

/-- The rescaling factor of the running state. -/
theorem pay14_apply (u : Fin 1) :
    k0_pay14 (F := Ideal) q16 mcol kt (ix2 r u)
      = Ideal.exp (mcol (ix2 r u) - k0_pay13 (F := Ideal) q16 mcol kt (ix2 r u)) := rfl

/-- The tile's weights against the new maximum. -/
theorem pay15_apply (k' : Fin 512) :
    k0_pay15 (F := Ideal) q16 mcol kt (ix2 r k')
      = Ideal.exp (k0_pay12 (F := Ideal) q16 kt (ix2 r k') - k0_pay13 (F := Ideal) q16 mcol kt (ix2 r (0 : Fin 1))) := by
  show Ideal.exp (k0_pay12 (F := Ideal) q16 kt (ix2 r k')
      - broadcastTo S512x512 (k0_pay13 (F := Ideal) q16 mcol kt) broadcasts_S512x1_S512x512 (ix2 r k')) = _
  rw [Cert.LibCols.broadcastTo_a1_ab_apply]

/-- The running denominator. -/
theorem pay16_apply (u : Fin 1) :
    k0_pay16 (F := Ideal) q16 mcol lcol kt (ix2 r u)
      = k0_pay14 (F := Ideal) q16 mcol kt (ix2 r u) * lcol (ix2 r u)
          + ∑ k' : Fin 512, k0_pay15 (F := Ideal) q16 mcol kt (ix2 r k') := by
  show k0_pay14 (F := Ideal) q16 mcol kt (ix2 r u) * lcol (ix2 r u)
      + shapeCast S512x1 (multiReduction .add [1] S512 (k0_pay15 (F := Ideal) q16 mcol kt) 0x00000000#32
          reduces_S512x512_S512 (.inl rfl) rfl) shapeCasts_S512_S512x1 (ix2 r u) = _
  exact congrArg (fun z : EReal => k0_pay14 (F := Ideal) q16 mcol kt (ix2 r u) * lcol (ix2 r u) + z)
    (rowsum_apply (k0_pay15 (F := Ideal) q16 mcol kt) _ _ _ _ r u)

/-- The running numerator after the tile: the rescaled numerator plus the weights against the value rows. -/
def accStep : FVec Ideal S512x1024 .f32 :=
  addf (mulf (broadcastTo S512x1024 (k0_pay14 (F := Ideal) q16 mcol kt) broadcasts_S512x1_S512x1024) acc)
    (matmul dot_S512x512_S512x1024_S512x1024_1_0_0_1_n_n none
      (truncf .bf16 (k0_pay15 (F := Ideal) q16 mcol kt) bitsLt_bf16_f32) vt (constant S512x1024 .f32 0x00000000#32))

theorem accStep_apply (e : Fin 1024) :
    accStep q16 kt vt mcol acc (ix2 r e)
      = k0_pay14 (F := Ideal) q16 mcol kt (ix2 r (0 : Fin 1)) * acc (ix2 r e)
          + ∑ k' : Fin 512, k0_pay15 (F := Ideal) q16 mcol kt (ix2 r k') * vt (ix2 k' e) := by
  show broadcastTo S512x1024 (k0_pay14 (F := Ideal) q16 mcol kt) broadcasts_S512x1_S512x1024 (ix2 r e) * acc (ix2 r e)
      + matmul dot_S512x512_S512x1024_S512x1024_1_0_0_1_n_n none
          (truncf .bf16 (k0_pay15 (F := Ideal) q16 mcol kt) bitsLt_bf16_f32) vt
          (constant (F := Ideal) S512x1024 .f32 0x00000000#32) (ix2 r e) = _
  rw [Cert.LibCols.broadcastTo_a1_ab_apply]
  exact congrArg (fun z : EReal => k0_pay14 (F := Ideal) q16 mcol kt (ix2 r (0 : Fin 1)) * acc (ix2 r e) + z)
    (Cert.LibRows.matmul_plain_apply dot_S512x512_S512x1024_S512x1024_1_0_0_1_n_n rfl none _ vt r e)

end Tile

end Cert.KernelIdeal.Hand

end
-- ==== Proof.KI.PayIdeal2.lean ====
/-
  The running state of all 512 query rows of the block through the four tiles, and the output block at an entry.

  The state is a column of maxima, a column of denominators and a block of numerators. One tile takes it to the
  next state; read at row r this is one step of the row-level recursion on the row's state. The attention
  phase's output block is the quotient of the numerator block by the denominator column after the four tiles
  from the reset state; at entry (0, r, e) it is the tile-level online softmax of row r at feature e.
-/
import proofs.«160587_j66159676228012_2_alg».proof.Proof.KI.PayIdeal

noncomputable section

namespace Cert.KernelIdeal.Hand

open Cert.KernelIdeal Cert.KernelIdeal.Gen Idealize.ShloMosaic Idealize.ShloMosaic.ValueIdx Cert.Attn

/-! ### The row-level step, field by field -/

theorem stepT_m (qrow : Fin 1024 → EReal) (kt vt : Fin 512 → Fin 1024 → EReal) (st : St) :
    (stepT qrow kt vt st).m
      = max st.m (Finset.univ.sup fun k' : Fin 512 => (∑ d : Fin 1024, qrow d * kt k' d) * scale) := rfl

theorem stepT_l (qrow : Fin 1024 → EReal) (kt vt : Fin 512 → Fin 1024 → EReal) (st : St) :
    (stepT qrow kt vt st).l
      = Ideal.exp (st.m - max st.m (Finset.univ.sup fun k' : Fin 512 => (∑ d : Fin 1024, qrow d * kt k' d) * scale))
          * st.l
        + ∑ k' : Fin 512, Ideal.exp ((∑ d : Fin 1024, qrow d * kt k' d) * scale
            - max st.m (Finset.univ.sup fun k' : Fin 512 => (∑ d : Fin 1024, qrow d * kt k' d) * scale)) := rfl

theorem stepT_a (qrow : Fin 1024 → EReal) (kt vt : Fin 512 → Fin 1024 → EReal) (st : St) (e : Fin 1024) :
    (stepT qrow kt vt st).a e
      = Ideal.exp (st.m - max st.m (Finset.univ.sup fun k' : Fin 512 => (∑ d : Fin 1024, qrow d * kt k' d) * scale))
          * st.a e
        + ∑ k' : Fin 512, Ideal.exp ((∑ d : Fin 1024, qrow d * kt k' d) * scale
            - max st.m (Finset.univ.sup fun k' : Fin 512 => (∑ d : Fin 1024, qrow d * kt k' d) * scale)) * vt k' e := rfl

/-! ### The state of all rows -/

/-- The columns of maxima and denominators and the block of numerators. -/
structure VSt where
  m : FVec Ideal S512x1 .f32
  l : FVec Ideal S512x1 .f32
  a : FVec Ideal S512x1024 .f32

/-- One tile seen by all rows. -/
def vstep (q16 kt vt : FVec Ideal S512x1024 .bf16) (s : VSt) : VSt :=
  ⟨k0_pay13 (F := Ideal) q16 s.m kt, k0_pay16 (F := Ideal) q16 s.m s.l kt, accStep q16 kt vt s.m s.a⟩

/-- The reset state of all rows. -/
def vst0 : VSt :=
  ⟨k0_pay4 (F := Ideal), broadcast S512x1 (Scalar.ofBits (F := Ideal) .f32 0x00000000#32),
    broadcast S512x1024 (Scalar.ofBits (F := Ideal) .f32 0x00000000#32)⟩

/-- Row r of the state. -/
def vrow (s : VSt) (r : Fin 512) : St :=
  ⟨s.m (ix2 r (0 : Fin 1)), s.l (ix2 r (0 : Fin 1)), fun e => s.a (ix2 r e)⟩

theorem vrow_st0 (r : Fin 512) : vrow vst0 r = st0 := by
  show (⟨Ideal.ofBits .f32 0xFF800000#32, Ideal.ofBits .f32 0x00000000#32,
      fun _ => Ideal.ofBits .f32 0x00000000#32⟩ : St) = st0
  rw [ofBits_neg_inf, Ideal.ofBits_zero_f32]
  rfl

/-- One tile at row r is one step of the row's recursion. -/
theorem vrow_step (q16 kt vt : FVec Ideal S512x1024 .bf16) (s : VSt) (r : Fin 512) :
    vrow (vstep q16 kt vt s) r
      = stepT (fun d => q16 (ix2 r d)) (fun k' d => kt (ix2 k' d)) (fun k' e => vt (ix2 k' e)) (vrow s r) := by
  have hm : k0_pay13 (F := Ideal) q16 s.m kt (ix2 r (0 : Fin 1))
      = (stepT (fun d => q16 (ix2 r d)) (fun k' d => kt (ix2 k' d)) (fun k' e => vt (ix2 k' e)) (vrow s r)).m := by
    rw [stepT_m, pay13_apply]; rfl
  have hl : k0_pay16 (F := Ideal) q16 s.m s.l kt (ix2 r (0 : Fin 1))
      = (stepT (fun d => q16 (ix2 r d)) (fun k' d => kt (ix2 k' d)) (fun k' e => vt (ix2 k' e)) (vrow s r)).l := by
    rw [stepT_l, pay16_apply]
    simp only [pay14_apply, pay15_apply, pay13_apply, pay12_apply]
    rfl
  have ha : ∀ e : Fin 1024, accStep q16 kt vt s.m s.a (ix2 r e)
      = (stepT (fun d => q16 (ix2 r d)) (fun k' d => kt (ix2 k' d)) (fun k' e => vt (ix2 k' e)) (vrow s r)).a e := by
    intro e
    rw [stepT_a, accStep_apply]
    simp only [pay14_apply, pay15_apply, pay13_apply, pay12_apply]
    rfl
  exact congr (congr (congrArg St.mk hm) hl) (funext ha)

/-! ### The output block -/

/-- The state of all rows after the four tiles. -/
def vfinal (q16 k0 v0 k1 v1 k2 v2 k3 v3 : FVec Ideal S512x1024 .bf16) : VSt :=
  vstep q16 k3 v3 (vstep q16 k2 v2 (vstep q16 k1 v1 (vstep q16 k0 v0 vst0)))

/-- Row r after the four tiles: the four steps of the row's recursion from the reset state. -/
theorem vrow_final (q16 k0 v0 k1 v1 k2 v2 k3 v3 : FVec Ideal S512x1024 .bf16) (r : Fin 512) :
    vrow (vfinal q16 k0 v0 k1 v1 k2 v2 k3 v3) r
      = stepT (fun d => q16 (ix2 r d)) (fun k' d => k3 (ix2 k' d)) (fun k' e => v3 (ix2 k' e))
          (stepT (fun d => q16 (ix2 r d)) (fun k' d => k2 (ix2 k' d)) (fun k' e => v2 (ix2 k' e))
            (stepT (fun d => q16 (ix2 r d)) (fun k' d => k1 (ix2 k' d)) (fun k' e => v1 (ix2 k' e))
              (stepT (fun d => q16 (ix2 r d)) (fun k' d => k0 (ix2 k' d)) (fun k' e => v0 (ix2 k' e)) st0))) := by
  unfold vfinal
  rw [vrow_step, vrow_step, vrow_step, vrow_step, vrow_st0]

set_option maxRecDepth 65536 in
/-- The output block is the final numerators over the final denominators, as a block of one batch row. -/
theorem outPay_eq (x : Vec Ideal S1x512x1024 .f32) (wq : Vec Ideal S1024x1024 .bf16) (bq : Vec Ideal S1x1024 .f32)
    (k0 v0 k1 v1 k2 v2 k3 v3 : Vec Ideal S512x1024 .bf16) :
    outPay (F := Ideal) x wq bq k0 v0 k1 v1 k2 v2 k3 v3
      = shapeCast S1x512x1024
          (divf (vfinal (k0_pay3 (F := Ideal) x wq bq) k0 v0 k1 v1 k2 v2 k3 v3).a
            (broadcastTo S512x1024 (vfinal (k0_pay3 (F := Ideal) x wq bq) k0 v0 k1 v1 k2 v2 k3 v3).l
              broadcasts_S512x1_S512x1024))
          shapeCasts_S512x1024_S1x512x1024 := rfl

/-- The attention phase's output block at entry (0, r, e): the tile-level online softmax of query row r at
    feature e, over the four resident key tiles and value tiles. -/
theorem outPay_apply (x : Vec Ideal S1x512x1024 .f32) (wq : Vec Ideal S1024x1024 .bf16) (bq : Vec Ideal S1x1024 .f32)
    (k0 v0 k1 v1 k2 v2 k3 v3 : Vec Ideal S512x1024 .bf16) (r : Fin 512) (e : Fin 1024) :
    outPay (F := Ideal) x wq bq k0 v0 k1 v1 k2 v2 k3 v3 (ix3 0 r e)
      = Cert.Attn.onlineTiles (fun d => k0_pay3 (F := Ideal) x wq bq (ix2 r d))
          (fun t k' d => (![k0, k1, k2, k3] : Fin 4 → Vec Ideal S512x1024 .bf16) t (ix2 k' d))
          (fun t k' e' => (![v0, v1, v2, v3] : Fin 4 → Vec Ideal S512x1024 .bf16) t (ix2 k' e')) e := by
  rw [outPay_eq]
  refine (shapeCast_ab_1ab_apply _ _ (0 : Fin 1) r e).trans ?_
  refine (divf_apply _ _ _).trans ?_
  rw [Cert.LibCols.broadcastTo_a1_ab_apply]
  have hl : (vfinal (k0_pay3 (F := Ideal) x wq bq) k0 v0 k1 v1 k2 v2 k3 v3).l (ix2 r (0 : Fin 1))
      = (vrow (vfinal (k0_pay3 (F := Ideal) x wq bq) k0 v0 k1 v1 k2 v2 k3 v3) r).l := rfl
  have ha : (vfinal (k0_pay3 (F := Ideal) x wq bq) k0 v0 k1 v1 k2 v2 k3 v3).a (ix2 r e)
      = (vrow (vfinal (k0_pay3 (F := Ideal) x wq bq) k0 v0 k1 v1 k2 v2 k3 v3) r).a e := rfl
  rw [ha, hl, vrow_final]
  rfl

end Cert.KernelIdeal.Hand

end
-- ==== Proof.KI.ProjIdeal.lean ====
/-
  One projection of the kernel, read entry by entry. A block of 512 rows of the input (held as [1, 512, 1024]) is
  flattened to [512, 1024], multiplied by the weight matrix held contraction index first ([1024, 1024], entry (d, e)),
  accumulated from zero, and the bias row ([1, 1024]) is added to every row. A change of float format is the identity
  on the extended reals, and a cast of a shape to itself is the identity. So entry (r, e) is
      Σ_d X(0, r, d) · W(d, e) + B(0, e).
-/
import proofs.«160587_j66159676228012_2_alg».proof.Proof.Gen.KernelIdeal.Skeleton
import proofs.«160587_j66159676228012_2_alg».proof.Proof.LibRows
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.ValueIdx

/-- The product into a zero accumulator plus the broadcast bias row, at entry (r, e). -/
theorem proj_apply (X : FVec Ideal S1x512x1024 .f32) (W : FVec Ideal S1024x1024 .bf16) (B : FVec Ideal S1x1024 .f32)
    (h1 : S1x512x1024.ShapeCasts S512x1024) (hlt : FTy.bits .bf16 < FTy.bits .f32) (h2 : S1024x1024.ShapeCasts S1024x1024)
    (h3 : S1x1024.ShapeCasts S1x1024) (h4 : S1x1024.Broadcasts S512x1024) (r : Fin 512) (e : Fin 1024) :
    addf (matmul dot_S512x1024_S1024x1024_S512x1024_1_0_0_1_n_n none (truncf .bf16 (shapeCast S512x1024 X h1) hlt)
        (shapeCast S1024x1024 W h2) (constant (F := Ideal) S512x1024 .f32 0x00000000#32))
      (broadcastTo S512x1024 (shapeCast S1x1024 B h3) h4) (ix2 r e)
      = (∑ d : Fin 1024, X (ix3 0 r d) * W (ix2 d e)) + B (ix2 0 e) := by
  show matmul dot_S512x1024_S1024x1024_S512x1024_1_0_0_1_n_n none (truncf .bf16 (shapeCast S512x1024 X h1) hlt)
        (shapeCast S1024x1024 W h2) (constant (F := Ideal) S512x1024 .f32 0x00000000#32) (ix2 r e)
      + broadcastTo S512x1024 (shapeCast S1x1024 B h3) h4 (ix2 r e) = _
  have hm := Cert.LibRows.matmul_plain_apply (M := 512) (K := 1024) (N := 1024) dot_S512x1024_S1024x1024_S512x1024_1_0_0_1_n_n rfl none
    (truncf .bf16 (shapeCast S512x1024 X h1) hlt) (shapeCast S1024x1024 W h2) r e
  have hb := (broadcastTo_1b_ab_apply (shapeCast S1x1024 B h3) h4 r e).trans (congrFun (shapeCast_self B h3) _)
  refine (congrArg₂ (· + ·) hm hb).trans ?_
  refine congrArg (· + B (ix2 0 e)) (Finset.sum_congr rfl fun d _ => ?_)
  exact congrArg₂ (· * ·) (shapeCast_1ab_ab_apply X h1 r d) (congrFun (shapeCast_self W h2) _)

theorem k0_pay1_apply (X : Vec Ideal S1x512x1024 .f32) (W : Vec Ideal S1024x1024 .bf16) (B : Vec Ideal S1x1024 .f32)
    (r : Fin 512) (e : Fin 1024) :
    k0_pay1 (F := Ideal) X W B (ix2 r e) = (∑ d : Fin 1024, X (ix3 0 r d) * W (ix2 d e)) + B (ix2 0 e) := by
  unfold k0_pay1
  refine (congrFun (shapeCast_self _ _) _).trans ?_
  exact proj_apply X W B _ _ _ _ _ r e

theorem k0_pay2_apply (X : Vec Ideal S1x512x1024 .f32) (W : Vec Ideal S1024x1024 .bf16) (B : Vec Ideal S1x1024 .f32)
    (r : Fin 512) (e : Fin 1024) :
    k0_pay2 (F := Ideal) X W B (ix2 r e) = (∑ d : Fin 1024, X (ix3 0 r d) * W (ix2 d e)) + B (ix2 0 e) := by
  unfold k0_pay2
  refine (congrFun (shapeCast_self _ _) _).trans ?_
  exact proj_apply X W B _ _ _ _ _ r e

theorem k0_pay3_apply (X : Vec Ideal S1x512x1024 .f32) (W : Vec Ideal S1024x1024 .bf16) (B : Vec Ideal S1x1024 .f32)
    (r : Fin 512) (e : Fin 1024) :
    k0_pay3 (F := Ideal) X W B (ix2 r e) = (∑ d : Fin 1024, X (ix3 0 r d) * W (ix2 d e)) + B (ix2 0 e) := by
  unfold k0_pay3
  exact proj_apply X W B _ _ _ _ _ r e

end Cert.KernelIdeal.Hand

end
-- ==== Proof.KI.HostRead.lean ====
/-
  The arrays the kernel's region finds, read entry by entry. Before the region the program transposes each of the three
  weight matrices (and changes their float format, which is the identity on the extended reals) and makes each bias
  vector a one-row matrix. So the transposed weights read, at (d, e), the launched matrix at (e, d); and the bias row
  reads, at (0, e), the launched vector at e.
-/
import proofs.«160587_j66159676228012_2_alg».proof.Proof.Gen.KernelIdeal.Frame
import Idealize.ShloMosaic.Lib.ValueLayout
import Idealize.ShloMosaic.Lib.StableHlo.Run

noncomputable section

namespace Cert.KernelIdeal.Hand

open Cert.KernelIdeal Cert.KernelIdeal.Gen Idealize.ShloMosaic Idealize.ShloMosaic.ValueIdx Idealize.ShloMosaic.TcCoe
  Idealize.SL.Sem Idealize.ShloMosaic.StableHlo

variable (m : (ℓ : Loc nD τ sig) → Buf (Elt Ideal) ℓ) (c : Dev nD)

/-! ### The transposed weights -/

theorem V_main_v1_apply (d e : Fin 1024) :
    (V m c main_v1 : S1024x1024.Idx → EReal) (ix2 d e) = (m ((c : Thread nD τ).loc main_arg3) : S1024x1024.Idx → EReal) (ix2 e d) := by
  have h : @Eq (S1024x1024.Idx → EReal) (V m c main_v1)
      (truncf (F := Ideal) .bf16 (transpose S1024x1024 [1, 0] (m ((c : Thread nD τ).loc main_arg3) : S1024x1024.Idx → EReal)
          Gen.transposes_S1024x1024_S1024x1024_1_0) Gen.bitsLt_bf16_f32) := by
    dsimp only [Gen.V, Gen.hostOps0]; after_results
  rw [h]
  exact transpose_ix2_apply _ _ d e

theorem V_main_v3_apply (d e : Fin 1024) :
    (V m c main_v3 : S1024x1024.Idx → EReal) (ix2 d e) = (m ((c : Thread nD τ).loc main_arg5) : S1024x1024.Idx → EReal) (ix2 e d) := by
  have h : @Eq (S1024x1024.Idx → EReal) (V m c main_v3)
      (truncf (F := Ideal) .bf16 (transpose S1024x1024 [1, 0] (m ((c : Thread nD τ).loc main_arg5) : S1024x1024.Idx → EReal)
          Gen.transposes_S1024x1024_S1024x1024_1_0) Gen.bitsLt_bf16_f32) := by
    dsimp only [Gen.V, Gen.hostOps0]; after_results
  rw [h]
  exact transpose_ix2_apply _ _ d e

theorem V_main_v5_apply (d e : Fin 1024) :
    (V m c main_v5 : S1024x1024.Idx → EReal) (ix2 d e) = (m ((c : Thread nD τ).loc main_arg7) : S1024x1024.Idx → EReal) (ix2 e d) := by
  have h : @Eq (S1024x1024.Idx → EReal) (V m c main_v5)
      (truncf (F := Ideal) .bf16 (transpose S1024x1024 [1, 0] (m ((c : Thread nD τ).loc main_arg7) : S1024x1024.Idx → EReal)
          Gen.transposes_S1024x1024_S1024x1024_1_0) Gen.bitsLt_bf16_f32) := by
    dsimp only [Gen.V, Gen.hostOps0]; after_results
  rw [h]
  exact transpose_ix2_apply _ _ d e

/-! ### The bias rows -/

theorem V_main_v6_apply (e : Fin 1024) :
    (V m c main_v6 : S1x1024.Idx → EReal) (ix2 0 e) = (m ((c : Thread nD τ).loc main_arg4) : S1024.Idx → EReal) (ix1 e) := by
  have h : @Eq (S1x1024.Idx → EReal) (V m c main_v6)
      (shapeCast S1x1024 (m ((c : Thread nD τ).loc main_arg4) : S1024.Idx → EReal) Gen.shapeCasts_S1024_S1x1024) := by
    dsimp only [Gen.V, Gen.hostOps0]; after_results; rfl
  rw [h]
  exact shapeCast_a_1a_apply _ _ 0 e

theorem V_main_v7_apply (e : Fin 1024) :
    (V m c main_v7 : S1x1024.Idx → EReal) (ix2 0 e) = (m ((c : Thread nD τ).loc main_arg6) : S1024.Idx → EReal) (ix1 e) := by
  have h : @Eq (S1x1024.Idx → EReal) (V m c main_v7)
      (shapeCast S1x1024 (m ((c : Thread nD τ).loc main_arg6) : S1024.Idx → EReal) Gen.shapeCasts_S1024_S1x1024) := by
    dsimp only [Gen.V, Gen.hostOps0]; after_results; rfl
  rw [h]
  exact shapeCast_a_1a_apply _ _ 0 e

theorem V_main_v8_apply (e : Fin 1024) :
    (V m c main_v8 : S1x1024.Idx → EReal) (ix2 0 e) = (m ((c : Thread nD τ).loc main_arg8) : S1024.Idx → EReal) (ix1 e) := by
  have h : @Eq (S1x1024.Idx → EReal) (V m c main_v8)
      (shapeCast S1x1024 (m ((c : Thread nD τ).loc main_arg8) : S1024.Idx → EReal) Gen.shapeCasts_S1024_S1x1024) := by
    dsimp only [Gen.V, Gen.hostOps0]; after_results; rfl
  rw [h]
  exact shapeCast_a_1a_apply _ _ 0 e

end Cert.KernelIdeal.Hand

end
-- ==== Proof.Curry.lean ====
/-
  Arrays as functions of their coordinates: a rank-3 array of extents 4, 2048, 1024, a 1024-square matrix
  and a 1024-vector, each read at the index built from its coordinates.
-/
import Idealize.ShloMosaic.Lib.ValueIdx
import proofs.«160587_j66159676228012_2_alg».proof.Proof.Spec

noncomputable section

namespace Cert.Attn

open Idealize.ShloMosaic Idealize.ShloMosaic.ValueIdx

/-- A [4, 2048, 1024] array read at (n, s, d). -/
def c3 (A : (⟨3, ![4, 2048, 1024]⟩ : Shape).Idx → EReal) : Arr3 := fun n s d => A (ix3 n s d)
/-- A [1024, 1024] matrix read at (e, d). -/
def c2 (W : (⟨2, ![1024, 1024]⟩ : Shape).Idx → EReal) : Mat := fun e d => W (ix2 e d)
/-- A [1024] vector read at e. -/
def c1 (b : (⟨1, ![1024]⟩ : Shape).Idx → EReal) : Bias := fun e => b (ix1 e)

end Cert.Attn

end
-- ==== Proof.KI.TilesIdeal.lean ====
/-
  The three projections the body computes at a grid point, read entry by entry, are the linear layers of the
  specification applied to the argument arrays.

  The grid is 4 × 8: point t works on batch t / 8 at step t % 8. At a step j < 4 the body reads rows
  [512 j, 512 j + 512) of the batch's key and value inputs; at a step j ≥ 4 it reads rows [512 (j - 4), 512 (j - 4) + 512)
  of the batch's query input. A block's coordinate in its array is always the block index times the block extent plus
  the coordinate inside the block. The weights are staged whole, transposed (contraction index first), and the biases
  whole, as one-row matrices. So row r of a projected tile is the linear layer at the corresponding row of the array.
-/
import proofs.«160587_j66159676228012_2_alg».proof.Proof.KI.ProjIdeal
import proofs.«160587_j66159676228012_2_alg».proof.Proof.KI.HostRead
import proofs.«160587_j66159676228012_2_alg».proof.Proof.Gen.KernelIdeal.Frame
import proofs.«160587_j66159676228012_2_alg».proof.Proof.Curry

set_option maxRecDepth 16384

noncomputable section

namespace Cert.KernelIdeal.Hand

open Cert.KernelIdeal Cert.KernelIdeal.Gen Idealize.ShloMosaic Idealize.ShloMosaic.ValueIdx Idealize.ShloMosaic.TcCoe
  Idealize.SL.Sem

/-- The block indices of the nine input windows, decided over the 32 grid points. -/
theorem idx_in : ∀ t : Fin cfg0.N,
    (win0_0.index t (0 : Fin 3) = t.val / 8 ∧ win0_0.index t (1 : Fin 3) = (if t.val % 8 < 4 then 0 else t.val % 8 - 4)
      ∧ win0_0.index t (2 : Fin 3) = 0)
    ∧ (win0_1.index t (0 : Fin 3) = t.val / 8 ∧ win0_1.index t (1 : Fin 3) = (if t.val % 8 < 4 then t.val % 8 else 3)
      ∧ win0_1.index t (2 : Fin 3) = 0)
    ∧ (win0_2.index t (0 : Fin 3) = t.val / 8 ∧ win0_2.index t (1 : Fin 3) = (if t.val % 8 < 4 then t.val % 8 else 3)
      ∧ win0_2.index t (2 : Fin 3) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

variable (m : (ℓ : Loc nD τ sig) → Buf (Elt Ideal) ℓ) (c : Dev nD)

/-- The query input's block at a step j ≥ 4: rows [512 (j - 4), 512 (j - 4) + 512) of batch t / 8. -/
theorem iblk0_apply (t : Fin cfg0.N) (hj : 4 ≤ t.val % 8) (r : Fin 512) (d : Fin 1024) (n : Fin 4) (s : Fin 2048)
    (hn : n.val = t.val / 8) (hs : s.val = (t.val % 8 - 4) * 512 + r.val) :
    iblk m c 0 t (ix3 0 r d) = (m ((c : Thread nD τ).loc main_arg0) : S4x2048x1024.Idx → EReal) (ix3 n s d) := by
  show V m c main_arg0 (((cfg0.win 0).blk t).view.emb (ix3 0 r d)) = _
  rw [V_main_arg0]
  obtain ⟨⟨e0, e1, e2⟩, -⟩ := idx_in t
  rw [if_neg (by omega)] at e1
  refine congrArg (m ((c : Thread nD τ).loc main_arg0)) (funext fun a => Fin.ext ?_)
  match a with
  | ⟨0, _⟩ => show win0_0.index t (0 : Fin 3) * 1 + 1 * 0 = n.val; omega
  | ⟨1, _⟩ => show win0_0.index t (1 : Fin 3) * 512 + 1 * r.val = s.val; omega
  | ⟨2, _⟩ => show win0_0.index t (2 : Fin 3) * 1024 + 1 * d.val = d.val; omega

/-- The key input's block at a step j < 4: rows [512 j, 512 j + 512) of batch t / 8. -/
theorem iblk1_apply (t : Fin cfg0.N) (hj : t.val % 8 < 4) (r : Fin 512) (d : Fin 1024) (n : Fin 4) (s : Fin 2048)
    (hn : n.val = t.val / 8) (hs : s.val = (t.val % 8) * 512 + r.val) :
    iblk m c 1 t (ix3 0 r d) = (m ((c : Thread nD τ).loc main_arg1) : S4x2048x1024.Idx → EReal) (ix3 n s d) := by
  show V m c main_arg1 (((cfg0.win 1).blk t).view.emb (ix3 0 r d)) = _
  rw [V_main_arg1]
  obtain ⟨-, ⟨e0, e1, e2⟩, -⟩ := idx_in t
  rw [if_pos hj] at e1
  refine congrArg (m ((c : Thread nD τ).loc main_arg1)) (funext fun a => Fin.ext ?_)
  match a with
  | ⟨0, _⟩ => show win0_1.index t (0 : Fin 3) * 1 + 1 * 0 = n.val; omega
  | ⟨1, _⟩ => show win0_1.index t (1 : Fin 3) * 512 + 1 * r.val = s.val; omega
  | ⟨2, _⟩ => show win0_1.index t (2 : Fin 3) * 1024 + 1 * d.val = d.val; omega

/-- The value input's block at a step j < 4: rows [512 j, 512 j + 512) of batch t / 8. -/
theorem iblk2_apply (t : Fin cfg0.N) (hj : t.val % 8 < 4) (r : Fin 512) (d : Fin 1024) (n : Fin 4) (s : Fin 2048)
    (hn : n.val = t.val / 8) (hs : s.val = (t.val % 8) * 512 + r.val) :
    iblk m c 2 t (ix3 0 r d) = (m ((c : Thread nD τ).loc main_arg2) : S4x2048x1024.Idx → EReal) (ix3 n s d) := by
  show V m c main_arg2 (((cfg0.win 2).blk t).view.emb (ix3 0 r d)) = _
  rw [V_main_arg2]
  obtain ⟨-, -, ⟨e0, e1, e2⟩, -⟩ := idx_in t
  rw [if_pos hj] at e1
  refine congrArg (m ((c : Thread nD τ).loc main_arg2)) (funext fun a => Fin.ext ?_)
  match a with
  | ⟨0, _⟩ => show win0_2.index t (0 : Fin 3) * 1 + 1 * 0 = n.val; omega
  | ⟨1, _⟩ => show win0_2.index t (1 : Fin 3) * 512 + 1 * r.val = s.val; omega
  | ⟨2, _⟩ => show win0_2.index t (2 : Fin 3) * 1024 + 1 * d.val = d.val; omega

/-- A weight window's block is the whole transposed matrix: entry (d, e) is the launched matrix's entry (e, d). -/
theorem iblk3_apply (t : Fin cfg0.N) (d e : Fin 1024) :
    iblk m c 3 t (ix2 d e) = (m ((c : Thread nD τ).loc main_arg3) : S1024x1024.Idx → EReal) (ix2 e d) := by
  refine Eq.trans ?_ (V_main_v1_apply m c d e)
  show V m c main_v1 (((cfg0.win 3).blk t).view.emb (ix2 d e)) = _
  obtain ⟨-, -, -, ⟨e0, e1⟩, -⟩ := idx_in t
  refine congrArg (V m c main_v1) (funext fun a => Fin.ext ?_)
  match a with
  | ⟨0, _⟩ => show win0_3.index t (0 : Fin 2) * 1024 + 1 * d.val = d.val; omega
  | ⟨1, _⟩ => show win0_3.index t (1 : Fin 2) * 1024 + 1 * e.val = e.val; omega

/-- A weight window's block is the whole transposed matrix: entry (d, e) is the launched matrix's entry (e, d). -/
theorem iblk4_apply (t : Fin cfg0.N) (d e : Fin 1024) :
    iblk m c 4 t (ix2 d e) = (m ((c : Thread nD τ).loc main_arg5) : S1024x1024.Idx → EReal) (ix2 e d) := by
  refine Eq.trans ?_ (V_main_v3_apply m c d e)
  show V m c main_v3 (((cfg0.win 4).blk t).view.emb (ix2 d e)) = _
  obtain ⟨-, -, -, -, ⟨e0, e1⟩, -⟩ := idx_in t
  refine congrArg (V m c main_v3) (funext fun a => Fin.ext ?_)
  match a with
  | ⟨0, _⟩ => show win0_4.index t (0 : Fin 2) * 1024 + 1 * d.val = d.val; omega
  | ⟨1, _⟩ => show win0_4.index t (1 : Fin 2) * 1024 + 1 * e.val = e.val; omega

/-- A weight window's block is the whole transposed matrix: entry (d, e) is the launched matrix's entry (e, d). -/
theorem iblk5_apply (t : Fin cfg0.N) (d e : Fin 1024) :
    iblk m c 5 t (ix2 d e) = (m ((c : Thread nD τ).loc main_arg7) : S1024x1024.Idx → EReal) (ix2 e d) := by
  refine Eq.trans ?_ (V_main_v5_apply m c d e)
  show V m c main_v5 (((cfg0.win 5).blk t).view.emb (ix2 d e)) = _
  obtain ⟨-, -, -, -, -, ⟨e0, e1⟩, -⟩ := idx_in t
  refine congrArg (V m c main_v5) (funext fun a => Fin.ext ?_)
  match a with
  | ⟨0, _⟩ => show win0_5.index t (0 : Fin 2) * 1024 + 1 * d.val = d.val; omega
  | ⟨1, _⟩ => show win0_5.index t (1 : Fin 2) * 1024 + 1 * e.val = e.val; omega

/-- A bias window's block is the whole one-row matrix: entry (0, e) is the launched vector's entry e. -/
theorem iblk6_apply (t : Fin cfg0.N) (e : Fin 1024) :
    iblk m c 6 t (ix2 0 e) = (m ((c : Thread nD τ).loc main_arg4) : S1024.Idx → EReal) (ix1 e) := by
  refine Eq.trans ?_ (V_main_v6_apply m c e)
  show V m c main_v6 (((cfg0.win 6).blk t).view.emb (ix2 0 e)) = _
  obtain ⟨-, -, -, -, -, -, ⟨e0, e1⟩, -⟩ := idx_in t
  refine congrArg (V m c main_v6) (funext fun a => Fin.ext ?_)
  match a with
  | ⟨0, _⟩ => show win0_6.index t (0 : Fin 2) * 1 + 1 * 0 = 0; omega
  | ⟨1, _⟩ => show win0_6.index t (1 : Fin 2) * 1024 + 1 * e.val = e.val; omega

/-- A bias window's block is the whole one-row matrix: entry (0, e) is the launched vector's entry e. -/
theorem iblk7_apply (t : Fin cfg0.N) (e : Fin 1024) :
    iblk m c 7 t (ix2 0 e) = (m ((c : Thread nD τ).loc main_arg6) : S1024.Idx → EReal) (ix1 e) := by
  refine Eq.trans ?_ (V_main_v7_apply m c e)
  show V m c main_v7 (((cfg0.win 7).blk t).view.emb (ix2 0 e)) = _
  obtain ⟨-, -, -, -, -, -, -, ⟨e0, e1⟩, -⟩ := idx_in t
  refine congrArg (V m c main_v7) (funext fun a => Fin.ext ?_)
  match a with
  | ⟨0, _⟩ => show win0_7.index t (0 : Fin 2) * 1 + 1 * 0 = 0; omega
  | ⟨1, _⟩ => show win0_7.index t (1 : Fin 2) * 1024 + 1 * e.val = e.val; omega

/-- A bias window's block is the whole one-row matrix: entry (0, e) is the launched vector's entry e. -/
theorem iblk8_apply (t : Fin cfg0.N) (e : Fin 1024) :
    iblk m c 8 t (ix2 0 e) = (m ((c : Thread nD τ).loc main_arg8) : S1024.Idx → EReal) (ix1 e) := by
  refine Eq.trans ?_ (V_main_v8_apply m c e)
  show V m c main_v8 (((cfg0.win 8).blk t).view.emb (ix2 0 e)) = _
  obtain ⟨-, -, -, -, -, -, -, -, ⟨e0, e1⟩⟩ := idx_in t
  refine congrArg (V m c main_v8) (funext fun a => Fin.ext ?_)
  match a with
  | ⟨0, _⟩ => show win0_8.index t (0 : Fin 2) * 1 + 1 * 0 = 0; omega
  | ⟨1, _⟩ => show win0_8.index t (1 : Fin 2) * 1024 + 1 * e.val = e.val; omega

/-! ### The projected tiles -/

/-- The key tile of a step j < 4: row r is the key projection at row 512 j + r of batch t / 8. -/
theorem key_tile (t : Fin cfg0.N) (hj : t.val % 8 < 4) (r : Fin 512) (e : Fin 1024) (n : Fin 4) (s : Fin 2048)
    (hn : n.val = t.val / 8) (hs : s.val = (t.val % 8) * 512 + r.val) :
    k0_pay1 (F := Ideal) (iblk m c 1 t) (iblk m c 4 t) (iblk m c 7 t) (ix2 r e)
      = Cert.Attn.lin (Cert.Attn.c3 (m ((c : Thread nD τ).loc main_arg1))) (Cert.Attn.c2 (m ((c : Thread nD τ).loc main_arg5)))
          (Cert.Attn.c1 (m ((c : Thread nD τ).loc main_arg6))) n s e := by
  refine (k0_pay1_apply (iblk m c 1 t) (iblk m c 4 t) (iblk m c 7 t) r e).trans ?_
  exact congrArg₂ (· + ·)
    (Finset.sum_congr rfl fun d _ => congrArg₂ (· * ·) (iblk1_apply m c t hj r d n s hn hs) (iblk4_apply m c t d e))
    (iblk7_apply m c t e)

/-- The value tile of a step j < 4: row r is the value projection at row 512 j + r of batch t / 8. -/
theorem value_tile (t : Fin cfg0.N) (hj : t.val % 8 < 4) (r : Fin 512) (e : Fin 1024) (n : Fin 4) (s : Fin 2048)
    (hn : n.val = t.val / 8) (hs : s.val = (t.val % 8) * 512 + r.val) :
    k0_pay2 (F := Ideal) (iblk m c 2 t) (iblk m c 5 t) (iblk m c 8 t) (ix2 r e)
      = Cert.Attn.lin (Cert.Attn.c3 (m ((c : Thread nD τ).loc main_arg2))) (Cert.Attn.c2 (m ((c : Thread nD τ).loc main_arg7)))
          (Cert.Attn.c1 (m ((c : Thread nD τ).loc main_arg8))) n s e := by
  refine (k0_pay2_apply (iblk m c 2 t) (iblk m c 5 t) (iblk m c 8 t) r e).trans ?_
  exact congrArg₂ (· + ·)
    (Finset.sum_congr rfl fun d _ => congrArg₂ (· * ·) (iblk2_apply m c t hj r d n s hn hs) (iblk5_apply m c t d e))
    (iblk8_apply m c t e)

/-- The query tile of a step j ≥ 4: row r is the query projection at row 512 (j - 4) + r of batch t / 8. -/
theorem query_tile (t : Fin cfg0.N) (hj : 4 ≤ t.val % 8) (r : Fin 512) (e : Fin 1024) (n : Fin 4) (s : Fin 2048)
    (hn : n.val = t.val / 8) (hs : s.val = (t.val % 8 - 4) * 512 + r.val) :
    k0_pay3 (F := Ideal) (iblk m c 0 t) (iblk m c 3 t) (iblk m c 6 t) (ix2 r e)
      = Cert.Attn.lin (Cert.Attn.c3 (m ((c : Thread nD τ).loc main_arg0))) (Cert.Attn.c2 (m ((c : Thread nD τ).loc main_arg3)))
          (Cert.Attn.c1 (m ((c : Thread nD τ).loc main_arg4))) n s e := by
  refine (k0_pay3_apply (iblk m c 0 t) (iblk m c 3 t) (iblk m c 6 t) r e).trans ?_
  exact congrArg₂ (· + ·)
    (Finset.sum_congr rfl fun d _ => congrArg₂ (· * ·) (iblk0_apply m c t hj r d n s hn hs) (iblk3_apply m c t d e))
    (iblk6_apply m c t e)

end Cert.KernelIdeal.Hand

end
-- ==== Proof.KI.TileFns.lean ====
/-
  The four key tiles and the four value tiles of a batch, taken together, are the key and value projections of the
  batch: tile j holds rows [512 j, 512 j + 512), so row k' of tile j is the projection at key 512 j + k'.
-/
import proofs.«160587_j66159676228012_2_alg».proof.Proof.KI.TilesIdeal
import proofs.«160587_j66159676228012_2_alg».proof.Proof.KI.Data
import proofs.«160587_j66159676228012_2_alg».proof.Proof.Spec

set_option maxRecDepth 16384

noncomputable section

namespace Cert.KernelIdeal.Hand

open Cert.KernelIdeal Cert.KernelIdeal.Gen Idealize.ShloMosaic Idealize.ShloMosaic.ValueIdx Idealize.ShloMosaic.TcCoe
  Idealize.SL.Sem

/-- Point 8 b + j, for a batch b < 4 and a step j < 8, is the point of that number. -/
theorem ptOf_val (b j : ℕ) (hb : b < 4) (hj : j < 8) : (ptOf b j).val = 8 * b + j := by
  show (8 * b + j) % 32 = 8 * b + j
  omega

variable (m : (ℓ : Loc nD τ sig) → Buf (Elt Ideal) ℓ) (c : Dev nD)

/-- The key tile of step j of batch b, at (k', d): the key projection at row 512 j + k' of the batch. -/
theorem KT_apply (b : ℕ) (hb : b < 4) (n : Fin 4) (hn : n.val = b) (j : Fin 4) (k' : Fin 512) (d : Fin 1024) :
    KT (F := Ideal) m c (ptOf b j.val) (ix2 k' d)
      = Cert.Attn.lin (Cert.Attn.c3 (m ((c : Thread nD τ).loc main_arg1))) (Cert.Attn.c2 (m ((c : Thread nD τ).loc main_arg5)))
          (Cert.Attn.c1 (m ((c : Thread nD τ).loc main_arg6))) n (Cert.Attn.key j k') d := by
  have hj := j.isLt
  have hp : (ptOf b j.val).val = 8 * b + j.val := ptOf_val b j.val hb (by omega)
  unfold KT
  exact key_tile m c (ptOf b j.val) (by omega) k' d n (Cert.Attn.key j k') (by omega)
    (by show j.val * 512 + k'.val = _; omega)

/-- The four key tiles of batch b, as one function of (tile, row, feature), are the key projection of the batch. -/
theorem key_tiles_fun (b : ℕ) (hb : b < 4) (n : Fin 4) (hn : n.val = b) :
    (fun (t' : Fin 4) (k' : Fin 512) (d : Fin 1024) =>
        (![KT (F := Ideal) m c (ptOf b 0), KT m c (ptOf b 1), KT m c (ptOf b 2), KT m c (ptOf b 3)] :
          Fin 4 → Vec Ideal S512x1024 .bf16) t' (ix2 k' d))
      = fun t' k' d => Cert.Attn.lin (Cert.Attn.c3 (m ((c : Thread nD τ).loc main_arg1)))
          (Cert.Attn.c2 (m ((c : Thread nD τ).loc main_arg5))) (Cert.Attn.c1 (m ((c : Thread nD τ).loc main_arg6))) n
          (Cert.Attn.key t' k') d := by
  funext t' k' d
  match t' with
  | ⟨0, _⟩ => exact KT_apply m c b hb n hn 0 k' d
  | ⟨1, _⟩ => exact KT_apply m c b hb n hn 1 k' d
  | ⟨2, _⟩ => exact KT_apply m c b hb n hn 2 k' d
  | ⟨3, _⟩ => exact KT_apply m c b hb n hn 3 k' d

/-- The value tile of step j of batch b, at (k', d): the value projection at row 512 j + k' of the batch. -/
theorem VT_apply (b : ℕ) (hb : b < 4) (n : Fin 4) (hn : n.val = b) (j : Fin 4) (k' : Fin 512) (d : Fin 1024) :
    VT (F := Ideal) m c (ptOf b j.val) (ix2 k' d)
      = Cert.Attn.lin (Cert.Attn.c3 (m ((c : Thread nD τ).loc main_arg2))) (Cert.Attn.c2 (m ((c : Thread nD τ).loc main_arg7)))
          (Cert.Attn.c1 (m ((c : Thread nD τ).loc main_arg8))) n (Cert.Attn.key j k') d := by
  have hj := j.isLt
  have hp : (ptOf b j.val).val = 8 * b + j.val := ptOf_val b j.val hb (by omega)
  unfold VT
  exact value_tile m c (ptOf b j.val) (by omega) k' d n (Cert.Attn.key j k') (by omega)
    (by show j.val * 512 + k'.val = _; omega)

/-- The four value tiles of batch b, as one function of (tile, row, feature), are the value projection of the batch. -/
theorem value_tiles_fun (b : ℕ) (hb : b < 4) (n : Fin 4) (hn : n.val = b) :
    (fun (t' : Fin 4) (k' : Fin 512) (d : Fin 1024) =>
        (![VT (F := Ideal) m c (ptOf b 0), VT m c (ptOf b 1), VT m c (ptOf b 2), VT m c (ptOf b 3)] :
          Fin 4 → Vec Ideal S512x1024 .bf16) t' (ix2 k' d))
      = fun t' k' d => Cert.Attn.lin (Cert.Attn.c3 (m ((c : Thread nD τ).loc main_arg2)))
          (Cert.Attn.c2 (m ((c : Thread nD τ).loc main_arg7))) (Cert.Attn.c1 (m ((c : Thread nD τ).loc main_arg8))) n
          (Cert.Attn.key t' k') d := by
  funext t' k' d
  match t' with
  | ⟨0, _⟩ => exact VT_apply m c b hb n hn 0 k' d
  | ⟨1, _⟩ => exact VT_apply m c b hb n hn 1 k' d
  | ⟨2, _⟩ => exact VT_apply m c b hb n hn 2 k' d
  | ⟨3, _⟩ => exact VT_apply m c b hb n hn 3 k' d

end Cert.KernelIdeal.Hand

end
-- ==== Proof.KI.CoverIdeal.lean ====
/-
  The output array and its blocks. The output is a [4, 2048, 1024] array written back in blocks of [1, 512, 1024]:
  at point t = 8 b + j the block has index (b, 0, 0) for j < 4 and (b, j - 4, 0) for j ≥ 4, and it is written back
  exactly at the points with j ≥ 4. A block's coordinate in the array is the block index times the block extent plus
  the coordinate inside the block, so the block written back at such a point holds rows [512 (j - 4), 512 (j - 4) + 512)
  of batch b; and row s of batch n lies in the block written back at the point 8 n + 4 + s / 512. The written-back
  blocks therefore cover the array.
-/
import proofs.«160587_j66159676228012_2_alg».proof.Proof.Gen.KernelIdeal.Frame
import proofs.«160587_j66159676228012_2_alg».proof.Proof.Gen.KernelIdeal.Points
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.ValueIdx Idealize.ShloMosaic.TcCoe
  Idealize.SL.Sem

variable {F : FTy → Type} [FloatOps F]

/-- The output is written back exactly at the points with step j ≥ 4. -/
theorem flush9_iff : ∀ t : Fin cfg0.N, (cfg0.win 9).flush t = true ↔ 4 ≤ t.val % 8 :=
  (by decide +kernel : ∀ t : Fin grid0.N, win0_9.flush t = true ↔ 4 ≤ t.val % 8)

/-- The output's block index at each of the 32 points. -/
theorem idx_out : ∀ t : Fin cfg0.N, win0_9.index t (0 : Fin 3) = t.val / 8
    ∧ win0_9.index t (1 : Fin 3) = (if t.val % 8 < 4 then 0 else t.val % 8 - 4) ∧ win0_9.index t (2 : Fin 3) = 0 :=
  (by decide +kernel : ∀ t : Fin grid0.N, _)

/-- A point is below 32. -/
theorem point_lt (t : Fin cfg0.N) : t.val < 32 := lt_of_lt_of_eq t.isLt N_0

/-- A block that agrees, entry by entry, with rows [512 (j - 4), 512 (j - 4) + 512) of batch t / 8 of a whole-array
    contents is that contents' block at the point t (a point with step j ≥ 4). -/
theorem blk9_eq_read (c : Dev nD) (t : Fin cfg0.N) (hj : 4 ≤ t.val % 8)
    (Gb : Buf (Elt F) ((cfg0.win 9).arr.view.loc (c.tc : Thread nD τ)))
    (B : ((cfg0.win 9).xblock (cfg0.grid.coords t)).Idx → Elt F (cfg0.win 9).elt)
    (h : ∀ (r : Fin 512) (e : Fin 1024) (n : Fin 4) (s : Fin 2048), n.val = t.val / 8 →
      s.val = (t.val % 8 - 4) * 512 + r.val → B (ix3 0 r e) = Gb (ix3 n s e)) :
    B = ((cfg0.win 9).blk t).view.read (Elt F) Gb := by
  funext y
  obtain ⟨u, r, e, rfl⟩ : ∃ (u : Fin 1) (r : Fin 512) (e : Fin 1024), y = ix3 u r e :=
    ⟨y 0, y 1, y 2, eq_ix3 (n0 := 1) (n1 := 512) (n2 := 1024) y⟩
  have hu : u = 0 := Fin.ext (by have := u.isLt; omega)
  subst hu
  have ht := point_lt t
  obtain ⟨e0, e1, e2⟩ := idx_out t
  rw [if_neg (by omega)] at e1
  refine (h r e ⟨t.val / 8, by omega⟩ ⟨(t.val % 8 - 4) * 512 + r.val, by have := r.isLt; omega⟩ rfl rfl).trans ?_
  show Gb _ = Gb (((cfg0.win 9).blk t).view.emb (ix3 0 r e))
  refine congrArg Gb (funext fun a => Fin.ext ?_)
  match a with
  | ⟨0, _⟩ => show t.val / 8 = win0_9.index t (0 : Fin 3) * 1 + 1 * 0; omega
  | ⟨1, _⟩ => show (t.val % 8 - 4) * 512 + r.val = win0_9.index t (1 : Fin 3) * 512 + 1 * r.val; omega
  | ⟨2, _⟩ => show e.val = win0_9.index t (2 : Fin 3) * 1024 + 1 * e.val; omega

/-- An index of the array is in the block of point t iff each coordinate is in the block's range on its axis. -/
theorem mem_blk9 (t : Fin cfg0.N) (i : S4x2048x1024.Idx) :
    i ∈ ((cfg0.win 9).blk t).view.set ↔ ∀ a : Fin 3, win0_9.index t a * S1x512x1024.size a ≤ (i a).val
      ∧ (i a).val < win0_9.index t a * S1x512x1024.size a + S1x512x1024.size a := by
  show i ∈ ((View.whole main_v9).slice (win0_9.rect t)).set ↔ _
  rw [View.set_slice_whole, Rect.mem_set_unit]
  exact Iff.rfl

/-- Row s of batch n lies in the block written back at the point 8 n + 4 + s / 512. -/
theorem cover9_idx (i : S4x2048x1024.Idx) :
    ∃ t : Fin cfg0.N, (cfg0.win 9).flush t = true ∧ i ∈ ((cfg0.win 9).blk t).view.set := by
  have hi0 : (i 0).val < 4 := (i 0).isLt
  have hi1 : (i 1).val < 2048 := (i 1).isLt
  have hi2 : (i 2).val < 1024 := (i 2).isLt
  obtain ⟨t, ht⟩ : ∃ t : Fin cfg0.N, t.val = 8 * (i 0).val + 4 + (i 1).val / 512 :=
    ⟨⟨8 * (i 0).val + 4 + (i 1).val / 512, lt_of_lt_of_eq (by omega : 8 * (i 0).val + 4 + (i 1).val / 512 < 32) N_0.symm⟩, rfl⟩
  refine ⟨t, (flush9_iff t).2 (by omega), ?_⟩
  rw [mem_blk9]
  obtain ⟨e0, e1, e2⟩ := idx_out t
  rw [if_neg (by omega)] at e1
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 512 ≤ (i 1).val ∧ (i 1).val < win0_9.index t (1 : Fin 3) * 512 + 512; omega
  | ⟨2, _⟩ => show win0_9.index t (2 : Fin 3) * 1024 ≤ (i 2).val ∧ (i 2).val < win0_9.index t (2 : Fin 3) * 1024 + 1024; omega

/-- The written-back blocks cover the output array. -/
theorem cover9 (c : Dev nD) (i : ((cfg0.win 9).arr.view.loc (c.tc : Thread nD τ)).2.ty.Idx) :
    ∃ t : Fin cfg0.N, (cfg0.win 9).flush t = true ∧ i ∈ ((cfg0.win 9).blk t).view.set :=
  cover9_idx i

end Cert.KernelIdeal.Hand

end
-- ==== Proof.LibOnlineSoftmax.lean ====
/-
  Online softmax over the extended reals.

  Keys k carry a real score s k and a flag ok k; a key that is not ok counts with score -∞, so its weight
  exp(-∞ - M) is 0. For a finite set K of keys seen so far, with at least one ok key, the running state is
    m = max over K of the masked scores (a real M),
    l = Σ_{k ∈ K} w_M k,   a = Σ_{k ∈ K} w_M k · v k,      w_M k = exp(s k - M) if ok k, else 0.
  Seeing a further batch T (disjoint from K) turns (m, l, a) into
    m' = max(m, max_T),  l' = exp(m - m') l + Σ_T exp(σ - m'),  a' = exp(m - m') a + Σ_T exp(σ - m') v,
  which is the state of K ∪ T, because exp(M - M') · exp(s - M) = exp(s - M'). From the reset state
  (-∞, 0, 0) the first batch gives the state of that batch (exp(-∞) = 0). At the end a · (1 / l) is
  Σ_k (w k / Σ w) v k: the whole-row softmax, over any larger key set whose extra keys are not ok.
-/
import Idealize.ShloMosaic.PureOps.Ideal
import Idealize.ShloMosaic.PureOps.Ideal.Laws

noncomputable section

namespace Cert.LibOnlineSoftmax

open Idealize.ShloMosaic Finset

variable {κ : Type} [DecidableEq κ]

/-- A key's score as an extended real: -∞ where the key is masked. -/
def sc (ok : κ → Bool) (s : κ → ℝ) (k : κ) : EReal := if ok k then (s k : EReal) else ⊥

/-- A key's weight relative to the maximum `M`. -/
def wt (ok : κ → Bool) (s : κ → ℝ) (M : ℝ) (k : κ) : ℝ := if ok k then Real.exp (s k - M) else 0

theorem exp_sc_sub (ok : κ → Bool) (s : κ → ℝ) (M : ℝ) (k : κ) :
    Ideal.exp (sc ok s k - (M : EReal)) = ((wt ok s M k : ℝ) : EReal) := by
  unfold sc wt
  by_cases h : ok k = true
  · rw [if_pos h, if_pos h, ← EReal.coe_sub, Ideal.exp_coe]
  · rw [if_neg h, if_neg h, EReal.bot_sub, Ideal.exp_bot, EReal.coe_zero]

theorem coe_sum {ι : Type} (K : Finset ι) (f : ι → ℝ) : ((∑ k ∈ K, f k : ℝ) : EReal) = ∑ k ∈ K, (f k : EReal) := by
  classical
  induction K using Finset.induction_on with
  | empty => simp
  | insert a K ha ih => rw [Finset.sum_insert ha, Finset.sum_insert ha, EReal.coe_add, ih]

theorem wt_rescale (ok : κ → Bool) (s : κ → ℝ) (M M' : ℝ) (k : κ) :
    wt ok s M' k = Real.exp (M - M') * wt ok s M k := by
  unfold wt
  by_cases h : ok k = true
  · rw [if_pos h, if_pos h, ← Real.exp_add]; congr 1; ring
  · rw [if_neg h, if_neg h, mul_zero]

theorem sc_lt_top (ok : κ → Bool) (s : κ → ℝ) (k : κ) : sc ok s k < ⊤ := by
  unfold sc; split
  · exact EReal.coe_lt_top _
  · exact bot_lt_top

/-- The greatest masked score over a set with an ok key is a real. -/
theorem sup_real (ok : κ → Bool) (s : κ → ℝ) (K : Finset κ) (h : ∃ k ∈ K, ok k = true) :
    ∃ M : ℝ, (M : EReal) = K.sup (sc ok s) := by
  obtain ⟨k, hk, hok⟩ := h
  have hbot : K.sup (sc ok s) ≠ ⊥ := by
    have : sc ok s k ≤ K.sup (sc ok s) := Finset.le_sup hk
    unfold sc at this; rw [if_pos hok] at this
    exact fun e => absurd (e ▸ this) (not_le.mpr (EReal.bot_lt_coe _))
  have htop : K.sup (sc ok s) ≠ ⊤ :=
    ne_of_lt ((Finset.sup_lt_iff (bot_lt_top)).mpr fun k _ => sc_lt_top ok s k)
  lift K.sup (sc ok s) to ℝ using ⟨htop, hbot⟩ with M hM
  exact ⟨M, rfl⟩

/-- The running state after the keys of `K`. -/
def Inv (ok : κ → Bool) (s v : κ → ℝ) (K : Finset κ) (m l a : EReal) : Prop :=
  ∃ M : ℝ, m = (M : EReal) ∧ (M : EReal) = K.sup (sc ok s)
    ∧ l = ((∑ k ∈ K, wt ok s M k : ℝ) : EReal) ∧ a = ((∑ k ∈ K, wt ok s M k * v k : ℝ) : EReal)

/-- One more batch of keys. -/
theorem Inv.step {ok : κ → Bool} {s v : κ → ℝ} {K : Finset κ} {m l a : EReal} (h : Inv ok s v K m l a)
    (T : Finset κ) (hd : Disjoint K T) :
    Inv ok s v (K ∪ T) (max m (T.sup (sc ok s)))
      (Ideal.exp (m - max m (T.sup (sc ok s))) * l + ∑ k ∈ T, Ideal.exp (sc ok s k - max m (T.sup (sc ok s))))
      (Ideal.exp (m - max m (T.sup (sc ok s))) * a + ∑ k ∈ T, Ideal.exp (sc ok s k - max m (T.sup (sc ok s))) * (v k : EReal)) := by
  obtain ⟨M, rfl, hM, rfl, rfl⟩ := h
  have hsup : max (M : EReal) (T.sup (sc ok s)) = (K ∪ T).sup (sc ok s) := by
    rw [Finset.sup_union, hM]
  have hbot : (K ∪ T).sup (sc ok s) ≠ ⊥ := by
    rw [← hsup]; exact fun e => absurd (le_max_left (M : EReal) _) (by rw [e]; exact not_le.mpr (EReal.bot_lt_coe _))
  have htop : (K ∪ T).sup (sc ok s) ≠ ⊤ :=
    ne_of_lt ((Finset.sup_lt_iff (bot_lt_top)).mpr fun k _ => sc_lt_top ok s k)
  rw [hsup]
  lift (K ∪ T).sup (sc ok s) to ℝ using ⟨htop, hbot⟩ with M' hM'
  refine ⟨M', rfl, hM', ?_, ?_⟩
  · rw [← EReal.coe_sub, Ideal.exp_coe, ← EReal.coe_mul]
    simp only [exp_sc_sub]
    rw [← coe_sum, ← EReal.coe_add, Finset.sum_union hd, Finset.mul_sum]
    congr 2
    exact Finset.sum_congr rfl fun k _ => (wt_rescale ok s M M' k).symm
  · rw [← EReal.coe_sub, Ideal.exp_coe, ← EReal.coe_mul]
    simp only [exp_sc_sub, ← EReal.coe_mul]
    rw [← coe_sum, ← EReal.coe_add, Finset.sum_union hd, Finset.mul_sum]
    congr 2
    exact Finset.sum_congr rfl fun k _ => by rw [wt_rescale ok s M M' k, mul_assoc]

/-- The first batch, from the reset state. -/
theorem Inv.first (ok : κ → Bool) (s v : κ → ℝ) (T : Finset κ) (hT : ∃ k ∈ T, ok k = true) :
    Inv ok s v T (max ⊥ (T.sup (sc ok s)))
      (Ideal.exp (⊥ - max ⊥ (T.sup (sc ok s))) * 0 + ∑ k ∈ T, Ideal.exp (sc ok s k - max ⊥ (T.sup (sc ok s))))
      (Ideal.exp (⊥ - max ⊥ (T.sup (sc ok s))) * 0 + ∑ k ∈ T, Ideal.exp (sc ok s k - max ⊥ (T.sup (sc ok s))) * (v k : EReal)) := by
  obtain ⟨M, hM⟩ := sup_real ok s T hT
  rw [max_eq_right bot_le, ← hM]
  refine ⟨M, rfl, hM, ?_, ?_⟩
  · rw [mul_zero, zero_add]; simp only [exp_sc_sub]; rw [← coe_sum]
  · rw [mul_zero, zero_add]; simp only [exp_sc_sub, ← EReal.coe_mul]; rw [← coe_sum]

/-- The denominator is positive: the greatest score is attained by an ok key, whose weight is 1. -/
theorem denom_pos (ok : κ → Bool) (s : κ → ℝ) (K : Finset κ) (M : ℝ) (hM : (M : EReal) = K.sup (sc ok s)) :
    0 < ∑ k ∈ K, wt ok s M k := by
  have hne : K.Nonempty := by
    by_contra hK
    rw [Finset.not_nonempty_iff_eq_empty] at hK
    rw [hK, Finset.sup_empty] at hM
    exact EReal.coe_ne_bot M hM
  obtain ⟨k, hk, hkM⟩ := Finset.exists_mem_eq_sup K hne (sc ok s)
  have hokk : ok k = true := by
    by_contra hn
    rw [← hM] at hkM; unfold sc at hkM; rw [if_neg hn] at hkM
    exact EReal.coe_ne_bot M hkM
  have hnonneg : ∀ j ∈ K, 0 ≤ wt ok s M j := fun j _ => by
    unfold wt; split
    · exact (Real.exp_pos _).le
    · exact le_rfl
  have hkpos : 0 < wt ok s M k := by unfold wt; rw [if_pos hokk]; exact Real.exp_pos _
  exact lt_of_lt_of_le hkpos (Finset.single_le_sum hnonneg hk)

/-- The end: numerator times the reciprocal of the denominator is the whole-row softmax against the values, the
    row taken over any key set `U ⊇ K` whose further keys are masked. -/
theorem Inv.quotient {ok : κ → Bool} {s v : κ → ℝ} {K : Finset κ} {m l a : EReal} (h : Inv ok s v K m l a)
    (U : Finset κ) (hKU : K ⊆ U) (hrest : ∀ k ∈ U, k ∉ K → ok k = false) :
    a * Ideal.div 1 l
      = ∑ k ∈ U, Ideal.div (Ideal.exp (sc ok s k - max ⊥ (U.sup (sc ok s))))
            (0 + ∑ j ∈ U, Ideal.exp (sc ok s j - max ⊥ (U.sup (sc ok s)))) * (v k : EReal) := by
  obtain ⟨M, rfl, hM, rfl, rfl⟩ := h
  have hwt0 : ∀ k ∈ U, k ∉ K → wt ok s M k = 0 := fun k hk hn => by unfold wt; rw [if_neg (by rw [hrest k hk hn]; simp)]
  have hsupU : U.sup (sc ok s) = (M : EReal) := by
    rw [hM]
    apply le_antisymm
    · refine Finset.sup_le fun k hk => ?_
      by_cases hkK : k ∈ K
      · exact Finset.le_sup hkK
      · unfold sc; rw [if_neg (by rw [hrest k hk hkK]; simp)]; exact bot_le
    · exact Finset.sup_mono hKU
  have hsumU : ∀ f : κ → ℝ, (∀ k ∈ U, k ∉ K → f k = 0) → ∑ k ∈ U, f k = ∑ k ∈ K, f k := fun f hf =>
    (Finset.sum_subset hKU (fun k hk hn => hf k hk hn)).symm
  have hL := denom_pos ok s K M hM
  set L := ∑ k ∈ K, wt ok s M k with hLdef
  rw [hsupU, max_eq_right bot_le]
  simp only [exp_sc_sub]
  rw [← coe_sum, zero_add, hsumU (wt ok s M) hwt0, ← hLdef]
  rw [Ideal.div_coe hL.ne']
  simp only [Ideal.div_coe hL.ne', ← EReal.coe_mul, ← EReal.coe_one]
  rw [← coe_sum]
  rw [EReal.coe_eq_coe_iff]
  rw [hsumU (fun k => wt ok s M k * (1 / L) * v k) (fun k hk hn => by simp only [hwt0 k hk hn, zero_mul])]
  rw [Finset.sum_mul]
  exact Finset.sum_congr rfl fun k _ => by ring

end Cert.LibOnlineSoftmax

end
-- ==== Proof.OnlineLaw.lean ====
/-
  The law of the online softmax for the attention of this certificate.

  A linear layer of real arrays is real. On real Q, K, V every score is a real and every value entry is a
  real, so the four-tile running computation (maximum, denominator, numerator, rescaled whenever the maximum
  grows) is the running state of the general online-softmax invariant over the keys seen so far: the four tiles
  are the pairwise disjoint sets { k | k / 512 = t }, t = 0, 1, 2, 3, whose union is all 2048 keys. At the end
  the quotient a / l is a · (1 / l), the whole-row softmax against the values.
-/
import proofs.«160587_j66159676228012_2_alg».proof.Proof.Spec
import proofs.«160587_j66159676228012_2_alg».proof.Proof.LibOnlineSoftmax

noncomputable section

namespace Cert.Attn

open Idealize.ShloMosaic Finset Cert.LibOnlineSoftmax

/-- A finite sum of products of reals plus a real is a real. -/
theorem lin_real {x : Arr3} {W : Mat} {b : Bias} (hx : Real3 x) (hW : RealM W) (hb : RealB b) :
    Real3 (lin x W b) := by
  intro n s e
  choose xr hxr using hx
  choose Wr hWr using hW
  choose br hbr using hb
  refine ⟨(∑ d : Fin 1024, xr n s d * Wr e d) + br e, ?_⟩
  unfold lin
  rw [EReal.coe_add, coe_sum, hbr]
  congr 1
  exact Finset.sum_congr rfl fun d _ => by rw [hxr, hWr, EReal.coe_mul]

/-- The scores of a query row against real keys are reals. -/
theorem score_real {Q K : Arr3} (hQ : Real3 Q) (hK : Real3 K) (n : Fin 4) (q : Fin 2048) :
    ∃ s : Fin 2048 → ℝ, ∀ k, score Q K n q k = (s k : EReal) := by
  choose Qr hQr using hQ
  choose Kr hKr using hK
  refine ⟨fun k => (∑ d : Fin 1024, Qr n q d * Kr n k d) * (1 / 32), fun k => ?_⟩
  unfold score scale
  rw [EReal.coe_mul, coe_sum]
  congr 1
  exact Finset.sum_congr rfl fun d _ => by rw [hQr, hKr, EReal.coe_mul]

/-! ### The four tiles of keys -/

theorem key_injective (t : Fin 4) : Function.Injective (key t) := by
  intro a b h
  have h' := congrArg Fin.val h
  simp only [key] at h'
  exact Fin.ext (by omega)

/-- Tile t: the keys t·512 + k', k' < 512. -/
def tile (t : Fin 4) : Finset (Fin 2048) := Finset.univ.map ⟨key t, key_injective t⟩

theorem mem_tile {t : Fin 4} {k : Fin 2048} : k ∈ tile t ↔ k.val / 512 = t.val := by
  unfold tile
  rw [Finset.mem_map]
  constructor
  · rintro ⟨k', _, rfl⟩
    show (t.val * 512 + k'.val) / 512 = t.val
    have := k'.isLt
    omega
  · intro h
    refine ⟨⟨k.val % 512, Nat.mod_lt _ (by norm_num)⟩, Finset.mem_univ _, ?_⟩
    apply Fin.ext
    show t.val * 512 + k.val % 512 = k.val
    omega

/-- A sum over the positions of a tile is the sum over the tile. -/
theorem tile_sum (t : Fin 4) (f : Fin 2048 → EReal) : ∑ k' : Fin 512, f (key t k') = ∑ k ∈ tile t, f k := by
  unfold tile
  rw [Finset.sum_map]
  rfl

/-- A supremum over the positions of a tile is the supremum over the tile. -/
theorem tile_sup (t : Fin 4) (f : Fin 2048 → EReal) :
    (Finset.univ.sup fun k' : Fin 512 => f (key t k')) = (tile t).sup f := by
  unfold tile
  rw [Finset.sup_map]
  rfl

/-! ### One tile seen, in the spelling of the general invariant -/

section Step

variable {Q K V : Arr3} {n : Fin 4} {q : Fin 2048} {e : Fin 1024} {s v : Fin 2048 → ℝ}

theorem step_sup (hs : ∀ k, score Q K n q k = sc (fun _ => true) s k) (t : Fin 4) :
    (Finset.univ.sup fun k' : Fin 512 => score Q K n q (key t k')) = (tile t).sup (sc (fun _ => true) s) := by
  rw [tile_sup t (score Q K n q)]
  exact congrArg _ (funext hs)

theorem step_m (hs : ∀ k, score Q K n q k = sc (fun _ => true) s k) (t : Fin 4) (st : St) :
    (step Q K V n q t st).m = max st.m ((tile t).sup (sc (fun _ => true) s)) := by
  show max st.m (Finset.univ.sup fun k' : Fin 512 => score Q K n q (key t k')) = _
  rw [step_sup hs]

theorem step_l (hs : ∀ k, score Q K n q k = sc (fun _ => true) s k) (t : Fin 4) (st : St) :
    (step Q K V n q t st).l
      = Ideal.exp (st.m - max st.m ((tile t).sup (sc (fun _ => true) s))) * st.l
          + ∑ k ∈ tile t, Ideal.exp (sc (fun _ => true) s k - max st.m ((tile t).sup (sc (fun _ => true) s))) := by
  show Ideal.exp (st.m - max st.m (Finset.univ.sup fun k' : Fin 512 => score Q K n q (key t k'))) * st.l
      + ∑ k' : Fin 512, Ideal.exp (score Q K n q (key t k')
          - max st.m (Finset.univ.sup fun k' : Fin 512 => score Q K n q (key t k'))) = _
  rw [step_sup hs,
    tile_sum t (fun k => Ideal.exp (score Q K n q k - max st.m ((tile t).sup (sc (fun _ => true) s))))]
  simp only [hs]

theorem step_a (hs : ∀ k, score Q K n q k = sc (fun _ => true) s k) (hv : ∀ k, V n k e = (v k : EReal))
    (t : Fin 4) (st : St) :
    (step Q K V n q t st).a e
      = Ideal.exp (st.m - max st.m ((tile t).sup (sc (fun _ => true) s))) * st.a e
          + ∑ k ∈ tile t, Ideal.exp (sc (fun _ => true) s k - max st.m ((tile t).sup (sc (fun _ => true) s)))
              * (v k : EReal) := by
  show Ideal.exp (st.m - max st.m (Finset.univ.sup fun k' : Fin 512 => score Q K n q (key t k'))) * st.a e
      + ∑ k' : Fin 512, Ideal.exp (score Q K n q (key t k')
          - max st.m (Finset.univ.sup fun k' : Fin 512 => score Q K n q (key t k'))) * V n (key t k') e = _
  rw [step_sup hs,
    tile_sum t (fun k => Ideal.exp (score Q K n q k - max st.m ((tile t).sup (sc (fun _ => true) s))) * V n k e)]
  simp only [hs, hv]

/-- The first tile, from the reset state. -/
theorem inv_first (hs : ∀ k, score Q K n q k = sc (fun _ => true) s k) (hv : ∀ k, V n k e = (v k : EReal)) :
    Inv (fun _ => true) s v (tile 0) (step Q K V n q 0 st0).m (step Q K V n q 0 st0).l
      ((step Q K V n q 0 st0).a e) := by
  rw [step_m hs, step_l hs, step_a hs hv]
  exact Inv.first (fun _ => true) s v (tile 0) ⟨key 0 0, mem_tile.mpr (by show (0 * 512 + 0) / 512 = 0; norm_num), rfl⟩

/-- A further tile, disjoint from the keys seen. -/
theorem inv_step (hs : ∀ k, score Q K n q k = sc (fun _ => true) s k) (hv : ∀ k, V n k e = (v k : EReal))
    (t : Fin 4) (st : St) (S : Finset (Fin 2048)) (h : Inv (fun _ => true) s v S st.m st.l (st.a e))
    (hd : Disjoint S (tile t)) :
    Inv (fun _ => true) s v (S ∪ tile t) (step Q K V n q t st).m (step Q K V n q t st).l
      ((step Q K V n q t st).a e) := by
  rw [step_m hs, step_l hs, step_a hs hv]
  exact h.step (tile t) hd

end Step

/-! ### The tiles are pairwise disjoint and cover the keys -/

theorem tile_disjoint {i j : Fin 4} (h : i ≠ j) : Disjoint (tile i) (tile j) :=
  Finset.disjoint_left.mpr fun _ hi hj => h (Fin.ext ((mem_tile.mp hi).symm.trans (mem_tile.mp hj)))

theorem tiles_cover : tile 0 ∪ tile 1 ∪ tile 2 ∪ tile 3 = (Finset.univ : Finset (Fin 2048)) := by
  apply Finset.eq_univ_of_forall
  intro k
  simp only [Finset.mem_union, mem_tile]
  have hk := k.isLt
  have h0 : (0 : Fin 4).val = 0 := rfl
  have h1 : (1 : Fin 4).val = 1 := rfl
  have h2 : (2 : Fin 4).val = 2 := rfl
  have h3 : (3 : Fin 4).val = 3 := rfl
  rw [h0, h1, h2, h3]
  omega

/-- Division by a nonzero real is the product with the quotient 1 / that real. -/
theorem div_eq_mul_div_one (a : EReal) {L : ℝ} (hL : L ≠ 0) :
    Ideal.div a (L : EReal) = a * Ideal.div 1 (L : EReal) := by
  rw [Ideal.div_coe hL, Ideal.div_coe hL, one_mul]

/-! ### The law -/

/-- On real inputs the four-tile running computation is the softmax attention. -/
theorem online_eq_attn {Q K V : Arr3} (hQ : Real3 Q) (hK : Real3 K) (hV : Real3 V) (n : Fin 4) (q : Fin 2048)
    (e : Fin 1024) : online Q K V n q e = attn Q K V n q e := by
  obtain ⟨s, hs0⟩ := score_real hQ hK n q
  choose Vr hVr using hV
  have hs : ∀ k, score Q K n q k = sc (fun _ => true) s k := fun k => by
    rw [hs0 k]; unfold sc; rw [if_pos rfl]
  have hv : ∀ k, V n k e = ((Vr n k e : ℝ) : EReal) := fun k => hVr n k e
  have i0 := inv_first (v := fun k => Vr n k e) hs hv
  have i1 := inv_step hs hv 1 (step Q K V n q 0 st0) (tile 0) i0 (tile_disjoint (by decide))
  have i2 := inv_step hs hv 2 (step Q K V n q 1 (step Q K V n q 0 st0)) (tile 0 ∪ tile 1) i1
    (Finset.disjoint_union_left.mpr ⟨tile_disjoint (by decide), tile_disjoint (by decide)⟩)
  have i3 := inv_step hs hv 3 (step Q K V n q 2 (step Q K V n q 1 (step Q K V n q 0 st0)))
    (tile 0 ∪ tile 1 ∪ tile 2) i2
    (Finset.disjoint_union_left.mpr ⟨Finset.disjoint_union_left.mpr
      ⟨tile_disjoint (by decide), tile_disjoint (by decide)⟩, tile_disjoint (by decide)⟩)
  rw [tiles_cover] at i3
  have hq := i3.quotient Finset.univ (Finset.Subset.refl _) (fun k _ hk => absurd (Finset.mem_univ k) hk)
  obtain ⟨M, _, hM, hl, _⟩ := i3
  have hpos := denom_pos (fun _ => true) s Finset.univ M hM
  show Ideal.div ((step Q K V n q 3 (step Q K V n q 2 (step Q K V n q 1 (step Q K V n q 0 st0)))).a e)
      (step Q K V n q 3 (step Q K V n q 2 (step Q K V n q 1 (step Q K V n q 0 st0)))).l = _
  rw [hl, div_eq_mul_div_one _ hpos.ne', ← hl, hq]
  unfold attn
  rw [show score Q K n q = sc (fun _ => true) s from funext hs]
  exact Finset.sum_congr rfl fun k _ => by rw [hv k]

/-- The corollary for the three linear layers. -/
theorem online_eq_G {x y z : Arr3} {Wq Wk Wv : Mat} {bq bk bv : Bias} (hx : Real3 x) (hy : Real3 y) (hz : Real3 z)
    (hWq : RealM Wq) (hbq : RealB bq) (hWk : RealM Wk) (hbk : RealB bk) (hWv : RealM Wv) (hbv : RealB bv)
    (n : Fin 4) (q : Fin 2048) (e : Fin 1024) :
    online (lin x Wq bq) (lin y Wk bk) (lin z Wv bv) n q e = G x y z Wq bq Wk bk Wv bv n q e :=
  online_eq_attn (lin_real hx hWq hbq) (lin_real hy hWk hbk) (lin_real hz hWv hbv) n q e

end Cert.Attn

end
-- ==== Proof.KI.Final.lean ====
/-
  The idealized kernel's result.

  At an attention-phase point of batch n and query tile j - 4 the output block, at row r and feature e, is the online
  softmax of the projected query row 512 (j - 4) + r against the batch's four key tiles and value tiles; the tiles
  are the linear layers of the key-side and value-side arguments, the query row the linear layer of the query-side
  argument; on real inputs the online softmax is the softmax attention of the specification. The output blocks are
  written back exactly at the attention-phase points and tile the result array, so the array ends holding the
  specification G of the nine arguments.
-/
import proofs.«160587_j66159676228012_2_alg».proof.Proof.KI.Value
import proofs.«160587_j66159676228012_2_alg».proof.Proof.KI.PayIdeal2
import proofs.«160587_j66159676228012_2_alg».proof.Proof.KI.TilesIdeal
import proofs.«160587_j66159676228012_2_alg».proof.Proof.KI.TileFns
import proofs.«160587_j66159676228012_2_alg».proof.Proof.KI.CoverIdeal
import proofs.«160587_j66159676228012_2_alg».proof.Proof.OnlineLaw
import proofs.«160587_j66159676228012_2_alg».proof.Proof.Spec2
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ) (ρ : Dev nD → PrngReg)

/-- The specification of the nine arguments on core c, as contents of the result array. -/
def Gb (c : Dev nD) : Buf (Elt Ideal) ((cfg0.win 9).arr.view.loc (c.tc : Thread nD τ)) :=
  fun i => Cert.Attn.G (Cert.Attn.c3 (m ((c : Thread nD τ).loc main_arg0))) (Cert.Attn.c3 (m ((c : Thread nD τ).loc main_arg1))) (Cert.Attn.c3 (m ((c : Thread nD τ).loc main_arg2))) (Cert.Attn.c2 (m ((c : Thread nD τ).loc main_arg3))) (Cert.Attn.c1 (m ((c : Thread nD τ).loc main_arg4))) (Cert.Attn.c2 (m ((c : Thread nD τ).loc main_arg5))) (Cert.Attn.c1 (m ((c : Thread nD τ).loc main_arg6))) (Cert.Attn.c2 (m ((c : Thread nD τ).loc main_arg7))) (Cert.Attn.c1 (m ((c : Thread nD τ).loc main_arg8))) (i 0) (i 1) (i 2)

/-- One entry of an attention-phase point's output block is the specification at the entry's place in the array. -/
theorem outB_apply (c : Dev nD) (hR : Cert.Attn.Real3 (Cert.Attn.c3 (m ((c : Thread nD τ).loc main_arg0))) ∧ Cert.Attn.Real3 (Cert.Attn.c3 (m ((c : Thread nD τ).loc main_arg1))) ∧ Cert.Attn.Real3 (Cert.Attn.c3 (m ((c : Thread nD τ).loc main_arg2))) ∧ Cert.Attn.RealM (Cert.Attn.c2 (m ((c : Thread nD τ).loc main_arg3))) ∧ Cert.Attn.RealB (Cert.Attn.c1 (m ((c : Thread nD τ).loc main_arg4))) ∧ Cert.Attn.RealM (Cert.Attn.c2 (m ((c : Thread nD τ).loc main_arg5))) ∧ Cert.Attn.RealB (Cert.Attn.c1 (m ((c : Thread nD τ).loc main_arg6))) ∧ Cert.Attn.RealM (Cert.Attn.c2 (m ((c : Thread nD τ).loc main_arg7))) ∧ Cert.Attn.RealB (Cert.Attn.c1 (m ((c : Thread nD τ).loc main_arg8))))
    (t : Fin cfg0.N) (hB : 4 ≤ t.val % 8) (r : Fin 512) (e : Fin 1024) (n : Fin 4) (s : Fin 2048)
    (hn : n.val = t.val / 8) (hs : s.val = (t.val % 8 - 4) * 512 + r.val) :
    outB (F := Ideal) m c t hB (ix3 0 r e) = Cert.Attn.G (Cert.Attn.c3 (m ((c : Thread nD τ).loc main_arg0))) (Cert.Attn.c3 (m ((c : Thread nD τ).loc main_arg1))) (Cert.Attn.c3 (m ((c : Thread nD τ).loc main_arg2))) (Cert.Attn.c2 (m ((c : Thread nD τ).loc main_arg3))) (Cert.Attn.c1 (m ((c : Thread nD τ).loc main_arg4))) (Cert.Attn.c2 (m ((c : Thread nD τ).loc main_arg5))) (Cert.Attn.c1 (m ((c : Thread nD τ).loc main_arg6))) (Cert.Attn.c2 (m ((c : Thread nD τ).loc main_arg7))) (Cert.Attn.c1 (m ((c : Thread nD τ).loc main_arg8))) n s e := by
  obtain ⟨h0, h1, h2, h3, h4, h5, h6, h7, h8⟩ := hR
  have hN : t.val < 32 := lt_of_lt_of_eq t.isLt N_0
  rw [outB_eq, outPay_apply, ← Cert.Attn.online_eq_G h0 h1 h2 h3 h4 h5 h6 h7 h8, Cert.Attn.online_eq_tiles]
  rw [key_tiles_fun m c (t.val / 8) (by omega) n hn, value_tiles_fun m c (t.val / 8) (by omega) n hn]
  congr 1
  funext d
  exact query_tile m c t hB r d n s hn hs

/-- The result array after the run is the specification. -/
theorem final9 (c : Dev nD) (hR : Cert.Attn.Real3 (Cert.Attn.c3 (m ((c : Thread nD τ).loc main_arg0))) ∧ Cert.Attn.Real3 (Cert.Attn.c3 (m ((c : Thread nD τ).loc main_arg1))) ∧ Cert.Attn.Real3 (Cert.Attn.c3 (m ((c : Thread nD τ).loc main_arg2))) ∧ Cert.Attn.RealM (Cert.Attn.c2 (m ((c : Thread nD τ).loc main_arg3))) ∧ Cert.Attn.RealB (Cert.Attn.c1 (m ((c : Thread nD τ).loc main_arg4))) ∧ Cert.Attn.RealM (Cert.Attn.c2 (m ((c : Thread nD τ).loc main_arg5))) ∧ Cert.Attn.RealB (Cert.Attn.c1 (m ((c : Thread nD τ).loc main_arg6))) ∧ Cert.Attn.RealM (Cert.Attn.c2 (m ((c : Thread nD τ).loc main_arg7))) ∧ Cert.Attn.RealB (Cert.Attn.c1 (m ((c : Thread nD τ).loc main_arg8)))) :
    (dats (F := Ideal) m 0 c).arrAt 9 cfg0.N = Gb m c :=
  (dats (F := Ideal) m 0 c).arrAt_eq_of_cover 9 (Gb m c)
    (fun t hf => blk9_eq_read c t ((flush9_iff t).1 hf) (Gb m c) ((dats (F := Ideal) m 0 c).flushed 9 t)
      (fun r e n s hn hs => by
        have hB : 4 ≤ t.val % 8 := (flush9_iff t).1 hf
        show (cfg0.win 9).cut (grid0.coords t) ((dats (F := Ideal) m 0 c).after 9 t) (ix3 0 r e) = _
        rw [after0_9 m c t hB]
        exact outB_apply m c hR t hB r e n s hn hs))
    (cover9 c)

/-- The idealized kernel's run, with its value: every weakly fair execution terminates, the result array holds the
    specification of the arguments, and the arguments are unchanged. -/
theorem run_value (hR : ∀ c : Dev nD, Cert.Attn.Real3 (Cert.Attn.c3 (m ((c : Thread nD τ).loc main_arg0))) ∧ Cert.Attn.Real3 (Cert.Attn.c3 (m ((c : Thread nD τ).loc main_arg1))) ∧ Cert.Attn.Real3 (Cert.Attn.c3 (m ((c : Thread nD τ).loc main_arg2))) ∧ Cert.Attn.RealM (Cert.Attn.c2 (m ((c : Thread nD τ).loc main_arg3))) ∧ Cert.Attn.RealB (Cert.Attn.c1 (m ((c : Thread nD τ).loc main_arg4))) ∧ Cert.Attn.RealM (Cert.Attn.c2 (m ((c : Thread nD τ).loc main_arg5))) ∧ Cert.Attn.RealB (Cert.Attn.c1 (m ((c : Thread nD τ).loc main_arg6))) ∧ Cert.Attn.RealM (Cert.Attn.c2 (m ((c : Thread nD τ).loc main_arg7))) ∧ Cert.Attn.RealB (Cert.Attn.c1 (m ((c : Thread nD τ).loc main_arg8)))) :
    θ_run defs (onTc (τ := τ) (main (F := Ideal))) ⟨m, fun _ => 0, ρ⟩ (fun r => ∀ c : Dev nD,
      r.2.mem ((c.tc : Thread nD τ).loc main_v9) = Gb m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 9).trans (final9 m c (hR c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩)
    (run_main (F := Ideal) m ρ)

end Cert.KernelIdeal.Hand

end
-- ==== Proof.RefSpec.lean ====
/-
  The reference computation, read entry by entry, is the specification G.

  Its operations in order: three linear projections (a contraction over the model dimension, then the bias broadcast
  over batch and sequence) give Q, K, V; the contraction of Q with K over the feature index gives the raw scores, which
  are divided by the square root of 1024, that is by 32: on every extended real division by 32 is multiplication by
  1/32. The softmax over the 2048 keys is spelled as: the maximum of the row folded from -∞ and then taken against -∞
  once more, the difference, the exponential, the sum of the row taken from 0, the quotient. The last contraction
  weighs the value rows. Read at the entry (n, q, e) each stage depends on its operands at indices built from n, q, e
  and the contraction index, so every stage is identified with the corresponding expression of the specification.
-/
import proofs.«160587_j66159676228012_2_alg».proof.Proof.Gen.ReferenceIdeal.Read
import proofs.«160587_j66159676228012_2_alg».proof.Proof.Curry

noncomputable section

namespace Cert.ReferenceIdeal.RefValue

open Cert.ReferenceIdeal Cert.ReferenceIdeal.Read Cert.Attn Idealize.ShloMosaic Idealize.ShloMosaic.ValueIdx

/-! ### The linear projections

The index functions of the contraction and of the two bias broadcasts, at (n, s, e): the left operand is read at
(n, s, k), the right at (e, k), the bias at e. -/

theorem lidx_lin (n : Fin 4) (s : Fin 2048) (e : Fin 1024) (k : Fin 1024) : lidx_main_v0 (ix3 n s e) k = ix3 n s k :=
  funext fun a => by match a with | ⟨0, _⟩ => rfl | ⟨1, _⟩ => rfl | ⟨2, _⟩ => rfl
theorem ridx_lin (n : Fin 4) (s : Fin 2048) (e : Fin 1024) (k : Fin 1024) : ridx_main_v0 (ix3 n s e) k = ix2 e k :=
  funext fun a => by match a with | ⟨0, _⟩ => rfl | ⟨1, _⟩ => rfl
theorem idx_bias (n : Fin 4) (s : Fin 2048) (e : Fin 1024) : idx_main_v1 (idx_main_v2 (ix3 n s e)) = ix1 e :=
  funext fun a => by match a with | ⟨0, _⟩ => rfl

theorem lin_apply (x : S4x2048x1024.Idx → EReal) (W : S1024x1024.Idx → EReal) (b : S1024.Idx → EReal) (n : Fin 4) (s : Fin 2048) (e : Fin 1024) :
    val_main_v3 (F := Ideal) x W b (ix3 n s e) = lin (c3 x) (c2 W) (c1 b) n s e := by
  rw [val_main_v3_apply, val_main_v0_apply, val_main_v2_apply, val_main_v1_apply]
  simp only [lidx_lin, ridx_lin, idx_bias]
  rfl

theorem v7_eq_v3 (x : S4x2048x1024.Idx → EReal) (W : S1024x1024.Idx → EReal) (b : S1024.Idx → EReal) :
    val_main_v7 (F := Ideal) x W b = val_main_v3 (F := Ideal) x W b := rfl
theorem v11_eq_v3 (x : S4x2048x1024.Idx → EReal) (W : S1024x1024.Idx → EReal) (b : S1024.Idx → EReal) :
    val_main_v11 (F := Ideal) x W b = val_main_v3 (F := Ideal) x W b := rfl

/-! ### The scale -/

theorem ofBits_1024 : Ideal.ofBits .f32 0x44800000#32 = ((1024 : ℝ) : EReal) := by
  simp [Ideal.ofBits, Ideal.ieee, -EReal.coe_mul]; norm_num

theorem sqrt_1024 : Ideal.sqrt (Ideal.ofBits .f32 0x44800000#32) = ((32 : ℝ) : EReal) := by
  rw [ofBits_1024, Ideal.sqrt_coe, if_neg (by norm_num)]
  exact congrArg _ (by rw [show (1024 : ℝ) = 32 ^ 2 by norm_num, Real.sqrt_sq (by norm_num)])

theorem div_sqrt_1024 (s : EReal) : Ideal.div s (Ideal.sqrt (Ideal.ofBits .f32 0x44800000#32)) = s * scale := by
  rw [sqrt_1024, Ideal.div_coe (by norm_num)]; rfl

theorem ofBits_neg_inf : Ideal.ofBits .f32 0xFF800000#32 = (⊥ : EReal) := by simp [Ideal.ofBits, Ideal.ieee]

/-! ### Scores -/

theorem lidx_score (n : Fin 4) (q k : Fin 2048) (d : Fin 1024) : lidx_main_v12 (ix3 n q k) d = ix3 n q d :=
  funext fun a => by match a with | ⟨0, _⟩ => rfl | ⟨1, _⟩ => rfl | ⟨2, _⟩ => rfl
theorem ridx_score (n : Fin 4) (q k : Fin 2048) (d : Fin 1024) : ridx_main_v12 (ix3 n q k) d = ix3 n k d :=
  funext fun a => by match a with | ⟨0, _⟩ => rfl | ⟨1, _⟩ => rfl | ⟨2, _⟩ => rfl

section
variable (x0 x1 x2 : S4x2048x1024.Idx → EReal) (x3 : S1024x1024.Idx → EReal) (x4 : S1024.Idx → EReal)
  (x5 : S1024x1024.Idx → EReal) (x6 : S1024.Idx → EReal) (x7 : S1024x1024.Idx → EReal) (x8 : S1024.Idx → EReal)

theorem score_apply (n : Fin 4) (q k : Fin 2048) :
    val_main_v15 (F := Ideal) x0 x1 x3 x4 x5 x6 (ix3 n q k)
      = score (lin (c3 x0) (c2 x3) (c1 x4)) (lin (c3 x1) (c2 x5) (c1 x6)) n q k := by
  rw [val_main_v15_apply, val_main_v12_apply, val_main_v14_apply, val_main_v13_apply, val_main_cst_apply]
  simp only [lidx_score, ridx_score, v7_eq_v3, lin_apply]
  exact div_sqrt_1024 _

/-! ### The row maximum -/

theorem idx_row (n : Fin 4) (q k : Fin 2048) : idx_main_v19 (idx_main_v20 (ix3 n q k)) = ix2 n q :=
  funext fun a => by match a with | ⟨0, _⟩ => rfl | ⟨1, _⟩ => rfl
theorem idx_row' (n : Fin 4) (q k : Fin 2048) : idx_main_v24 (idx_main_v25 (ix3 n q k)) = ix2 n q :=
  funext fun a => by match a with | ⟨0, _⟩ => rfl | ⟨1, _⟩ => rfl
theorem idx_sum (n : Fin 4) (q k : Fin 2048) : idx_main_v23 (ix2 n q) k = ix3 n q k :=
  funext fun a => by match a with | ⟨0, _⟩ => rfl | ⟨1, _⟩ => rfl | ⟨2, _⟩ => rfl

theorem rowmax_fold (y : S4x2048x2048.Idx → EReal) (init : S_.Idx → EReal) (h' : S4x2048x2048.ReducesTo [2] S4x2048)
    (hu : 0 < S_.numel) (n : Fin 4) (q : Fin 2048) :
    Host.reduce (FloatOps.maximumf (F := Ideal) (φ := .f32)) y init h' hu (ix2 n q)
      = Finset.univ.fold max (init (Shape.Idx.first hu)) (fun k : Fin 2048 => y (ix3 n q k)) := by
  refine (Host.reduce_eq_fold_single (FloatOps.maximumf (F := Ideal) (φ := .f32)) y init h' (by decide) hu (ix2 n q)).trans ?_
  refine congrArg (fun f : Fin 2048 → EReal => Finset.fold max (init (Shape.Idx.first hu)) f Finset.univ)
    (funext fun k => congrArg y (funext fun a => Fin.ext ?_))
  match a with | ⟨0, _⟩ => rfl | ⟨1, _⟩ => rfl | ⟨2, _⟩ => rfl

theorem rowmax_apply (n : Fin 4) (q : Fin 2048) :
    val_main_v18 (F := Ideal) x0 x1 x3 x4 x5 x6 (ix2 n q)
      = max ⊥ (Finset.univ.sup (score (lin (c3 x0) (c2 x3) (c1 x4)) (lin (c3 x1) (c2 x5) (c1 x6)) n q)) := by
  rw [val_main_v18_apply, val_main_v17_apply, val_main_cst_1_apply]
  unfold val_main_v16
  rw [rowmax_fold, val_main_cst_0_apply]
  simp only [score_apply, Ideal.ofBits_def, ofBits_neg_inf]
  rfl

/-! ### Weights, denominator, output -/

theorem weight_apply (n : Fin 4) (q k : Fin 2048) :
    val_main_v22 (F := Ideal) x0 x1 x3 x4 x5 x6 (ix3 n q k)
      = Ideal.exp (score (lin (c3 x0) (c2 x3) (c1 x4)) (lin (c3 x1) (c2 x5) (c1 x6)) n q k
          - max ⊥ (Finset.univ.sup (score (lin (c3 x0) (c2 x3) (c1 x4)) (lin (c3 x1) (c2 x5) (c1 x6)) n q))) := by
  rw [val_main_v22_apply, val_main_v21_apply, val_main_v20_apply, val_main_v19_apply, idx_row, rowmax_apply, score_apply]
  rfl

theorem denom_apply (n : Fin 4) (q : Fin 2048) :
    val_main_v23 (F := Ideal) x0 x1 x3 x4 x5 x6 (ix2 n q)
      = 0 + ∑ j : Fin 2048, Ideal.exp (score (lin (c3 x0) (c2 x3) (c1 x4)) (lin (c3 x1) (c2 x5) (c1 x6)) n q j
          - max ⊥ (Finset.univ.sup (score (lin (c3 x0) (c2 x3) (c1 x4)) (lin (c3 x1) (c2 x5) (c1 x6)) n q))) := by
  rw [val_main_v23_apply, val_main_cst_2_apply]
  simp only [idx_sum, weight_apply, Ideal.ofBits_def, Ideal.ofBits_zero_f32]

theorem lidx_out (n : Fin 4) (q : Fin 2048) (e : Fin 1024) (k : Fin 2048) : lidx_main_v27 (ix3 n q e) k = ix3 n q k :=
  funext fun a => by match a with | ⟨0, _⟩ => rfl | ⟨1, _⟩ => rfl | ⟨2, _⟩ => rfl
theorem ridx_out (n : Fin 4) (q : Fin 2048) (e : Fin 1024) (k : Fin 2048) : ridx_main_v27 (ix3 n q e) k = ix3 n k e :=
  funext fun a => by match a with | ⟨0, _⟩ => rfl | ⟨1, _⟩ => rfl | ⟨2, _⟩ => rfl

/-- The reference's result, read at (n, q, e), is the specification. -/
theorem ref_eq_G (n : Fin 4) (q : Fin 2048) (e : Fin 1024) :
    val_main_v27 (F := Ideal) x0 x1 x2 x3 x4 x5 x6 x7 x8 (ix3 n q e)
      = G (c3 x0) (c3 x1) (c3 x2) (c2 x3) (c1 x4) (c2 x5) (c1 x6) (c2 x7) (c1 x8) n q e := by
  rw [val_main_v27_apply]
  simp only [lidx_out, ridx_out, val_main_v26_apply, val_main_v25_apply, val_main_v24_apply, idx_row', denom_apply,
    weight_apply, v11_eq_v3, lin_apply]
  rfl

/-- The reference's result as one function of the index. -/
theorem ref_eq_fun :
    val_main_v27 (F := Ideal) x0 x1 x2 x3 x4 x5 x6 x7 x8
      = fun i => G (c3 x0) (c3 x1) (c3 x2) (c2 x3) (c1 x4) (c2 x5) (c1 x6) (c2 x7) (c1 x8) (i 0) (i 1) (i 2) :=
  funext fun i => (congrArg (val_main_v27 (F := Ideal) x0 x1 x2 x3 x4 x5 x6 x7 x8) (eq_ix3 i)).trans
    (ref_eq_G x0 x1 x2 x3 x4 x5 x6 x7 x8 (i 0) (i 1) (i 2))

end

open Idealize.ShloMosaic.TcCoe Idealize.SL.Sem in
/-- The result term of the reference run, on device c from the memory m, is the specification of the nine argument
    arrays found in m. -/
theorem res_eq_G (m : (ℓ : Loc nD τ sig) → Buf (Elt Ideal) ℓ) (c : Dev nD) :
    Cert.ReferenceIdeal.Value.res_main_v27 m c
      = fun i => G (c3 (m ((c.tc : Thread nD τ).loc main_arg0))) (c3 (m ((c.tc : Thread nD τ).loc main_arg1)))
          (c3 (m ((c.tc : Thread nD τ).loc main_arg2))) (c2 (m ((c.tc : Thread nD τ).loc main_arg3)))
          (c1 (m ((c.tc : Thread nD τ).loc main_arg4))) (c2 (m ((c.tc : Thread nD τ).loc main_arg5)))
          (c1 (m ((c.tc : Thread nD τ).loc main_arg6))) (c2 (m ((c.tc : Thread nD τ).loc main_arg7)))
          (c1 (m ((c.tc : Thread nD τ).loc main_arg8))) (i 0) (i 1) (i 2) :=
  (val_main_v27_eq m c).trans (ref_eq_fun _ _ _ _ _ _ _ _ _)

end Cert.ReferenceIdeal.RefValue

end
-- ==== Proof.Finite.lean ====
/-
  Finiteness from the precondition. The precondition says, of each of the nine argument arrays, that every
  entry x satisfies |x| < +∞ (the conjunction over the whole array, then over the nine arrays, is the one bit 1).
  On the extended reals |x| = max x (-x) is +∞ exactly at the two infinities, so every entry is a real number.
-/
import Idealize.ShloMosaic.Lib.ReduceAll
import Idealize.ShloMosaic.Lib.ValueIdx
import proofs.«160587_j66159676228012_2_alg».proof.Proof.Gen.Pre_finite_inputs
import proofs.«160587_j66159676228012_2_alg».proof.Proof.Curry

noncomputable section

namespace Cert.Attn

open Idealize.ShloMosaic Idealize.ShloMosaic.ValueIdx Cert.Pre_finite_inputs

/-- The scalar shape has one index. -/
instance subsingleton_scalar_idx : Subsingleton S_.Idx := ⟨fun a b => funext fun d => d.elim0⟩

/-- The word 0x7F800000 is +∞. -/
theorem ofBits_pos_inf : Ideal.ofBits .f32 0x7F800000#32 = (⊤ : EReal) := by simp [Ideal.ofBits, Ideal.ieee]

/-- An extended real whose absolute value compares below +∞ is a real number. -/
theorem real_of_abs_lt_top (x : EReal) (h : Ideal.cmp .olt (max x (-x)) (Ideal.ofBits .f32 0x7F800000#32) = 1#1) :
    ∃ r : ℝ, x = (r : EReal) := by
  rw [ofBits_pos_inf] at h
  induction x using EReal.rec with
  | bot => simp [Ideal.cmp] at h
  | coe r => exact ⟨r, rfl⟩
  | top => simp [Ideal.cmp] at h

/-- One array's conjunct: if "|x| < +∞ everywhere" reduces to the bit 1, every entry of x is real. -/
theorem real_of_all {s : Shape} (x : FVec Ideal s .f32) (hb : S_.BroadcastsInDim s (![] : Fin 0 → Fin s.rank))
    {axes : List (Fin s.rank)} (hr : s.ReducesTo axes S_) (hu : 0 < S_.numel)
    (e : Host.reduce IntOp.andi (cmpf .olt (Host.absf x) (broadcastInDim s ![] hb (constant (F := Ideal) S_ .f32 0x7F800000#32)))
          (constantI S_ 1 1#1) hr hu ix0 = 1#1) (i : s.Idx) : ∃ r : ℝ, x i = (r : EReal) :=
  real_of_abs_lt_top (x i) (Host.reduce_andi_all _ _ hr hu ix0 e i)

/-- The precondition on nine arrays makes every entry of each a real number. -/
theorem real_of_pre (a0 a1 a2 : S4x2048x1024.Idx → EReal) (a3 : S1024x1024.Idx → EReal) (a4 : S1024.Idx → EReal)
    (a5 : S1024x1024.Idx → EReal) (a6 : S1024.Idx → EReal) (a7 : S1024x1024.Idx → EReal) (a8 : S1024.Idx → EReal)
    (h : Cert.Pre_finite_inputs.fn (F := Ideal) a0 a1 a2 a3 a4 a5 a6 a7 a8 = fun _ => 1#1) :
    Real3 (c3 a0) ∧ Real3 (c3 a1) ∧ Real3 (c3 a2) ∧ RealM (c2 a3) ∧ RealB (c1 a4) ∧ RealM (c2 a5) ∧ RealB (c1 a6)
      ∧ RealM (c2 a7) ∧ RealB (c1 a8) := by
  have h0 := congrFun h ix0
  dsimp only [Cert.Pre_finite_inputs.fn, Cert.Pre_finite_inputs.fn_part1, Cert.Pre_finite_inputs.fn_part2] at h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨fun n s d => real_of_all a0 _ _ _ e0 _, fun n s d => real_of_all a1 _ _ _ e1 _,
    fun n s d => real_of_all a2 _ _ _ e2 _, fun e d => real_of_all a3 _ _ _ e3 _, fun e => real_of_all a4 _ _ _ e4 _,
    fun e d => real_of_all a5 _ _ _ e5 _, fun e => real_of_all a6 _ _ _ e6 _, fun e d => real_of_all a7 _ _ _ e7 _,
    fun e => real_of_all a8 _ _ _ e8 _⟩

end Cert.Attn

end
-- ==== Proof.lean ====
/-
  A fused attention kernel against softmax attention.

  Three linear layers give queries, keys and values from x, y, z; the scores Q Kᵀ are scaled by 1/√1024 = 1/32; a
  softmax over the 2048 keys of a batch weighs the values. The kernel walks a 4 × 8 grid: for each batch, four
  points project one 512-row tile of keys and of values each into two resident buffers, then four points project
  one 512-row tile of queries each and run an ONLINE softmax over the four resident tiles — a running maximum, a
  running denominator and a running numerator, rescaled by exp(m - m') whenever the maximum grows — and divide at
  the end. The reference computes the whole softmax at once.

  The frames: the body at a point is run symbolically in each phase; the region's invariant says which tiles the
  resident buffers hold before each point; the same text proves the word-level kernel's frame and the idealized one's.
  The reference's frame is its generated run.
  The value, over the extended reals: each output block is the online softmax of its query rows against the batch's
  tiles (read off the body's arithmetic index by index), the tiles and query rows are the linear layers of the
  arguments, the blocks tile the result array, and on real inputs — which the precondition gives — the online
  softmax IS the softmax (exp(M - M')·exp(s - M) = exp(s - M'), and a quotient moves across a finite sum of reals).
  The reference's result is the same function by reading its operations at an index; its quotient by √1024 is the
  kernel's product with 1/32.
-/
import proofs.«160587_j66159676228012_2_alg».proof.Defs
import proofs.«160587_j66159676228012_2_alg».proof.Proof.Gen.Kernel
import proofs.«160587_j66159676228012_2_alg».proof.Proof.Gen.Kernel.Skeleton
import proofs.«160587_j66159676228012_2_alg».proof.Proof.Gen.Kernel.Launch
import proofs.«160587_j66159676228012_2_alg».proof.Proof.Gen.Kernel.Points
import proofs.«160587_j66159676228012_2_alg».proof.Proof.Gen.Kernel.Frame
import proofs.«160587_j66159676228012_2_alg».proof.Proof.Gen.KernelIdeal
import proofs.«160587_j66159676228012_2_alg».proof.Proof.Gen.KernelIdeal.Skeleton
import proofs.«160587_j66159676228012_2_alg».proof.Proof.Gen.KernelIdeal.Launch
import proofs.«160587_j66159676228012_2_alg».proof.Proof.Gen.KernelIdeal.Points
import proofs.«160587_j66159676228012_2_alg».proof.Proof.Gen.KernelIdeal.Frame
import proofs.«160587_j66159676228012_2_alg».proof.Proof.Gen.ReferenceIdeal
import proofs.«160587_j66159676228012_2_alg».proof.Proof.Gen.Pre_finite_inputs
import proofs.«160587_j66159676228012_2_alg».proof.Proof.Gen.ReferenceIdeal.Read
import proofs.«160587_j66159676228012_2_alg».proof.Proof.KB.Body
import proofs.«160587_j66159676228012_2_alg».proof.Proof.KI.Final
import proofs.«160587_j66159676228012_2_alg».proof.Proof.RefSpec
import proofs.«160587_j66159676228012_2_alg».proof.Proof.Finite
import Idealize.ShloMosaic.Adequacy
import Idealize.ShloMosaic.Init

noncomputable section

namespace Cert.Proof

open Idealize.ShloMosaic Idealize.SL.Sem

/-- The word-level kernel runs to the end, faults nowhere, and leaves its arguments unchanged. -/
theorem frame_k : @Cert.frame_Kernel Cert.Kernel.Gen.facts Cert.Pre_finite_inputs.Gen.facts :=
  fun m ρ _ => Cert.Kernel.Hand.frame m ρ

/-- So does the idealized kernel. -/
theorem frame_ki : @Cert.frame_KernelIdeal Cert.KernelIdeal.Gen.facts Cert.Pre_finite_inputs.Gen.facts :=
  fun m ρ _ => Cert.KernelIdeal.Hand.frame m ρ

/-- The reference's frame is its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- On finite inputs both idealized programs end with the specification of the arguments in their result. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.Hand.Gb m c,
    Cert.KernelIdeal.Hand.run_value m ρ (fun c => Cert.Attn.real_of_pre _ _ _ _ _ _ _ _ _ (hpre c)), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.res_eq_G m' c, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
